-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512 : Shape := ⟨3, ![16, 64, 512]⟩
abbrev S16x2048 : Shape := ⟨2, ![16, 2048]⟩
abbrev S512x1024 : Shape := ⟨2, ![512, 1024]⟩
abbrev S512 : Shape := ⟨1, ![512]⟩
abbrev S512x512 : Shape := ⟨2, ![512, 512]⟩
abbrev S512x2048 : Shape := ⟨2, ![512, 2048]⟩
abbrev S2x512 : Shape := ⟨2, ![2, 512]⟩
abbrev S2 : Shape := ⟨1, ![2]⟩
abbrev S_ : Shape := ⟨0, ![]⟩

class Facts : Prop where
  bcast_S_S16x64x512 : S_.BroadcastsInDim S16x64x512 (![] : Fin 0 → Fin S16x64x512.rank)
  reducesTo_S16x64x512_S_d0_1_2 : S16x64x512.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2x512 .f32) (main_arg15 : FVec F S2 .f32) (main_v63 : IVec S_ 1) (main_v67 : IVec S_ 1) : IVec S_ 1 :=
  let main_v68 : IVec S_ 1 := andi main_v63 main_v67
  let main_v69 : FVec F S2x512 .f32 := Host.absf main_arg14
  let main_cst_26 : FVec F S_ .f32 := constant S_ .f32 0x7F800000#32
  let main_v70 : FVec F S2x512 .f32 := broadcastInDim S2x512 ![] bcast_S_S2x512 main_cst_26
  let main_v71 : IVec S2x512 1 := cmpf .olt main_v69 main_v70
  let main_c_27 : IVec S_ 1 := constantI S_ 1 1#1
  let main_v72 : IVec S_ 1 := (fun x v => Host.reduce IntOp.andi x v reducesTo_S2x512_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S512 .f32) (main_arg12 : FVec F S512x1024 .f32) (main_arg13 : FVec F S512 .f32) (main_arg14 : FVec F S2x512 .f32) (main_arg15 : FVec F S2 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512x2048 .f32) (main_arg9 : FVec F S512 .f32) (main_arg10 : FVec F S512 .f32) (main_arg11 : FVec F S512 .f32) (main_arg12 : FVec F S512x1024 .f32) (main_arg13 : FVec F S512 .f32) (main_arg14 : FVec F S2x512 .f32) (main_arg15 : FVec F S2 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x2048 .f32 := Host.absf main_arg8
  let main_cst_14 : FVec F S_ .f32 := constant S_ .f32 0x7F800000#32
  let main_v40 : FVec F S512x2048 .f32 := broadcastInDim S512x2048 ![] bcast_S_S512x2048 main_cst_14
  let main_v41 : IVec S512x2048 1 := cmpf .olt main_v39 main_v40
  let main_c_15 : IVec S_ 1 := constantI S_ 1 1#1
  let main_v42 : IVec S_ 1 := (fun x v => Host.reduce IntOp.andi x v reducesTo_S512x2048_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x2048 .f32) (main_arg9 : FVec F S512 .f32) (main_arg10 : FVec F S512 .f32) (main_arg11 : FVec F S512 .f32) (main_arg12 : FVec F S512x1024 .f32) (main_arg13 : FVec F S512 .f32) (main_arg14 : FVec F S2x512 .f32) (main_arg15 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16x64x512 .f32) (main_arg1 : FVec F S16x2048 .f32) (main_arg2 : FVec F S512x1024 .f32) (main_arg3 : FVec F S512 .f32) (main_arg4 : FVec F S512x512 .f32) (main_arg5 : FVec F S512 .f32) (main_arg6 : FVec F S512x512 .f32) (main_arg7 : FVec F S512 .f32) (main_arg8 : FVec F S512x2048 .f32) (main_arg9 : FVec F S512 .f32) (main_arg10 : FVec F S512 .f32) (main_arg11 : FVec F S512 .f32) (main_arg12 : FVec F S512x1024 .f32) (main_arg13 : FVec F S512 .f32) (main_arg14 : FVec F S2x512 .f32) (main_arg15 : FVec F S2 .f32) : IVec S_ 1 :=
  let main_v0 : FVec F S16x64x512 .f32 := Host.absf main_arg0
  let main_cst : FVec F S_ .f32 := constant S_ .f32 0x7F800000#32
  let main_v1 : FVec F S16x64x512 .f32 := broadcastInDim S16x64x512 ![] bcast_S_S16x64x512 main_cst
  let main_v2 : IVec S16x64x512 1 := cmpf .olt main_v0 main_v1
  let main_c : IVec S_ 1 := constantI S_ 1 1#1
  let main_v3 : IVec S_ 1 := (fun x v => Host.reduce IntOp.andi x v reducesTo_S16x64x512_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16x64x512 : Shape := ⟨3, ![16, 64, 512]⟩
abbrev S16x2048 : Shape := ⟨2, ![16, 2048]⟩
abbrev S512x1024 : Shape := ⟨2, ![512, 1024]⟩
abbrev S512 : Shape := ⟨1, ![512]⟩
abbrev S512x512 : Shape := ⟨2, ![512, 512]⟩
abbrev S512x2048 : Shape := ⟨2, ![512, 2048]⟩
abbrev S2x512 : Shape := ⟨2, ![2, 512]⟩
abbrev S2 : Shape := ⟨1, ![2]⟩
abbrev S16x1x64x512 : Shape := ⟨4, ![16, 1, 64, 512]⟩
abbrev S16x64x64x512 : Shape := ⟨4, ![16, 64, 64, 512]⟩
abbrev S16x4096x512 : Shape := ⟨3, ![16, 4096, 512]⟩
abbrev S16x64x512x1 : Shape := ⟨4, ![16, 64, 512, 1]⟩
abbrev S16x64x512x64 : Shape := ⟨4, ![16, 64, 512, 64]⟩
abbrev S1x512 : Shape := ⟨2, ![1, 512]⟩
abbrev S16x512 : Shape := ⟨2, ![16, 512]⟩
abbrev S1x2048x512 : Shape := ⟨3, ![1, 2048, 512]⟩
abbrev S2048x512 : Shape := ⟨2, ![2048, 512]⟩
abbrev S1024x512 : Shape := ⟨2, ![1024, 512]⟩
abbrev S512x2 : Shape := ⟨2, ![512, 2]⟩
abbrev S1x2 : Shape := ⟨2, ![1, 2]⟩
abbrev S16x2 : Shape := ⟨2, ![16, 2]⟩
abbrev S16x1024 : Shape := ⟨2, ![16, 1024]⟩

abbrev nBuf : Space → Nat
  | .hbm => 50
  | .vmem => 23
  | .smem => 0
  | _ => 0

abbrev bufTy : (tb : Table) → Fin (tcTables nBuf tb) → BufTy
  | .hbm, ⟨0, _⟩ => ⟨S16x64x512, .f32⟩
  | .hbm, ⟨1, _⟩ => ⟨S16x2048, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x2048, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512, .f32⟩
  | .hbm, ⟨14, _⟩ => ⟨S2x512, .f32⟩
  | .hbm, ⟨15, _⟩ => ⟨S2, .f32⟩
  | .hbm, ⟨16, _⟩ => ⟨S16x64x512, .bf16⟩
  | .hbm, ⟨17, _⟩ => ⟨S16x1x64x512, .bf16⟩
  | .hbm, ⟨18, _⟩ => ⟨S16x64x64x512, .bf16⟩
  | .hbm, ⟨19, _⟩ => ⟨S16x4096x512, .bf16⟩
  | .hbm, ⟨20, _⟩ => ⟨S16x64x512x1, .bf16⟩
  | .hbm, ⟨21, _⟩ => ⟨S16x64x512x64, .bf16⟩
  | .hbm, ⟨22, _⟩ => ⟨S16x4096x512, .bf16⟩
  | .hbm, ⟨23, _⟩ => ⟨S512x512, .f32⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .f32⟩
  | .hbm, ⟨28, _⟩ => ⟨S512x512, .bf16⟩
  | .hbm, ⟨29, _⟩ => ⟨S512x512, .f32⟩
  | .hbm, ⟨30, _⟩ => ⟨S512x512, .bf16⟩
  | .hbm, ⟨31, _⟩ => ⟨S512x512, .f32⟩
  | .hbm, ⟨32, _⟩ => ⟨S512x512, .bf16⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S16x512, .f32⟩
  | .hbm, ⟨37, _⟩ => ⟨S16x2048, .bf16⟩
  | .hbm, ⟨38, _⟩ => ⟨S2048x512, .f32⟩
  | .hbm, ⟨39, _⟩ => ⟨S2048x512, .bf16⟩
  | .hbm, ⟨40, _⟩ => ⟨S1024x512, .f32⟩
  | .hbm, ⟨41, _⟩ => ⟨S1024x512, .bf16⟩
  | .hbm, ⟨42, _⟩ => ⟨S512x2, .f32⟩
  | .hbm, ⟨43, _⟩ => ⟨S512x2, .bf16⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x2, .f32⟩
  | .hbm, ⟨49, _⟩ => ⟨S16x2, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S16x512, .f32⟩
  | .local _ .vmem, ⟨12, _⟩ => ⟨S16x2048, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S16x512, .f32⟩
  | .local _ .vmem, ⟨18, _⟩ => ⟨S1024x512, .bf16⟩
  | .local _ .vmem, ⟨19, _⟩ => ⟨S1x512, .f32⟩
  | .local _ .vmem, ⟨20, _⟩ => ⟨S512x2, .bf16⟩
  | .local _ .vmem, ⟨21, _⟩ => ⟨S1x2, .f32⟩
  | .local _ .vmem, ⟨22, _⟩ => ⟨S16x2, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x2 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  bitsLt_bf16_f32 : FTy.bits .bf16 < FTy.bits .f32
  bcast_S16x64x512_S16x1x64x512_0_2_3 : S16x64x512.BroadcastsInDim S16x1x64x512 (![0, 2, 3] : Fin 3 → Fin S16x1x64x512.rank)
  bcast_S16x1x64x512_S16x64x64x512_0_1_2_3 : S16x1x64x512.BroadcastsInDim S16x64x64x512 (![0, 1, 2, 3] : Fin 4 → Fin S16x64x64x512.rank)
  shapeCasts_S16x64x64x512_S16x4096x512 : S16x64x64x512.ShapeCasts S16x4096x512
  bcast_S16x64x512_S16x64x512x1_0_1_2 : S16x64x512.BroadcastsInDim S16x64x512x1 (![0, 1, 2] : Fin 3 → Fin S16x64x512x1.rank)
  bcast_S16x64x512x1_S16x64x512x64_0_1_2_3 : S16x64x512x1.BroadcastsInDim S16x64x512x64 (![0, 1, 2, 3] : Fin 4 → Fin S16x64x512x64.rank)
  shapeCasts_S16x64x512x64_S16x4096x512 : S16x64x512x64.ShapeCasts S16x4096x512
  slices_S512x1024_S512x512_0_0 : S512x1024.Slices ![0, 0] S512x512
  transposes_S512x512_S512x512_1_0 : S512x512.Transposes [1, 0] S512x512
  slices_S512x1024_S512x512_0_512 : S512x1024.Slices ![0, 512] S512x512
  shapeCasts_S512_S1x512 : S512.ShapeCasts S1x512
  inb_S16x512_S16x512_0_0 : ∀ a, (![0, 0] : Fin 2 → Nat) a + S16x512.size a ≤ S16x512.size a
  h_S16x512 : 0 < S16x512.numel
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S512 : S2048x512.Reduces [0] S512
  iota_S16x512_d0_w32 : S16x512.Iotas .tc 32 [0]
  broadcasts_S1x512_S16x512 : S1x512.Broadcasts S16x512
  shapeCasts_S16x512_S16x512 : S16x512.ShapeCasts S16x512
  transposes_S512x2048_S2048x512_1_0 : S512x2048.Transposes [1, 0] S2048x512
  transposes_S512x1024_S1024x512_1_0 : S512x1024.Transposes [1, 0] S1024x512
  transposes_S2x512_S512x2_1_0 : S2x512.Transposes [1, 0] S512x2
  shapeCasts_S2_S1x2 : S2.ShapeCasts S1x2
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S16x512_S512 : S16x512.Reduces [0] S512
  concatenates_S16x512_S16x512_S16x1024_d1 : Shape.Concatenates [S16x512, S16x512] S16x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S16x2 : S1x2.Broadcasts S16x2
  inb_S16x2_S16x2_0_0 : ∀ a, (![0, 0] : Fin 2 → Nat) a + S16x2.size a ≤ S16x2.size a
  h_S16x2 : 0 < S16x2.numel
  dot_S2048x512_S512x512_S2048x512_1_0_0_1_n_n_wf : DotDims.WF S2048x512 S512x512 S2048x512 [1] [0] [0] [1] [] []
  dot_S16x2048_S2048x512_S16x512_1_0_0_1_n_n_wf : DotDims.WF S16x2048 S2048x512 S16x512 [1] [0] [0] [1] [] []
  dot_S16x1024_S1024x512_S16x512_1_0_0_1_n_n_wf : DotDims.WF S16x1024 S1024x512 S16x512 [1] [0] [0] [1] [] []
  dot_S16x512_S512x2_S16x2_1_0_0_1_n_n_wf : DotDims.WF S16x512 S512x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x4096x512.size a
  hwx0_0 : ∀ i : grid0.Coords, EltTy.bits .bf16 = 32 ∨ (Rect.block (s := S16x4096x512) S1x2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x4096x512.size a
  hwx0_1 : ∀ i : grid0.Coords, EltTy.bits .bf16 = 32 ∨ (Rect.block (s := S16x4096x512) S1x2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x512.size a ≤ S16x512.size a
  hwx0_9 : ∀ i : grid0.Coords, EltTy.bits .f32 = 32 ∨ (Rect.block (s := S16x512) S16x512.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x2048.size a
  hwx1_0 : ∀ i : grid1.Coords, EltTy.bits .bf16 = 32 ∨ (Rect.block (s := S16x2048) S16x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x512.size a ≤ S16x512.size a
  hwx1_5 : ∀ i : grid1.Coords, EltTy.bits .f32 = 32 ∨ (Rect.block (s := S16x512) S16x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S1024x512.size a
  hwx1_6 : ∀ i : grid1.Coords, EltTy.bits .bf16 = 32 ∨ (Rect.block (s := S1024x512) S1024x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x2.size a ≤ S512x2.size a
  hwx1_8 : ∀ i : grid1.Coords, EltTy.bits .bf16 = 32 ∨ (Rect.block (s := S512x2) S512x2.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2.size a ≤ S1x2.size a
  hwx1_9 : ∀ i : grid1.Coords, EltTy.bits .f32 = 32 ∨ (Rect.block (s := S1x2) S1x2.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S16x2.size a ≤ S16x2.size a
  hwx1_10 : ∀ i : grid1.Coords, EltTy.bits .f32 = 32 ∨ (Rect.block (s := S16x2) S16x2.size (cc1_transform_10 i) (hinb1_10 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S16x512_S512x2_S16x2_1_0_0_1_n_n : DotDims S16x512 S512x2 S16x2 where
  lhsContracting := [1]
  rhsContracting := [0]
  lhsNonContracting := [0]
  rhsNonContracting := [1]
  lhsBatch := []
  rhsBatch := []
  wf := dot_S16x512_S512x2_S16x2_1_0_0_1_n_n_wf

abbrev win0_0 : Pipeline.Window sig grid0 :=
  Pipeline.Window.ofSpec (Memref.whole main_v3) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S16x512.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v21) S16x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S16x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1024x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S512x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S16x2.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16x64x512 : Shape := ⟨3, ![16, 64, 512]⟩
abbrev S16x2048 : Shape := ⟨2, ![16, 2048]⟩
abbrev S512x1024 : Shape := ⟨2, ![512, 1024]⟩
abbrev S512 : Shape := ⟨1, ![512]⟩
abbrev S512x512 : Shape := ⟨2, ![512, 512]⟩
abbrev S512x2048 : Shape := ⟨2, ![512, 2048]⟩
abbrev S2x512 : Shape := ⟨2, ![2, 512]⟩
abbrev S2 : Shape := ⟨1, ![2]⟩
abbrev S16x1x64x512 : Shape := ⟨4, ![16, 1, 64, 512]⟩
abbrev S16x64x64x512 : Shape := ⟨4, ![16, 64, 64, 512]⟩
abbrev S16x4096x512 : Shape := ⟨3, ![16, 4096, 512]⟩
abbrev S16x64x512x1 : Shape := ⟨4, ![16, 64, 512, 1]⟩
abbrev S16x64x512x64 : Shape := ⟨4, ![16, 64, 512, 64]⟩
abbrev S16x4096x1024 : Shape := ⟨3, ![16, 4096, 1024]⟩
abbrev S65536x1024 : Shape := ⟨2, ![65536, 1024]⟩
abbrev S1024x512 : Shape := ⟨2, ![1024, 512]⟩
abbrev S65536x512 : Shape := ⟨2, ![65536, 512]⟩
abbrev S1x512 : Shape := ⟨2, ![1, 512]⟩
abbrev S_ : Shape := ⟨0, ![]⟩
abbrev S16x512 : Shape := ⟨2, ![16, 512]⟩
abbrev S2048x512 : Shape := ⟨2, ![2048, 512]⟩
abbrev S16x1024 : Shape := ⟨2, ![16, 1024]⟩
abbrev S512x2 : Shape := ⟨2, ![512, 2]⟩
abbrev S16x2 : Shape := ⟨2, ![16, 2]⟩
abbrev S1x2 : Shape := ⟨2, ![1, 2]⟩

abbrev nBuf : Space → Nat
  | .hbm => 106
  | .vmem => 0
  | .smem => 0
  | _ => 0

abbrev bufTy : (tb : Table) → Fin (tcTables nBuf tb) → BufTy
  | .hbm, ⟨0, _⟩ => ⟨S16x64x512, .f32⟩
  | .hbm, ⟨1, _⟩ => ⟨S16x2048, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x2048, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512, .f32⟩
  | .hbm, ⟨14, _⟩ => ⟨S2x512, .f32⟩
  | .hbm, ⟨15, _⟩ => ⟨S2, .f32⟩
  | .hbm, ⟨16, _⟩ => ⟨S16x1x64x512, .f32⟩
  | .hbm, ⟨17, _⟩ => ⟨S16x64x64x512, .f32⟩
  | .hbm, ⟨18, _⟩ => ⟨S16x4096x512, .f32⟩
  | .hbm, ⟨19, _⟩ => ⟨S16x64x512x1, .f32⟩
  | .hbm, ⟨20, _⟩ => ⟨S16x64x512x64, .f32⟩
  | .hbm, ⟨21, _⟩ => ⟨S16x4096x512, .f32⟩
  | .hbm, ⟨22, _⟩ => ⟨S16x4096x1024, .f32⟩
  | .hbm, ⟨23, _⟩ => ⟨S65536x1024, .f32⟩
  | .hbm, ⟨24, _⟩ => ⟨S1024x512, .f32⟩
  | .hbm, ⟨25, _⟩ => ⟨S65536x512, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S_, .f32⟩
  | .hbm, ⟨30, _⟩ => ⟨S65536x512, .f32⟩
  | .hbm, ⟨31, _⟩ => ⟨S65536x512, .f32⟩
  | .hbm, ⟨32, _⟩ => ⟨S512x512, .f32⟩
  | .hbm, ⟨33, _⟩ => ⟨S65536x512, .f32⟩
  | .hbm, ⟨34, _⟩ => ⟨S1x512, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S512x512, .f32⟩
  | .hbm, ⟨41, _⟩ => ⟨S65536x512, .f32⟩
  | .hbm, ⟨42, _⟩ => ⟨S1x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S16x4096x512, .f32⟩
  | .hbm, ⟨49, _⟩ => ⟨S_, .f32⟩
  | .hbm, ⟨50, _⟩ => ⟨S16x512, .f32⟩
  | .hbm, ⟨51, _⟩ => ⟨S_, .f32⟩
  | .hbm, ⟨52, _⟩ => ⟨S16x512, .f32⟩
  | .hbm, ⟨53, _⟩ => ⟨S16x512, .f32⟩
  | .hbm, ⟨54, _⟩ => ⟨S2048x512, .f32⟩
  | .hbm, ⟨55, _⟩ => ⟨S16x512, .f32⟩
  | .hbm, ⟨56, _⟩ => ⟨S1x512, .f32⟩
  | .hbm, ⟨57, _⟩ => ⟨S16x512, .f32⟩
  | .hbm, ⟨58, _⟩ => ⟨S16x512, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S1x512, .f32⟩
  | .hbm, ⟨65, _⟩ => ⟨S16x512, .f32⟩
  | .hbm, ⟨66, _⟩ => ⟨S16x512, .f32⟩
  | .hbm, ⟨67, _⟩ => ⟨S16x512, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S16x512, .f32⟩
  | .hbm, ⟨75, _⟩ => ⟨S16x512, .f32⟩
  | .hbm, ⟨76, _⟩ => ⟨S1x512, .f32⟩
  | .hbm, ⟨77, _⟩ => ⟨S16x512, .f32⟩
  | .hbm, ⟨78, _⟩ => ⟨S16x512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S1x512, .f32⟩
  | .hbm, ⟨84, _⟩ => ⟨S16x512, .f32⟩
  | .hbm, ⟨85, _⟩ => ⟨S16x512, .f32⟩
  | .hbm, ⟨86, _⟩ => ⟨S1x512, .f32⟩
  | .hbm, ⟨87, _⟩ => ⟨S16x512, .f32⟩
  | .hbm, ⟨88, _⟩ => ⟨S16x512, .f32⟩
  | .hbm, ⟨89, _⟩ => ⟨S_, .f32⟩
  | .hbm, ⟨90, _⟩ => ⟨S16x512, .f32⟩
  | .hbm, ⟨91, _⟩ => ⟨S16x512, .f32⟩
  | .hbm, ⟨92, _⟩ => ⟨S16x1024, .f32⟩
  | .hbm, ⟨93, _⟩ => ⟨S1024x512, .f32⟩
  | .hbm, ⟨94, _⟩ => ⟨S16x512, .f32⟩
  | .hbm, ⟨95, _⟩ => ⟨S1x512, .f32⟩
  | .hbm, ⟨96, _⟩ => ⟨S16x512, .f32⟩
  | .hbm, ⟨97, _⟩ => ⟨S16x512, .f32⟩
  | .hbm, ⟨98, _⟩ => ⟨S_, .f32⟩
  | .hbm, ⟨99, _⟩ => ⟨S16x512, .f32⟩
  | .hbm, ⟨100, _⟩ => ⟨S16x512, .f32⟩
  | .hbm, ⟨101, _⟩ => ⟨S512x2, .f32⟩
  | .hbm, ⟨102, _⟩ => ⟨S16x2, .f32⟩
  | .hbm, ⟨103, _⟩ => ⟨S1x2, .f32⟩
  | .hbm, ⟨104, _⟩ => ⟨S16x2, .f32⟩
  | .hbm, ⟨105, _⟩ => ⟨S16x2, .f32⟩
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call0_cst : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_cst : Ref sig .tc := ⟨.hbm, 45, rfl⟩
abbrev main_call2_v0 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_1 : Ref sig .tc := ⟨.hbm, 59, rfl⟩
abbrev main_v35 : Ref sig .tc := ⟨.hbm, 60, rfl⟩
abbrev main_cst_2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call3_cst : Ref sig .tc := ⟨.hbm, 89, rfl⟩
abbrev main_call3_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call4_cst : Ref sig .tc := ⟨.hbm, 98, rfl⟩
abbrev main_call4_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]

class Facts₀ : Prop where
  bcast_S16x64x512_S16x1x64x512_0_2_3 : S16x64x512.BroadcastsInDim S16x1x64x512 (![0, 2, 3] : Fin 3 → Fin S16x1x64x512.rank)
  bcast_S16x1x64x512_S16x64x64x512_0_1_2_3 : S16x1x64x512.BroadcastsInDim S16x64x64x512 (![0, 1, 2, 3] : Fin 4 → Fin S16x64x64x512.rank)
  shapeCasts_S16x64x64x512_S16x4096x512 : S16x64x64x512.ShapeCasts S16x4096x512
  bcast_S16x64x512_S16x64x512x1_0_1_2 : S16x64x512.BroadcastsInDim S16x64x512x1 (![0, 1, 2] : Fin 3 → Fin S16x64x512x1.rank)
  bcast_S16x64x512x1_S16x64x512x64_0_1_2_3 : S16x64x512x1.BroadcastsInDim S16x64x512x64 (![0, 1, 2, 3] : Fin 4 → Fin S16x64x512x64.rank)
  shapeCasts_S16x64x512x64_S16x4096x512 : S16x64x512x64.ShapeCasts S16x4096x512
  concatenates_S16x4096x512_S16x4096x512_S16x4096x1024_d2 : Shape.Concatenates [S16x4096x512, S16x4096x512] S16x4096x1024 2
  shapeCasts_S16x4096x1024_S65536x1024 : S16x4096x1024.ShapeCasts S65536x1024
  transposes_S512x1024_S1024x512_1_0 : S512x1024.Transposes [1, 0] S1024x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S512x512_S512x512_1_0 : S512x512.Transposes [1, 0] S512x512
  shapeCasts_S65536x512_S16x4096x512 : S65536x512.ShapeCasts S16x4096x512
  reducesTo_S16x4096x512_S16x512_d1 : S16x4096x512.ReducesTo [1] S16x512
  h_S_ : 0 < S_.numel
  bcast_S_S16x512 : S_.BroadcastsInDim S16x512 (![] : Fin 0 → Fin S16x512.rank)
  transposes_S512x2048_S2048x512_1_0 : S512x2048.Transposes [1, 0] S2048x512
  bcast_S1x512_S16x512_0_1 : S1x512.BroadcastsInDim S16x512 (![0, 1] : Fin 2 → Fin S16x512.rank)
  reducesTo_S16x512_S512_d0 : S16x512.ReducesTo [0] S512
  bcast_S_S512 : S_.BroadcastsInDim S512 (![] : Fin 0 → Fin S512.rank)
  concatenates_S16x512_S16x512_S16x1024_d1 : Shape.Concatenates [S16x512, S16x512] S16x1024 1
  transposes_S2x512_S512x2_1_0 : S2x512.Transposes [1, 0] S512x2
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  dot_S65536x1024_S1024x512_S65536x512_1_0_0_1_n_n_wf : DotDims.WF S65536x1024 S1024x512 S65536x512 [1] [0] [0] [1] [] []
  dot_S65536x512_S512x512_S65536x512_1_0_0_1_n_n_wf : DotDims.WF S65536x512 S512x512 S65536x512 [1] [0] [0] [1] [] []
  dot_S16x2048_S2048x512_S16x512_1_0_0_1_n_n_wf : DotDims.WF S16x2048 S2048x512 S16x512 [1] [0] [0] [1] [] []
  dot_S16x1024_S1024x512_S16x512_1_0_0_1_n_n_wf : DotDims.WF S16x1024 S1024x512 S16x512 [1] [0] [0] [1] [] []
  dot_S16x512_S512x2_S16x2_1_0_0_1_n_n_wf : DotDims.WF S16x512 S512x2 S16x2 [1] [0] [0] [1] [] []

variable [Facts₀]

def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S16x512_S512x2_S16x2_1_0_0_1_n_n : DotDims S16x512 S512x2 S16x2 where
  lhsContracting := [1]
  rhsContracting := [0]
  lhsNonContracting := [0]
  rhsNonContracting := [1]
  lhsBatch := []
  rhsBatch := []
  wf := dot_S16x512_S512x2_S16x2_1_0_0_1_n_n_wf

class Facts : Prop extends Facts₀ where

variable [Facts]
-- ==== Proof.KernelRun.lean ====
/-
  The idealized kernel's run with its result named. The program is four stretches in a row: the host operations that
  lay out the pair tables and transpose the weights, the pair network's call, the host operations that transpose the
  head's weights, and the head's call. Every unscoped buffer is carried from one stretch to the next, so the last
  stretch's contents are read against the final state for the result array exactly as they are for the sixteen
  arguments: the result ends at what the head's call leaves in its output array.
-/
import proofs.«107744_j16612933501585_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last stretch's contents and
    the sixteen arguments end as launched. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.Result

end
-- ==== Proof.Spec.lean ====
/-
  The network, as one function of its sixteen argument arrays over the extended reals.

  A sentence `b` has 64 tokens of 512 features. Its 4096 ordered pairs are laid out as two [4096, 512] tables per
  sentence: the LEFT table repeats the sentence's 64 rows 64 times (row `p` is token `p mod 64`); the RIGHT table is
  the sentence's [64, 512] block read as [64, 512, 64] with its last axis constant, then regrouped in row-major order
  as [4096, 512] (entry `(p, k)` sits at flat position `512 p + k`, which is token `⌊pos / 32768⌋`, feature
  `⌊pos / 64⌋ mod 512`). Three layers `max (x · Wᵀ + bias) 0` act on each pair (the first on the left and right
  halves side by side), and the sentence embedding is the mean over the 4096 pairs. The image branch is one linear
  layer normalised over the batch of 16 (biased variance, the shared ε word), scaled, shifted and clipped at 0. The
  head is two more linear layers on the sentence and image embeddings side by side.

  Only the shapes' coordinates and Mathlib's sums appear here; no program is imported.
-/
import Idealize.ShloMosaic.PureOps.Ideal
import Idealize.ShloMosaic.Lib.ValueIdx

noncomputable section

namespace Cert.PairNet

open Idealize.ShloMosaic Idealize.ShloMosaic.ValueIdx

abbrev T16x64x512 : Shape := ⟨3, ![16, 64, 512]⟩
abbrev T16x2048 : Shape := ⟨2, ![16, 2048]⟩
abbrev T512x1024 : Shape := ⟨2, ![512, 1024]⟩
abbrev T512x512 : Shape := ⟨2, ![512, 512]⟩
abbrev T512x2048 : Shape := ⟨2, ![512, 2048]⟩
abbrev T2x512 : Shape := ⟨2, ![2, 512]⟩
abbrev T512 : Shape := ⟨1, ![512]⟩
abbrev T2 : Shape := ⟨1, ![2]⟩
abbrev T16x512 : Shape := ⟨2, ![16, 512]⟩
abbrev T16x2 : Shape := ⟨2, ![16, 2]⟩

/-- The word for 4096, the number of ordered pairs. -/
abbrev wordPairs : EReal := Ideal.ofBits .f32 0x45800000#32
/-- The word for 16, the batch size. -/
abbrev wordBatch : EReal := Ideal.ofBits .f32 0x41800000#32
/-- The ε word of the normalisation, the same on both sides. -/
abbrev wordEps : EReal := Ideal.ofBits .f32 0x3727C5AC#32

section Sentence

variable (X : T16x64x512.Idx → EReal) (W1 : T512x1024.Idx → EReal) (B1 : T512.Idx → EReal)
  (W2 : T512x512.Idx → EReal) (B2 : T512.Idx → EReal) (W3 : T512x512.Idx → EReal) (B3 : T512.Idx → EReal)

/-- Row `p` of the left table: token `p mod 64`. -/
def left (b : Fin 16) (p : Fin 4096) (k : Fin 512) : EReal :=
  X (ix3 b ⟨p.val % 64, Nat.mod_lt _ (by norm_num)⟩ k)

/-- Entry `(p, k)` of the right table: flat position `512 p + k` of the [64, 512, 64] block. -/
def right (b : Fin 16) (p : Fin 4096) (k : Fin 512) : EReal :=
  X (ix3 b ⟨(p.val * 512 + k.val) / 32768, by
        have := p.isLt; have := k.isLt; exact Nat.div_lt_of_lt_mul (by omega)⟩
      ⟨(p.val * 512 + k.val) / 64 % 512, Nat.mod_lt _ (by norm_num)⟩)

/-- The first layer on one pair: the left row against columns 0 … 511 of `W1`, the right row against 512 … 1023. -/
def layer1 (l r : Fin 512 → EReal) (o : Fin 512) : EReal :=
  max ((∑ k : Fin 512, l k * W1 (ix2 o ⟨k.val, by have := k.isLt; omega⟩)
      + ∑ k : Fin 512, r k * W1 (ix2 o ⟨512 + k.val, by have := k.isLt; omega⟩)) + B1 (ix1 o)) 0

/-- A later layer: `max (h · Wᵀ + bias) 0`. -/
def layer (W : T512x512.Idx → EReal) (B : T512.Idx → EReal) (h : Fin 512 → EReal) (o : Fin 512) : EReal :=
  max (∑ k : Fin 512, h k * W (ix2 o k) + B (ix1 o)) 0

/-- The three layers on one pair, from its left and right rows. -/
def pairOut (l r : Fin 512 → EReal) : Fin 512 → EReal :=
  layer W3 B3 (layer W2 B2 (layer1 W1 B1 l r))

/-- The three layers on pair `p` of sentence `b`. -/
def hid3 (b : Fin 16) (p : Fin 4096) (o : Fin 512) : EReal :=
  pairOut W1 B1 W2 B2 W3 B3 (left X b p) (right X b p) o

/-- The sentence embedding: the mean over the 4096 pairs, as a quotient by the word for 4096. -/
def sent (b : Fin 16) (f : Fin 512) : EReal :=
  Ideal.div (∑ p : Fin 4096, hid3 X W1 B1 W2 B2 W3 B3 b p f) wordPairs

end Sentence

section Image

variable (IM : T16x2048.Idx → EReal) (IMW : T512x2048.Idx → EReal) (IMB : T512.Idx → EReal)
  (Gm : T512.Idx → EReal) (Bt : T512.Idx → EReal)

def lin (b : Fin 16) (f : Fin 512) : EReal :=
  ∑ k : Fin 2048, IM (ix2 b k) * IMW (ix2 f k) + IMB (ix1 f)

def mu (f : Fin 512) : EReal := Ideal.div (∑ b : Fin 16, lin IM IMW IMB b f) wordBatch

def dev (b : Fin 16) (f : Fin 512) : EReal := lin IM IMW IMB b f - mu IM IMW IMB f

def var (f : Fin 512) : EReal :=
  Ideal.div (∑ b : Fin 16, dev IM IMW IMB b f * dev IM IMW IMB b f) wordBatch

/-- The image embedding: `γ · (x − μ) · (σ² + ε)^(-1/2) + β`, clipped at 0, the products taken left to right. -/
def img (b : Fin 16) (f : Fin 512) : EReal :=
  max (Gm (ix1 f) * dev IM IMW IMB b f * Ideal.rsqrt (var IM IMW IMB f + wordEps) + Bt (ix1 f)) 0

end Image

section Head

variable (S : Fin 16 → Fin 512 → EReal) (I : Fin 16 → Fin 512 → EReal)
  (D1W : T512x1024.Idx → EReal) (D1B : T512.Idx → EReal) (D2W : T2x512.Idx → EReal) (D2B : T2.Idx → EReal)

/-- The two embeddings side by side: columns 0 … 511 are the sentence's, 512 … 1023 the image's. -/
def side (b : Fin 16) (k : Fin 1024) : EReal :=
  if hk : k.val < 512 then S b ⟨k.val, hk⟩ else I b ⟨k.val - 512, by have := k.isLt; omega⟩

/-- The first head layer, on the two embeddings side by side. -/
def head1 (b : Fin 16) (o : Fin 512) : EReal :=
  max (∑ k : Fin 1024, side S I b k * D1W (ix2 o k) + D1B (ix1 o)) 0

def head2 (b : Fin 16) (j : Fin 2) : EReal :=
  ∑ k : Fin 512, head1 S I D1W D1B b k * D2W (ix2 j k) + D2B (ix1 j)

end Head

/-- The whole network at `(b, j)`. -/
def net (X : T16x64x512.Idx → EReal) (IM : T16x2048.Idx → EReal) (W1 : T512x1024.Idx → EReal) (B1 : T512.Idx → EReal)
    (W2 : T512x512.Idx → EReal) (B2 : T512.Idx → EReal) (W3 : T512x512.Idx → EReal) (B3 : T512.Idx → EReal)
    (IMW : T512x2048.Idx → EReal) (IMB : T512.Idx → EReal) (Gm : T512.Idx → EReal) (Bt : T512.Idx → EReal)
    (D1W : T512x1024.Idx → EReal) (D1B : T512.Idx → EReal) (D2W : T2x512.Idx → EReal) (D2B : T2.Idx → EReal) :
    T16x2.Idx → EReal := fun i =>
  head2 (sent X W1 B1 W2 B2 W3 B3) (img IM IMW IMB Gm Bt) D1W D1B D2W D2B (i 0) (i 1)

/-- Two sums of 512 terms are one sum of 1024 terms over the two halves side by side. -/
theorem sum_halves {M : Type*} [AddCommMonoid M] (f : Fin 1024 → M) :
    ∑ k : Fin 1024, f k = ∑ k : Fin 512, f ⟨k.val, by have := k.isLt; omega⟩ + ∑ k : Fin 512, f ⟨512 + k.val, by have := k.isLt; omega⟩ := by
  exact Fin.sum_univ_add (a := 512) (b := 512) (f : Fin (512 + 512) → M)

end Cert.PairNet

end
-- ==== Proof.PairArrays.lean ====
/-
  What the pair network's call finds in its input windows.

  Before the call the host lays out two pair tables per sentence and transposes the weights. The LEFT table is the
  sentence's [64, 512] block laid under a new unit axis, repeated 64 times along it, and regrouped in row-major order
  as [4096, 512]: row `P` is token `P mod 64`. The RIGHT table is the same block with a new last axis repeated 64
  times, regrouped in row-major order as [4096, 512]: entry `(P, k)` sits at flat position `512 P + k` of the
  [64, 512, 64] block, which is token `⌊pos / 32768⌋`, feature `⌊pos / 64⌋ mod 512`. The first layer's weights are
  cut into their first and last 512 columns and each half is transposed; the other two weight matrices are transposed
  whole; each bias vector is laid as a row. A change of float format is the identity on the extended reals.

  The call's grid is [16, 2]: point `t` works on sentence `t / 2` and on rows `2048 (t mod 2) … 2048 (t mod 2) + 2047`
  of the two tables (a [1, 2048, 512] block of each); the weights and biases are read whole at every point.
-/
import proofs.«107744_j16612933501585_2_alg».proof.Proof.Gen.KernelIdeal.Frame
import proofs.«107744_j16612933501585_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.PairArrays

open Cert.KernelIdeal Cert.KernelIdeal.Gen Idealize.ShloMosaic Idealize.ShloMosaic.TcCoe Idealize.SL.Sem
  Idealize.ShloMosaic.ValueIdx

/-! ## The layouts read at an index, over any arrays -/

section Layouts

variable {α : Type}

/-- The left table at `(b, P, k)`: row-major position `((64 b + P / 64) 64 + P mod 64) 512 + k` of the [16, 64, 64, 512]
    array, whose entry does not depend on its second coordinate: token `P mod 64` of sentence `b`. -/
theorem left_table_apply (X : S16x64x512.Idx → EReal)
    (h1 : S16x64x512.BroadcastsInDim S16x1x64x512 ![0, 2, 3])
    (h2 : S16x1x64x512.BroadcastsInDim S16x64x64x512 ![0, 1, 2, 3])
    (h3 : S16x64x64x512.ShapeCasts S16x4096x512) (b : Fin 16) (P : Fin 4096) (k : Fin 512) :
    shapeCast S16x4096x512 (broadcastInDim S16x64x64x512 ![0, 1, 2, 3] h2 (broadcastInDim S16x1x64x512 ![0, 2, 3] h1 X)) h3
        (ix3 b P k)
      = Cert.PairNet.left X b P k := by
  have hq : P.val / 64 < 64 := by have := P.isLt; omega
  have hr : P.val % 64 < 64 := Nat.mod_lt _ (by norm_num)
  refine (shapeCast_apply _ h3 (ix3 b P k) (ix4 b ⟨P.val / 64, hq⟩ ⟨P.val % 64, hr⟩ k) ?_).trans ?_
  · rw [Shape.rowMajor_val_four, Shape.rowMajor_val_three]
    show ((b.val * 64 + P.val / 64) * 64 + P.val % 64) * 512 + k.val = (b.val * 4096 + P.val) * 512 + k.val
    omega
  refine (broadcastInDim_apply _ h2 _ _ (ix4 b (0 : Fin 1) ⟨P.val % 64, hr⟩ k) fun a => ?_).trans ?_
  · match a with
    | ⟨0, _⟩ => exact (if_neg (by decide : ¬ (16 : ℕ) = 1)).symm
    | ⟨1, _⟩ => exact (if_pos rfl).symm
    | ⟨2, _⟩ => exact (if_neg (by decide : ¬ (64 : ℕ) = 1)).symm
    | ⟨3, _⟩ => exact (if_neg (by decide : ¬ (512 : ℕ) = 1)).symm
  refine broadcastInDim_apply _ h1 _ _ (ix3 b ⟨P.val % 64, hr⟩ k) fun a => ?_
  match a with
  | ⟨0, _⟩ => exact (if_neg (by decide : ¬ (16 : ℕ) = 1)).symm
  | ⟨1, _⟩ => exact (if_neg (by decide : ¬ (64 : ℕ) = 1)).symm
  | ⟨2, _⟩ => exact (if_neg (by decide : ¬ (512 : ℕ) = 1)).symm

/-- The right table at `(b, P, k)`: flat position `pos = 512 P + k` of sentence `b`'s [64, 512, 64] block, whose entry
    does not depend on its last coordinate: token `pos / 32768`, feature `pos / 64 mod 512`. -/
theorem right_table_apply (X : S16x64x512.Idx → EReal)
    (h1 : S16x64x512.BroadcastsInDim S16x64x512x1 ![0, 1, 2])
    (h2 : S16x64x512x1.BroadcastsInDim S16x64x512x64 ![0, 1, 2, 3])
    (h3 : S16x64x512x64.ShapeCasts S16x4096x512) (b : Fin 16) (P : Fin 4096) (k : Fin 512) :
    shapeCast S16x4096x512 (broadcastInDim S16x64x512x64 ![0, 1, 2, 3] h2 (broadcastInDim S16x64x512x1 ![0, 1, 2] h1 X)) h3
        (ix3 b P k)
      = Cert.PairNet.right X b P k := by
  have hi : (P.val * 512 + k.val) / 32768 < 64 := by have := P.isLt; have := k.isLt; omega
  have hj : (P.val * 512 + k.val) / 64 % 512 < 512 := Nat.mod_lt _ (by norm_num)
  have hl : (P.val * 512 + k.val) % 64 < 64 := Nat.mod_lt _ (by norm_num)
  refine (shapeCast_apply _ h3 (ix3 b P k)
    (ix4 b ⟨(P.val * 512 + k.val) / 32768, hi⟩ ⟨(P.val * 512 + k.val) / 64 % 512, hj⟩ ⟨(P.val * 512 + k.val) % 64, hl⟩) ?_).trans ?_
  · rw [Shape.rowMajor_val_four, Shape.rowMajor_val_three]
    show ((b.val * 64 + (P.val * 512 + k.val) / 32768) * 512 + (P.val * 512 + k.val) / 64 % 512) * 64 + (P.val * 512 + k.val) % 64
      = (b.val * 4096 + P.val) * 512 + k.val
    omega
  refine (broadcastInDim_apply _ h2 _ _
    (ix4 b ⟨(P.val * 512 + k.val) / 32768, hi⟩ ⟨(P.val * 512 + k.val) / 64 % 512, hj⟩ (0 : Fin 1)) fun a => ?_).trans ?_
  · match a with
    | ⟨0, _⟩ => exact (if_neg (by decide : ¬ (16 : ℕ) = 1)).symm
    | ⟨1, _⟩ => exact (if_neg (by decide : ¬ (64 : ℕ) = 1)).symm
    | ⟨2, _⟩ => exact (if_neg (by decide : ¬ (512 : ℕ) = 1)).symm
    | ⟨3, _⟩ => exact (if_pos rfl).symm
  refine broadcastInDim_apply _ h1 _ _
    (ix3 b ⟨(P.val * 512 + k.val) / 32768, hi⟩ ⟨(P.val * 512 + k.val) / 64 % 512, hj⟩) fun a => ?_
  match a with
  | ⟨0, _⟩ => exact (if_neg (by decide : ¬ (16 : ℕ) = 1)).symm
  | ⟨1, _⟩ => exact (if_neg (by decide : ¬ (64 : ℕ) = 1)).symm
  | ⟨2, _⟩ => exact (if_neg (by decide : ¬ (512 : ℕ) = 1)).symm

/-- A [512, 512] block of columns `off … off + 511` of a [512, 1024] matrix, transposed: entry `(k, o)` is the matrix's
    entry `(o, off + k)`. -/
theorem slice_transposed_apply (W : S512x1024.Idx → α) (off : Nat) (h1 : S512x1024.Slices ![0, off] S512x512)
    (h2 : S512x512.Transposes [1, 0] S512x512) (k o : Fin 512) (q : Fin 1024) (hq : q.val = off + k.val) :
    transpose S512x512 [1, 0] (extractStridedSlice S512x512 ![0, off] W h1) h2 (ix2 k o) = W (ix2 o q) := by
  refine (transpose_apply [1, 0] _ h2 (ix2 k o) (ix2 o k) fun b => ?_).trans ?_
  · match b with
    | ⟨0, _⟩ => rfl
    | ⟨1, _⟩ => rfl
  refine extractStridedSlice_apply _ W h1 (ix2 o k) (ix2 o q) fun a => ?_
  match a with
  | ⟨0, _⟩ => show o.val = 0 + o.val; omega
  | ⟨1, _⟩ => show q.val = off + k.val; exact hq

/-- A [512, 512] matrix transposed: entry `(k, o)` is the matrix's entry `(o, k)`. -/
theorem transposed_apply (W : S512x512.Idx → α) (h : S512x512.Transposes [1, 0] S512x512) (k o : Fin 512) :
    transpose S512x512 [1, 0] W h (ix2 k o) = W (ix2 o k) := by
  refine transpose_apply [1, 0] W h (ix2 k o) (ix2 o k) fun b => ?_
  match b with
  | ⟨0, _⟩ => rfl
  | ⟨1, _⟩ => rfl

/-- A vector of 512 entries laid as a [1, 512] row: entry `(0, o)` is the vector's entry `o`. -/
theorem row_apply (B : S512.Idx → α) (h : S512.ShapeCasts S1x512) (o : Fin 512) :
    shapeCast S1x512 B h (ix2 (0 : Fin 1) o) = B (ix1 o) :=
  shapeCast_apply B h _ _ (by
    rw [Shape.rowMajor_val_one, Shape.rowMajor_val_two]
    show o.val = 0 * 512 + o.val
    omega)

end Layouts

/-! ## The arrays the call finds, as the host operations leave them -/

variable (m : (ℓ : Loc nD τ sig) → Buf (Elt Ideal) ℓ) (ρ : Dev nD → PrngReg) (c : Dev nD) (t : Fin cfg0.N)

/-- The left table is the regrouped double repetition of the sentences. -/
theorem v3_eq : (V1 m ρ c main_v3 : S16x4096x512.Idx → EReal)
    = (shapeCast S16x4096x512
        (broadcastInDim S16x64x64x512 ![0, 1, 2, 3] Facts₀.bcast_S16x1x64x512_S16x64x64x512_0_1_2_3
          (broadcastInDim S16x1x64x512 ![0, 2, 3] Facts₀.bcast_S16x64x512_S16x1x64x512_0_2_3
            (truncf (F := Ideal) .bf16 ((m ((c.tc : Thread nD τ).loc main_arg0)) : FVec Ideal S16x64x512 .f32) Facts₀.bitsLt_bf16_f32)))
        Facts₀.shapeCasts_S16x64x64x512_S16x4096x512 : FVec Ideal S16x4096x512 .bf16) := by
  dsimp only [V1, W1, hostOps0]; after_results <;> rfl

/-- The right table is the regrouped repetition of the sentences along a new last axis. -/
theorem v6_eq : (V1 m ρ c main_v6 : S16x4096x512.Idx → EReal)
    = (shapeCast S16x4096x512
        (broadcastInDim S16x64x512x64 ![0, 1, 2, 3] Facts₀.bcast_S16x64x512x1_S16x64x512x64_0_1_2_3
          (broadcastInDim S16x64x512x1 ![0, 1, 2] Facts₀.bcast_S16x64x512_S16x64x512x1_0_1_2
            (truncf (F := Ideal) .bf16 ((m ((c.tc : Thread nD τ).loc main_arg0)) : FVec Ideal S16x64x512 .f32) Facts₀.bitsLt_bf16_f32)))
        Facts₀.shapeCasts_S16x64x512x64_S16x4096x512 : FVec Ideal S16x4096x512 .bf16) := by
  dsimp only [V1, W1, hostOps0]; after_results <;> rfl

/-- The first 512 columns of the first layer's weights, transposed. -/
theorem v9_eq : (V1 m ρ c main_v9 : S512x512.Idx → EReal)
    = (truncf (F := Ideal) .bf16
        (transpose S512x512 [1, 0]
          (extractStridedSlice S512x512 ![0, 0] ((m ((c.tc : Thread nD τ).loc main_arg2)) : FVec Ideal S512x1024 .f32) Facts₀.slices_S512x1024_S512x512_0_0)
          Facts₀.transposes_S512x512_S512x512_1_0) Facts₀.bitsLt_bf16_f32 : FVec Ideal S512x512 .bf16) := by
  dsimp only [V1, W1, hostOps0]; after_results <;> rfl

/-- The last 512 columns of the first layer's weights, transposed. -/
theorem v12_eq : (V1 m ρ c main_v12 : S512x512.Idx → EReal)
    = (truncf (F := Ideal) .bf16
        (transpose S512x512 [1, 0]
          (extractStridedSlice S512x512 ![0, 512] ((m ((c.tc : Thread nD τ).loc main_arg2)) : FVec Ideal S512x1024 .f32) Facts₀.slices_S512x1024_S512x512_0_512)
          Facts₀.transposes_S512x512_S512x512_1_0) Facts₀.bitsLt_bf16_f32 : FVec Ideal S512x512 .bf16) := by
  dsimp only [V1, W1, hostOps0]; after_results <;> rfl

/-- The second layer's weights, transposed. -/
theorem v14_eq : (V1 m ρ c main_v14 : S512x512.Idx → EReal)
    = (truncf (F := Ideal) .bf16 (transpose S512x512 [1, 0] ((m ((c.tc : Thread nD τ).loc main_arg4)) : FVec Ideal S512x512 .f32)
        Facts₀.transposes_S512x512_S512x512_1_0) Facts₀.bitsLt_bf16_f32 : FVec Ideal S512x512 .bf16) := by
  dsimp only [V1, W1, hostOps0]; after_results <;> rfl

/-- The third layer's weights, transposed. -/
theorem v16_eq : (V1 m ρ c main_v16 : S512x512.Idx → EReal)
    = (truncf (F := Ideal) .bf16 (transpose S512x512 [1, 0] ((m ((c.tc : Thread nD τ).loc main_arg6)) : FVec Ideal S512x512 .f32)
        Facts₀.transposes_S512x512_S512x512_1_0) Facts₀.bitsLt_bf16_f32 : FVec Ideal S512x512 .bf16) := by
  dsimp only [V1, W1, hostOps0]; after_results <;> rfl

/-- The first layer's bias as a row. -/
theorem v17_eq : (V1 m ρ c main_v17 : S1x512.Idx → EReal)
    = shapeCast S1x512 ((m ((c.tc : Thread nD τ).loc main_arg3)) : FVec Ideal S512 .f32) Facts₀.shapeCasts_S512_S1x512 := by
  dsimp only [V1, W1, hostOps0]; after_results <;> rfl

/-- The second layer's bias as a row. -/
theorem v18_eq : (V1 m ρ c main_v18 : S1x512.Idx → EReal)
    = shapeCast S1x512 ((m ((c.tc : Thread nD τ).loc main_arg5)) : FVec Ideal S512 .f32) Facts₀.shapeCasts_S512_S1x512 := by
  dsimp only [V1, W1, hostOps0]; after_results <;> rfl

/-- The third layer's bias as a row. -/
theorem v19_eq : (V1 m ρ c main_v19 : S1x512.Idx → EReal)
    = shapeCast S1x512 ((m ((c.tc : Thread nD τ).loc main_arg7)) : FVec Ideal S512 .f32) Facts₀.shapeCasts_S512_S1x512 := by
  dsimp only [V1, W1, hostOps0]; after_results <;> rfl

/-! ## Where a block sits in its array -/

/-- The grid has 32 points. -/
theorem point_lt : t.val < 32 := by
  have h : t.val < grid0.N := t.isLt
  rw [N_0] at h
  exact h

/-- The two tables' block at point `t` is block `(t / 2, t mod 2, 0)`. -/
theorem idx_tables : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0 :=
  (by decide +kernel : ∀ t : Fin grid0.N, _)

/-- Entry `(0, p, k)` of the left table's block at point `t` is the table's entry `(t / 2, 2048 (t mod 2) + p, k)`. -/
theorem emb_left (p : Fin 2048) (k : Fin 512) :
    (((cfg0.win 0).blk t).view.emb (ix3 (0 : Fin 1) p k) : S16x4096x512.Idx)
      = ix3 (⟨t.val / 2, by have := point_lt t; omega⟩ : Fin 16)
          (⟨(t.val % 2) * 2048 + p.val, by have := p.isLt; omega⟩ : Fin 4096) k := by
  obtain ⟨h0, h1, h2, -⟩ := idx_tables t
  funext a
  apply Fin.ext
  match a with
  | ⟨0, _⟩ => show win0_0.index t (0 : Fin 3) * 1 + 1 * 0 = t.val / 2; rw [h0]; omega
  | ⟨1, _⟩ => show win0_0.index t (1 : Fin 3) * 2048 + 1 * p.val = (t.val % 2) * 2048 + p.val; rw [h1]; omega
  | ⟨2, _⟩ => show win0_0.index t (2 : Fin 3) * 512 + 1 * k.val = k.val; rw [h2]; omega

/-- The same for the right table's block. -/
theorem emb_right (p : Fin 2048) (k : Fin 512) :
    (((cfg0.win 1).blk t).view.emb (ix3 (0 : Fin 1) p k) : S16x4096x512.Idx)
      = ix3 (⟨t.val / 2, by have := point_lt t; omega⟩ : Fin 16)
          (⟨(t.val % 2) * 2048 + p.val, by have := p.isLt; omega⟩ : Fin 4096) k := by
  obtain ⟨-, -, -, h0, h1, h2⟩ := idx_tables t
  funext a
  apply Fin.ext
  match a with
  | ⟨0, _⟩ => show win0_1.index t (0 : Fin 3) * 1 + 1 * 0 = t.val / 2; rw [h0]; omega
  | ⟨1, _⟩ => show win0_1.index t (1 : Fin 3) * 2048 + 1 * p.val = (t.val % 2) * 2048 + p.val; rw [h1]; omega
  | ⟨2, _⟩ => show win0_1.index t (2 : Fin 3) * 512 + 1 * k.val = k.val; rw [h2]; omega

/-- Window 2's block is its whole [512, 512] array at every point. -/
theorem emb_whole2 (y : S512x512.Idx) : (((cfg0.win 2).blk t).view.emb y : S512x512.Idx) = y := by
  funext a
  apply Fin.ext
  match a with
  | ⟨0, _⟩ => show win0_2.index t 0 * 512 + 1 * (y 0).val = (y 0).val; rw [show win0_2.index t 0 = 0 from rfl]; omega
  | ⟨1, _⟩ => show win0_2.index t 1 * 512 + 1 * (y 1).val = (y 1).val; rw [show win0_2.index t 1 = 0 from rfl]; omega

/-- Window 3's block is its whole [512, 512] array at every point. -/
theorem emb_whole3 (y : S512x512.Idx) : (((cfg0.win 3).blk t).view.emb y : S512x512.Idx) = y := by
  funext a
  apply Fin.ext
  match a with
  | ⟨0, _⟩ => show win0_3.index t 0 * 512 + 1 * (y 0).val = (y 0).val; rw [show win0_3.index t 0 = 0 from rfl]; omega
  | ⟨1, _⟩ => show win0_3.index t 1 * 512 + 1 * (y 1).val = (y 1).val; rw [show win0_3.index t 1 = 0 from rfl]; omega

/-- Window 5's block is its whole [512, 512] array at every point. -/
theorem emb_whole5 (y : S512x512.Idx) : (((cfg0.win 5).blk t).view.emb y : S512x512.Idx) = y := by
  funext a
  apply Fin.ext
  match a with
  | ⟨0, _⟩ => show win0_5.index t 0 * 512 + 1 * (y 0).val = (y 0).val; rw [show win0_5.index t 0 = 0 from rfl]; omega
  | ⟨1, _⟩ => show win0_5.index t 1 * 512 + 1 * (y 1).val = (y 1).val; rw [show win0_5.index t 1 = 0 from rfl]; omega

/-- Window 7's block is its whole [512, 512] array at every point. -/
theorem emb_whole7 (y : S512x512.Idx) : (((cfg0.win 7).blk t).view.emb y : S512x512.Idx) = y := by
  funext a
  apply Fin.ext
  match a with
  | ⟨0, _⟩ => show win0_7.index t 0 * 512 + 1 * (y 0).val = (y 0).val; rw [show win0_7.index t 0 = 0 from rfl]; omega
  | ⟨1, _⟩ => show win0_7.index t 1 * 512 + 1 * (y 1).val = (y 1).val; rw [show win0_7.index t 1 = 0 from rfl]; omega

/-- Window 4's block is its whole [1, 512] row at every point. -/
theorem emb_whole4 (y : S1x512.Idx) : (((cfg0.win 4).blk t).view.emb y : S1x512.Idx) = y := by
  funext a
  apply Fin.ext
  match a with
  | ⟨0, _⟩ => show win0_4.index t 0 * 1 + 1 * (y 0).val = (y 0).val; rw [show win0_4.index t 0 = 0 from rfl]; omega
  | ⟨1, _⟩ => show win0_4.index t 1 * 512 + 1 * (y 1).val = (y 1).val; rw [show win0_4.index t 1 = 0 from rfl]; omega

/-- Window 6's block is its whole [1, 512] row at every point. -/
theorem emb_whole6 (y : S1x512.Idx) : (((cfg0.win 6).blk t).view.emb y : S1x512.Idx) = y := by
  funext a
  apply Fin.ext
  match a with
  | ⟨0, _⟩ => show win0_6.index t 0 * 1 + 1 * (y 0).val = (y 0).val; rw [show win0_6.index t 0 = 0 from rfl]; omega
  | ⟨1, _⟩ => show win0_6.index t 1 * 512 + 1 * (y 1).val = (y 1).val; rw [show win0_6.index t 1 = 0 from rfl]; omega

/-- Window 8's block is its whole [1, 512] row at every point. -/
theorem emb_whole8 (y : S1x512.Idx) : (((cfg0.win 8).blk t).view.emb y : S1x512.Idx) = y := by
  funext a
  apply Fin.ext
  match a with
  | ⟨0, _⟩ => show win0_8.index t 0 * 1 + 1 * (y 0).val = (y 0).val; rw [show win0_8.index t 0 = 0 from rfl]; omega
  | ⟨1, _⟩ => show win0_8.index t 1 * 512 + 1 * (y 1).val = (y 1).val; rw [show win0_8.index t 1 = 0 from rfl]; omega

/-! ## The blocks -/

/-- The left table's block at point `t`: row `p` is token `(2048 (t mod 2) + p) mod 64` of sentence `t / 2`. -/
theorem left_block (p : Fin 2048) (k : Fin 512) :
    (iblk0 (V1 m ρ) c 0 t : Vec Ideal S1x2048x512 .bf16) (ix3 (0 : Fin 1) p k)
      = Cert.PairNet.left (m ((c.tc : Thread nD τ).loc main_arg0)) (⟨t.val / 2, by have := point_lt t; omega⟩ : Fin 16)
          (⟨(t.val % 2) * 2048 + p.val, by have := p.isLt; omega⟩ : Fin 4096) k := by
  unfold iblk0
  rw [View.read_apply]
  show (V1 m ρ c main_v3 : S16x4096x512.Idx → EReal) _ = _
  rw [v3_eq, emb_left]
  exact left_table_apply _ _ _ _ _ _ k

/-- The right table's block at point `t`: entry `(p, k)` is the right table's entry `(2048 (t mod 2) + p, k)` of sentence `t / 2`. -/
theorem right_block (p : Fin 2048) (k : Fin 512) :
    (iblk0 (V1 m ρ) c 1 t : Vec Ideal S1x2048x512 .bf16) (ix3 (0 : Fin 1) p k)
      = Cert.PairNet.right (m ((c.tc : Thread nD τ).loc main_arg0)) (⟨t.val / 2, by have := point_lt t; omega⟩ : Fin 16)
          (⟨(t.val % 2) * 2048 + p.val, by have := p.isLt; omega⟩ : Fin 4096) k := by
  unfold iblk0
  rw [View.read_apply]
  show (V1 m ρ c main_v6 : S16x4096x512.Idx → EReal) _ = _
  rw [v6_eq, emb_right]
  exact right_table_apply _ _ _ _ _ _ k

/-- Window 2 holds columns 0 … 511 of the first layer's weights, transposed. -/
theorem w1a_block (k o : Fin 512) :
    (iblk0 (V1 m ρ) c 2 t : Vec Ideal S512x512 .bf16) (ix2 k o)
      = ((m ((c.tc : Thread nD τ).loc main_arg2)) : S512x1024.Idx → EReal) (ix2 o (⟨k.val, by have := k.isLt; omega⟩ : Fin 1024)) := by
  unfold iblk0
  rw [View.read_apply]
  show (V1 m ρ c main_v9 : S512x512.Idx → EReal) _ = _
  rw [v9_eq, emb_whole2, truncf_apply]
  exact slice_transposed_apply _ 0 _ _ k o _ (by show k.val = 0 + k.val; omega)

/-- Window 3 holds columns 512 … 1023 of the first layer's weights, transposed. -/
theorem w1b_block (k o : Fin 512) :
    (iblk0 (V1 m ρ) c 3 t : Vec Ideal S512x512 .bf16) (ix2 k o)
      = ((m ((c.tc : Thread nD τ).loc main_arg2)) : S512x1024.Idx → EReal) (ix2 o (⟨512 + k.val, by have := k.isLt; omega⟩ : Fin 1024)) := by
  unfold iblk0
  rw [View.read_apply]
  show (V1 m ρ c main_v12 : S512x512.Idx → EReal) _ = _
  rw [v12_eq, emb_whole3, truncf_apply]
  exact slice_transposed_apply _ 512 _ _ k o _ rfl

/-- Window 5 holds the second layer's weights, transposed. -/
theorem w2_block (k o : Fin 512) :
    (iblk0 (V1 m ρ) c 5 t : Vec Ideal S512x512 .bf16) (ix2 k o)
      = ((m ((c.tc : Thread nD τ).loc main_arg4)) : S512x512.Idx → EReal) (ix2 o k) := by
  unfold iblk0
  rw [View.read_apply]
  show (V1 m ρ c main_v14 : S512x512.Idx → EReal) _ = _
  rw [v14_eq, emb_whole5, truncf_apply]
  exact transposed_apply _ _ k o

/-- Window 7 holds the third layer's weights, transposed. -/
theorem w3_block (k o : Fin 512) :
    (iblk0 (V1 m ρ) c 7 t : Vec Ideal S512x512 .bf16) (ix2 k o)
      = ((m ((c.tc : Thread nD τ).loc main_arg6)) : S512x512.Idx → EReal) (ix2 o k) := by
  unfold iblk0
  rw [View.read_apply]
  show (V1 m ρ c main_v16 : S512x512.Idx → EReal) _ = _
  rw [v16_eq, emb_whole7, truncf_apply]
  exact transposed_apply _ _ k o

/-- Window 4 holds the first layer's bias as a row. -/
theorem b1_block (o : Fin 512) :
    (iblk0 (V1 m ρ) c 4 t : Vec Ideal S1x512 .f32) (ix2 (0 : Fin 1) o) = ((m ((c.tc : Thread nD τ).loc main_arg3)) : S512.Idx → EReal) (ix1 o) := by
  unfold iblk0
  rw [View.read_apply]
  show (V1 m ρ c main_v17 : S1x512.Idx → EReal) _ = _
  rw [v17_eq, emb_whole4]
  exact row_apply _ _ o

/-- Window 6 holds the second layer's bias as a row. -/
theorem b2_block (o : Fin 512) :
    (iblk0 (V1 m ρ) c 6 t : Vec Ideal S1x512 .f32) (ix2 (0 : Fin 1) o) = ((m ((c.tc : Thread nD τ).loc main_arg5)) : S512.Idx → EReal) (ix1 o) := by
  unfold iblk0
  rw [View.read_apply]
  show (V1 m ρ c main_v18 : S1x512.Idx → EReal) _ = _
  rw [v18_eq, emb_whole6]
  exact row_apply _ _ o

/-- Window 8 holds the third layer's bias as a row. -/
theorem b3_block (o : Fin 512) :
    (iblk0 (V1 m ρ) c 8 t : Vec Ideal S1x512 .f32) (ix2 (0 : Fin 1) o) = ((m ((c.tc : Thread nD τ).loc main_arg7)) : S512.Idx → EReal) (ix1 o) := by
  unfold iblk0
  rw [View.read_apply]
  show (V1 m ρ c main_v19 : S1x512.Idx → EReal) _ = _
  rw [v19_eq, emb_whole8]
  exact row_apply _ _ o

end Cert.KernelIdeal.PairArrays

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.PairBody.lean ====
/-
  The pair network's body, read as a value on extended reals.

  One call works on a tile of 2048 pairs of one sentence. Each of the three layers is a product into an accumulator of
  zeros (a sum of 512 products per entry), a bias row added to every row, and a clip below at the zero word; the first
  layer adds the left rows' product with rows 0 … 511 of the transposed first weight and the right rows' product with
  rows 512 … 1023 before the bias. A change of float format is the identity on extended reals. The third layer's
  [2048, 512] result is summed down its columns (a sum over the 2048 pairs), laid as one row, repeated over 16 rows, and
  kept only on the row whose number is the current sentence's (every other row receives the zero word); that is added
  to the [16, 512] accumulator. So entry (r, f) of the stored value is the accumulator's entry plus, when r is the
  sentence, the sum over the tile's pairs of the three layers' output at feature f.
-/
import proofs.«107744_j16612933501585_2_alg».proof.Proof.Gen.KernelIdeal.Skeleton
import proofs.«107744_j16612933501585_2_alg».proof.Proof.Spec
import proofs.«107744_j16612933501585_2_alg».proof.Proof.LibMatmulPlain
import Idealize.ShloMosaic.Lib.ValueLayout

noncomputable section

namespace Cert.KernelIdeal.PairValue

open Cert.KernelIdeal Cert.KernelIdeal.Gen Idealize.ShloMosaic Idealize.ShloMosaic.ValueIdx

/-! ## One layer on a tile -/

/-- The zero word is the extended real 0. -/
theorem zeroWord : (Scalar.ofBits .f32 0x00000000#32 : Ideal .f32) = 0 := Ideal.ofBits_zero_f32

/-- The product of a [2048, 512] tile by a [512, 512] matrix into zeros, read at (p, o): the sum over k of
    tile (p, k) times matrix (k, o). The matrix's cast to its own shape changes nothing. -/
theorem product_apply (x : FVec Ideal S2048x512 .bf16) (w : FVec Ideal S512x512 .bf16) (p : Fin 2048) (o : Fin 512) :
    matmul dot_S2048x512_S512x512_S2048x512_1_0_0_1_n_n none x (shapeCast S512x512 w shapeCasts_S512x512_S512x512)
        (constant (F := Ideal) S2048x512 .f32 0x00000000#32) (ix2 p o)
      = ∑ k : Fin 512, x (ix2 p k) * w (ix2 k o) := by
  rw [shapeCast_self]
  exact Cert.Lib.MatmulPlain.matmul_zero_apply (B := 2048) (K := 512) (M := 512)
    Facts₀.dot_S2048x512_S512x512_S2048x512_1_0_0_1_n_n_wf none x w p o

/-- The bias row, cast to its own shape and repeated over the 2048 rows, read at (p, o): the row's entry o. -/
theorem biasRows_apply (b : FVec Ideal S1x512 .f32) (p : Fin 2048) (o : Fin 512) :
    broadcastTo S2048x512 (shapeCast S1x512 b shapeCasts_S1x512_S1x512) broadcasts_S1x512_S2048x512 (ix2 p o)
      = b (ix2 (0 : Fin 1) o) := by
  rw [shapeCast_self]
  exact broadcastTo_1b_ab_apply b _ p o

/-- One layer on a tile: the product into zeros, the bias row added to every row, clipped below at the zero word. -/
def dense (x : FVec Ideal S2048x512 .bf16) (w : FVec Ideal S512x512 .bf16) (b : FVec Ideal S1x512 .f32) :
    FVec Ideal S2048x512 .f32 :=
  maximumf (addf (matmul dot_S2048x512_S512x512_S2048x512_1_0_0_1_n_n none x (shapeCast S512x512 w shapeCasts_S512x512_S512x512)
        (constant (F := Ideal) S2048x512 .f32 0x00000000#32))
      (broadcastTo S2048x512 (shapeCast S1x512 b shapeCasts_S1x512_S1x512) broadcasts_S1x512_S2048x512))
    (broadcast S2048x512 (Scalar.ofBits .f32 0x00000000#32))

/-- A layer read at (p, o): max (∑ k, x (p, k) · w (k, o) + b o) 0. -/
theorem dense_apply (x : FVec Ideal S2048x512 .bf16) (w : FVec Ideal S512x512 .bf16) (b : FVec Ideal S1x512 .f32)
    (p : Fin 2048) (o : Fin 512) :
    dense x w b (ix2 p o) = max (∑ k : Fin 512, x (ix2 p k) * w (ix2 k o) + b (ix2 (0 : Fin 1) o)) 0 := by
  unfold dense
  rw [maximumf_apply, addf_apply, broadcast_apply, product_apply, biasRows_apply, zeroWord]

/-! ## The first layer: two products side by side -/

/-- A [1, 2048, 512] block viewed as a [2048, 512] tile, read at (p, k): the block at (0, p, k). -/
theorem tile_apply (v : FVec Ideal S1x2048x512 .bf16) (p : Fin 2048) (k : Fin 512) :
    shapeCast S2048x512 v shapeCasts_S1x2048x512_S2048x512 (ix2 p k) = v (ix3 (0 : Fin 1) p k) :=
  shapeCast_1ab_ab_apply v _ p k

/-- The first layer on a tile: the left tile's product plus the right tile's product, the bias row, the clip. -/
def dense1 (l r : FVec Ideal S1x2048x512 .bf16) (wl wr : FVec Ideal S512x512 .bf16) (b : FVec Ideal S1x512 .f32) :
    FVec Ideal S2048x512 .f32 :=
  maximumf (addf
      (addf
        (matmul dot_S2048x512_S512x512_S2048x512_1_0_0_1_n_n none (shapeCast S2048x512 l shapeCasts_S1x2048x512_S2048x512)
          (shapeCast S512x512 wl shapeCasts_S512x512_S512x512) (constant (F := Ideal) S2048x512 .f32 0x00000000#32))
        (matmul dot_S2048x512_S512x512_S2048x512_1_0_0_1_n_n none (shapeCast S2048x512 r shapeCasts_S1x2048x512_S2048x512)
          (shapeCast S512x512 wr shapeCasts_S512x512_S512x512) (constant (F := Ideal) S2048x512 .f32 0x00000000#32)))
      (broadcastTo S2048x512 (shapeCast S1x512 b shapeCasts_S1x512_S1x512) broadcasts_S1x512_S2048x512))
    (broadcast S2048x512 (Scalar.ofBits .f32 0x00000000#32))

/-- The first layer read at (p, o). -/
theorem dense1_apply (l r : FVec Ideal S1x2048x512 .bf16) (wl wr : FVec Ideal S512x512 .bf16) (b : FVec Ideal S1x512 .f32)
    (p : Fin 2048) (o : Fin 512) :
    dense1 l r wl wr b (ix2 p o)
      = max ((∑ k : Fin 512, l (ix3 (0 : Fin 1) p k) * wl (ix2 k o) + ∑ k : Fin 512, r (ix3 (0 : Fin 1) p k) * wr (ix2 k o))
          + b (ix2 (0 : Fin 1) o)) 0 := by
  unfold dense1
  rw [maximumf_apply, addf_apply, addf_apply, broadcast_apply, product_apply, product_apply, biasRows_apply, zeroWord]
  simp only [tile_apply]

/-! ## The tile's first two layers and the accumulation, as compositions of the layers -/

/-- The first two layers of a tile are the first layer followed by one layer, each rounded to the narrower format
    (the identity on extended reals). -/
theorem pay4_eq (v5 v7 : Vec Ideal S1x2048x512 .bf16) (v9 v12 : Vec Ideal S512x512 .bf16) (v16 : Vec Ideal S1x512 .f32)
    (v23 : Vec Ideal S512x512 .bf16) (v26 : Vec Ideal S1x512 .f32) :
    k0_pay4 (F := Ideal) v5 v7 v9 v12 v16 v23 v26
      = truncf .bf16 (dense (truncf .bf16 (dense1 v5 v7 v9 v12 v16) bitsLt_bf16_f32) v23 v26) bitsLt_bf16_f32 := rfl

section Layers

variable (v5 v7 : Vec Ideal S1x2048x512 .bf16) (v9 v12 : Vec Ideal S512x512 .bf16) (v16 : Vec Ideal S1x512 .f32)
  (v23 : Vec Ideal S512x512 .bf16) (v26 : Vec Ideal S1x512 .f32) (v33 : Vec Ideal S512x512 .bf16) (v36 : Vec Ideal S1x512 .f32)
  (L R : Fin 2048 → Fin 512 → EReal) (W1 : Cert.PairNet.T512x1024.Idx → EReal) (B1 : Cert.PairNet.T512.Idx → EReal)
  (W2 : Cert.PairNet.T512x512.Idx → EReal) (B2 : Cert.PairNet.T512.Idx → EReal)
  (W3 : Cert.PairNet.T512x512.Idx → EReal) (B3 : Cert.PairNet.T512.Idx → EReal)
  (h5 : ∀ (p : Fin 2048) (k : Fin 512), v5 (ix3 (0 : Fin 1) p k) = L p k)
  (h7 : ∀ (p : Fin 2048) (k : Fin 512), v7 (ix3 (0 : Fin 1) p k) = R p k)
  (h9 : ∀ k o : Fin 512, v9 (ix2 k o) = W1 (ix2 o ⟨k.val, by have := k.isLt; omega⟩))
  (h12 : ∀ k o : Fin 512, v12 (ix2 k o) = W1 (ix2 o ⟨512 + k.val, by have := k.isLt; omega⟩))
  (h16 : ∀ o : Fin 512, v16 (ix2 (0 : Fin 1) o) = B1 (ix1 o))
  (h23 : ∀ k o : Fin 512, v23 (ix2 k o) = W2 (ix2 o k)) (h26 : ∀ o : Fin 512, v26 (ix2 (0 : Fin 1) o) = B2 (ix1 o))
  (h33 : ∀ k o : Fin 512, v33 (ix2 k o) = W3 (ix2 o k)) (h36 : ∀ o : Fin 512, v36 (ix2 (0 : Fin 1) o) = B3 (ix1 o))

include h5 h7 h9 h12 h16 in
/-- The first layer at pair p, output o: the specification's first layer on the pair's left and right rows. The
    left tile meets rows 0 … 511 of the transposed weight, which are its columns 0 … 511; the right tile meets rows
    512 … 1023. -/
theorem layer1_apply (p : Fin 2048) (o : Fin 512) :
    dense1 v5 v7 v9 v12 v16 (ix2 p o) = Cert.PairNet.layer1 W1 B1 (L p) (R p) o := by
  rw [dense1_apply]
  simp only [h5, h7, h9, h12, h16]
  rfl

include h5 h7 h9 h12 h16 h23 h26 in
/-- The second layer at pair p, output o. -/
theorem layer2_apply (p : Fin 2048) (o : Fin 512) :
    k0_pay4 (F := Ideal) v5 v7 v9 v12 v16 v23 v26 (ix2 p o)
      = Cert.PairNet.layer W2 B2 (Cert.PairNet.layer1 W1 B1 (L p) (R p)) o := by
  rw [pay4_eq, truncf_apply, dense_apply]
  simp only [truncf_apply, layer1_apply v5 v7 v9 v12 v16 L R W1 B1 h5 h7 h9 h12 h16, h23, h26]
  rfl

include h5 h7 h9 h12 h16 h23 h26 h33 h36 in
/-- The third layer at pair p, feature f: the three layers on the pair. -/
theorem layer3_apply (p : Fin 2048) (f : Fin 512) :
    dense (k0_pay4 (F := Ideal) v5 v7 v9 v12 v16 v23 v26) v33 v36 (ix2 p f)
      = Cert.PairNet.pairOut W1 B1 W2 B2 W3 B3 (L p) (R p) f := by
  rw [dense_apply]
  simp only [layer2_apply v5 v7 v9 v12 v16 v23 v26 L R W1 B1 W2 B2 h5 h7 h9 h12 h16 h23 h26, h33, h36]
  rfl

end Layers

/-! ## The column sums and the masked accumulation -/

/-- The sums down the columns of a [2048, 512] tile, read at f: the sum over the 2048 rows p of entry (p, f). -/
theorem colSum_apply (y : FVec Ideal S2048x512 .f32) (f : Fin 512) :
    multiReduction (F := Ideal) .add [0] S512 y 0x00000000#32 reduces_S2048x512_S512 (.inl rfl) rfl (ix1 f)
      = ∑ p : Fin 2048, y (ix2 p f) := by
  refine (Ideal.multiReduction_add_single y 0x00000000#32 reduces_S2048x512_S512 (.inl rfl) rfl (ix1 f)).trans ?_
  refine Finset.sum_congr rfl fun p _ => congrArg y ?_
  funext a
  match a with
  | ⟨0, _⟩ => rfl
  | ⟨1, _⟩ => rfl

/-- The vector of 512 sums laid as one row and repeated over the 16 rows, read at (r, f): the sum f. -/
theorem sumRows_apply (s : FVec Ideal S512 .f32) (r : Fin 16) (f : Fin 512) :
    broadcastTo S16x512 (shapeCast S1x512 (shapeCast S1x512 s shapeCasts_S512_S1x512) shapeCasts_S1x512_S1x512)
        broadcasts_S1x512_S16x512 (ix2 r f) = s (ix1 f) := by
  rw [shapeCast_self]
  exact (broadcastTo_1b_ab_apply _ _ r f).trans (shapeCast_a_1a_apply s _ (0 : Fin 1) f)

/-- Two row numbers below 16 have the same 32-bit word iff they are the same row. -/
theorem rowWord_eq_iff (r bb : Fin 16) : BitVec.ofNat 32 r.val = BitVec.ofNat 32 bb.val ↔ r = bb := by
  constructor
  · intro h
    have h' := congrArg BitVec.toNat h
    simp only [BitVec.toNat_ofNat] at h'
    have := r.isLt
    have := bb.isLt
    exact Fin.ext (by omega)
  · rintro rfl
    rfl

/-- The choice at (r, f) between two values by the comparison of the row's number with the sentence's number: the
    first value on the sentence's row, the second elsewhere. -/
theorem mask_apply {α : Type} (arg0 : BitVec 32) (bb : Fin 16) (harg : arg0 = BitVec.ofNat 32 bb.val) (r : Fin 16)
    (f : Fin 512) (a b : α) :
    Scalar.select (cmpi .eq (iota .tc S16x512 32 [0] iota_S16x512_d0_w32) (broadcast S16x512 arg0) (ix2 r f)) a b
      = if r = bb then a else b := by
  show (if IntOp.cmpi .eq (iota .tc S16x512 32 [0] iota_S16x512_d0_w32 (ix2 r f)) arg0 = 1#1 then a else b) = _
  rw [iota_single_apply, harg]
  exact if_congr (IntOp.cmpi_eq.trans (rowWord_eq_iff r bb)) rfl rfl

/-- The stored value: the accumulator plus the masked column sums of one layer on the tile. -/
theorem pay1_eq (arg0 : BitVec 32) (v32 : FVec Ideal S2048x512 .bf16) (v33 : Vec Ideal S512x512 .bf16)
    (v36 : Vec Ideal S1x512 .f32) (v51 : Vec Ideal S16x512 .f32) :
    k0_pay1 (F := Ideal) arg0 v32 v33 v36 v51
      = addf (shapeCast S16x512 v51 shapeCasts_S16x512_S16x512)
          (select (cmpi .eq (iota .tc S16x512 32 [0] iota_S16x512_d0_w32) (broadcast S16x512 arg0))
            (broadcastTo S16x512 (shapeCast S1x512 (shapeCast S1x512
              (multiReduction (F := Ideal) .add [0] S512 (dense v32 v33 v36) 0x00000000#32 reduces_S2048x512_S512 (.inl rfl) rfl)
              shapeCasts_S512_S1x512) shapeCasts_S1x512_S1x512) broadcasts_S1x512_S16x512)
            (broadcast S16x512 (Scalar.ofBits .f32 0x00000000#32))) := rfl

/-- The stored value at (r, f): the accumulator's entry plus, on the sentence's row, the sum over the tile's pairs of
    the layer's entry (p, f). -/
theorem pay1_apply (arg0 : BitVec 32) (bb : Fin 16) (harg : arg0 = BitVec.ofNat 32 bb.val)
    (v32 : FVec Ideal S2048x512 .bf16) (v33 : Vec Ideal S512x512 .bf16) (v36 : Vec Ideal S1x512 .f32)
    (v51 : Vec Ideal S16x512 .f32) (r : Fin 16) (f : Fin 512) :
    k0_pay1 (F := Ideal) arg0 v32 v33 v36 v51 (ix2 r f)
      = v51 (ix2 r f) + (if r = bb then ∑ p : Fin 2048, dense v32 v33 v36 (ix2 p f) else 0) := by
  rw [pay1_eq, addf_apply, shapeCast_self, select_apply, mask_apply arg0 bb harg r f, sumRows_apply, colSum_apply,
    broadcast_apply, zeroWord]

/-! ## The call's stored value -/

/-- Entry (r, f) of what the call stores: the accumulator's entry plus, when r is the sentence, the sum over the
    tile's 2048 pairs of the three layers' output at feature f. -/
theorem accumulate_apply (arg0 : BitVec 32) (bb : Fin 16) (harg : arg0 = BitVec.ofNat 32 bb.val)
    (v5 v7 : Vec Ideal S1x2048x512 .bf16) (v9 v12 : Vec Ideal S512x512 .bf16) (v16 : Vec Ideal S1x512 .f32)
    (v23 : Vec Ideal S512x512 .bf16) (v26 : Vec Ideal S1x512 .f32) (v33 : Vec Ideal S512x512 .bf16)
    (v36 : Vec Ideal S1x512 .f32) (v51 : Vec Ideal S16x512 .f32)
    (L R : Fin 2048 → Fin 512 → EReal) (W1 : Cert.PairNet.T512x1024.Idx → EReal) (B1 : Cert.PairNet.T512.Idx → EReal)
    (W2 : Cert.PairNet.T512x512.Idx → EReal) (B2 : Cert.PairNet.T512.Idx → EReal)
    (W3 : Cert.PairNet.T512x512.Idx → EReal) (B3 : Cert.PairNet.T512.Idx → EReal)
    (h5 : ∀ (p : Fin 2048) (k : Fin 512), v5 (ix3 (0 : Fin 1) p k) = L p k)
    (h7 : ∀ (p : Fin 2048) (k : Fin 512), v7 (ix3 (0 : Fin 1) p k) = R p k)
    (h9 : ∀ k o : Fin 512, v9 (ix2 k o) = W1 (ix2 o ⟨k.val, by have := k.isLt; omega⟩))
    (h12 : ∀ k o : Fin 512, v12 (ix2 k o) = W1 (ix2 o ⟨512 + k.val, by have := k.isLt; omega⟩))
    (h16 : ∀ o : Fin 512, v16 (ix2 (0 : Fin 1) o) = B1 (ix1 o))
    (h23 : ∀ k o : Fin 512, v23 (ix2 k o) = W2 (ix2 o k)) (h26 : ∀ o : Fin 512, v26 (ix2 (0 : Fin 1) o) = B2 (ix1 o))
    (h33 : ∀ k o : Fin 512, v33 (ix2 k o) = W3 (ix2 o k)) (h36 : ∀ o : Fin 512, v36 (ix2 (0 : Fin 1) o) = B3 (ix1 o))
    (r : Fin 16) (f : Fin 512) :
    k0_pay1 (F := Ideal) arg0 (k0_pay4 (F := Ideal) v5 v7 v9 v12 v16 v23 v26) v33 v36 v51 (ix2 r f)
      = v51 (ix2 r f)
        + (if r = bb then ∑ p : Fin 2048, Cert.PairNet.pairOut W1 B1 W2 B2 W3 B3 (L p) (R p) f else 0) := by
  rw [pay1_apply arg0 bb harg]
  simp only [layer3_apply v5 v7 v9 v12 v16 v23 v26 v33 v36 L R W1 B1 W2 B2 W3 B3 h5 h7 h9 h12 h16 h23 h26 h33 h36]

end Cert.KernelIdeal.PairValue

end
-- ==== Proof.PairCases.lean ====
/-
  What one grid point of the pair network's call leaves in the [16, 512] accumulator, as a term of the point's input
  blocks. There are three kinds of point. The first point stores the zero block and then adds the point's masked
  column sums to what it reads back, which is that zero block. A middle point adds the masked column sums to what the
  point before left. The last point does the same and then scales what it reads back — the sum it has just stored —
  by the word for 2⁻¹². Every load and store goes through the whole buffer at offset zero, so a loaded block is the
  buffer's contents and the last store that covers the buffer is what it holds.
-/
import proofs.«107744_j16612933501585_2_alg».proof.Proof.Gen.KernelIdeal.Frame
import Idealize.ShloMosaic.Lib.Pipeline.Value

set_option maxRecDepth 16384

noncomputable section

namespace Cert.KernelIdeal.PairCases

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A middle point: the accumulator `xo9` plus the masked column sums of the point's tile. -/
theorem out_B (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S16x512 .f32) (harg11 : arg11.IsWhole) (hc0 : ¬cond0_0 i) (hc1 : ¬cond0_1 i)
    (x0 : Vec F S1x2048x512 .bf16) (x1 : Vec F S1x2048x512 .bf16) (x2 : Vec F S512x512 .bf16) (x3 : Vec F S512x512 .bf16) (x4 : Vec F S1x512 .f32) (x5 : Vec F S512x512 .bf16) (x6 : Vec F S1x512 .f32) (x7 : Vec F S512x512 .bf16) (x8 : Vec F S1x512 .f32) (xo9 : Vec F S16x512 .f32) :
    out0_B_9 c i arg2 harg2 arg3 harg3 arg4 harg4 arg5 harg5 arg6 harg6 arg7 harg7 arg8 harg8 arg9 harg9 arg10 harg10 arg11 harg11 hc0 hc1 x0 x1 x2 x3 x4 x5 x6 x7 x8 xo9
      = k0_pay1 (BitVec.ofNat 32 (i 0).val) (k0_pay4 x0 x1 x2 x3 x4 x5 x6) x7 x8 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 hc1 x0 x1 x2 x3 x4 x5 x6 x7 x8 xo9)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) hz3, View.ld_unit_zero (S := S512x512) hz, View.ld_unit_zero (S := S1x512) hz, View.ld_unit_zero (S := S16x512) hz]

/-- The first point: the zero block plus the masked column sums of the point's tile. -/
theorem out_A (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S16x512 .f32) (harg11 : arg11.IsWhole) (hc0 : cond0_0 i) (hc1 : ¬cond0_1 i)
    (x0 : Vec F S1x2048x512 .bf16) (x1 : Vec F S1x2048x512 .bf16) (x2 : Vec F S512x512 .bf16) (x3 : Vec F S512x512 .bf16) (x4 : Vec F S1x512 .f32) (x5 : Vec F S512x512 .bf16) (x6 : Vec F S1x512 .f32) (x7 : Vec F S512x512 .bf16) (x8 : Vec F S1x512 .f32) :
    out0_A_9 c i arg2 harg2 arg3 harg3 arg4 harg4 arg5 harg5 arg6 harg6 arg7 harg7 arg8 harg8 arg9 harg9 arg10 harg10 arg11 harg11 hc0 hc1 x0 x1 x2 x3 x4 x5 x6 x7 x8
      = k0_pay1 (BitVec.ofNat 32 (i 0).val) (k0_pay4 x0 x1 x2 x3 x4 x5 x6) x7 x8 k0_pay3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_cons_unit_zero (S := S16x512) hz, View.readCov_unit_zero (S := S16x512) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) hz3, View.ld_unit_zero (S := S512x512) hz, View.ld_unit_zero (S := S1x512) hz, View.ld_unit_zero (S := S16x512) hz]

/-- The last point: the accumulator plus the masked column sums, scaled. -/
theorem out_C (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S16x512 .f32) (harg11 : arg11.IsWhole) (hc0 : ¬cond0_0 i) (hc1 : cond0_1 i)
    (x0 : Vec F S1x2048x512 .bf16) (x1 : Vec F S1x2048x512 .bf16) (x2 : Vec F S512x512 .bf16) (x3 : Vec F S512x512 .bf16) (x4 : Vec F S1x512 .f32) (x5 : Vec F S512x512 .bf16) (x6 : Vec F S1x512 .f32) (x7 : Vec F S512x512 .bf16) (x8 : Vec F S1x512 .f32) (xo9 : Vec F S16x512 .f32) :
    out0_C_9 c i arg2 harg2 arg3 harg3 arg4 harg4 arg5 harg5 arg6 harg6 arg7 harg7 arg8 harg8 arg9 harg9 arg10 harg10 arg11 harg11 hc0 hc1 x0 x1 x2 x3 x4 x5 x6 x7 x8 xo9
      = k0_pay2 (k0_pay1 (BitVec.ofNat 32 (i 0).val) (k0_pay4 x0 x1 x2 x3 x4 x5 x6) x7 x8 xo9) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 hc0 hc1 x0 x1 x2 x3 x4 x5 x6 x7 x8 xo9)]
  unfold kernelRun0_C
  dsimp only
  sl_unfold_words
  rw [View.canon_cons_unit_zero (S := S16x512) hz, View.readCov_unit_zero (S := S16x512) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) hz3, View.ld_unit_zero (S := S512x512) hz, View.ld_unit_zero (S := S1x512) hz, View.ld_unit_zero (S := S16x512) hz]

end Cert.KernelIdeal.PairCases

end
-- ==== Proof.PairAccum.lean ====
/-
  The accumulator of the pair network's call after each of its 32 grid points. Point `t` works on sentence `t / 2`,
  tile `t mod 2`, and adds to row `r` of the accumulator a contribution `T t` when `r = t / 2` and the zero word
  otherwise. So after point `n < 31` entry `(r, f)` is the sum over `s ≤ n` of the contributions with
  `s / 2 = r` (by induction on the point: the first point starts from the zero block), and the last point scales
  the full sum by the word for 2⁻¹². Only points `2 r` and `2 r + 1` contribute to row `r`, so the full sum is
  `T (2 r) + T (2 r + 1)`. Nothing here uses more of the extended reals than `0 + x = x` and the associativity of +.
-/
import proofs.«107744_j16612933501585_2_alg».proof.Proof.Gen.KernelIdeal.Frame
import proofs.«107744_j16612933501585_2_alg».proof.Proof.PairCases
import Idealize.ShloMosaic.Lib.Pipeline.Value
import Idealize.ShloMosaic.Lib.ValueIdx
import Idealize.ShloMosaic.PureOps.Ideal.Laws

set_option maxRecDepth 16384

noncomputable section

namespace Cert.KernelIdeal.PairAccum

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- One point's update of the accumulator: the accumulator plus the point's masked column sums. -/
def step (t : Fin cfg0.N) (acc : Vec Ideal S16x512 .f32) : Vec Ideal S16x512 .f32 :=
  k0_pay1 (F := Ideal) (BitVec.ofNat 32 (grid0.coords t 0).val)
    (k0_pay4 (iblk0 V c 0 t) (iblk0 V c 1 t) (iblk0 V c 2 t) (iblk0 V c 3 t) (iblk0 V c 4 t) (iblk0 V c 5 t) (iblk0 V c 6 t))
    (iblk0 V c 7 t) (iblk0 V c 8 t) acc

/-- The first point updates the zero block. -/
theorem outsAt_first (t : Fin cfg0.N) (h0 : t.val % 32 = 0) (h1 : ¬t.val % 32 = 31) :
    outsAt0 V c t.val t.isLt = step V c t (k0_pay3 (F := Ideal)) :=
  (outsAt0_A V c t h0 h1).trans
    (PairCases.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))

/-- A middle point updates what the point before left. -/
theorem outsAt_middle (t : Fin cfg0.N) (h0 : ¬t.val % 32 = 0) (h1 : ¬t.val % 32 = 31) :
    outsAt0 V c t.val t.isLt = step V c t (outsAt0 V c (t.val - 1) (Nat.lt_of_le_of_lt (Nat.sub_le _ _) t.isLt)) :=
  (outsAt0_B V c t h0 h1).trans
    (PairCases.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)
      (outsAt0 V c (t.val - 1) (Nat.lt_of_le_of_lt (Nat.sub_le _ _) t.isLt)))

/-- The last point updates what the point before left and scales the result. -/
theorem outsAt_last (t : Fin cfg0.N) (h0 : ¬t.val % 32 = 0) (h1 : t.val % 32 = 31) :
    outsAt0 V c t.val t.isLt
      = k0_pay2 (step V c t (outsAt0 V c (t.val - 1) (Nat.lt_of_le_of_lt (Nat.sub_le _ _) t.isLt))) :=
  (outsAt0_C V c t h0 h1).trans
    (PairCases.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t)
      (outsAt0 V c (t.val - 1) (Nat.lt_of_le_of_lt (Nat.sub_le _ _) t.isLt)))

/-- The zero block is 0 at every entry. -/
theorem zero_block (r : Fin 16) (f : Fin 512) : (k0_pay3 (F := Ideal)) (ix2 r f) = 0 := by
  show Ideal.ofBits .f32 0x00000000#32 = 0
  exact Ideal.ofBits_zero_f32

/-- The scaling multiplies every entry by the word for 2⁻¹². -/
theorem scale_apply (v : Vec Ideal S16x512 .f32) (r : Fin 16) (f : Fin 512) :
    (k0_pay2 (F := Ideal) v) (ix2 r f) = v (ix2 r f) * Ideal.ofBits .f32 0x39800000#32 := by
  unfold k0_pay2
  show shapeCast S16x512 v shapeCasts_S16x512_S16x512 (ix2 r f) * Ideal.ofBits .f32 0x39800000#32 = _
  rw [shapeCast_self]

section Sums

variable (T : ℕ → Fin 512 → EReal)
  (hstep : ∀ (t : Fin cfg0.N) (acc : Vec Ideal S16x512 .f32) (r : Fin 16) (f : Fin 512),
    step V c t acc (ix2 r f) = acc (ix2 r f) + (if r.val = t.val / 2 then T t.val f else 0))

include hstep

/-- After point `n < 31`: the contributions of the points up to `n` that work on sentence `r`. -/
theorem partial_sums (n : ℕ) (hn : n < cfg0.N) (h31 : n < 31) (r : Fin 16) (f : Fin 512) :
    outsAt0 V c n hn (ix2 r f) = ∑ s ∈ Finset.range (n + 1), (if r.val = s / 2 then T s f else 0) := by
  induction n with
  | zero =>
    rw [show outsAt0 V c 0 hn = step V c ⟨0, hn⟩ (k0_pay3 (F := Ideal)) from outsAt_first V c ⟨0, hn⟩ rfl (show ¬(0 : ℕ) % 32 = 31 by decide)]
    rw [hstep, zero_block, zero_add, Finset.sum_range_one]
  | succ n ih =>
    have hB0 : ¬(n + 1) % 32 = 0 := by omega
    have hB1 : ¬(n + 1) % 32 = 31 := by omega
    rw [show outsAt0 V c (n + 1) hn = step V c ⟨n + 1, hn⟩ (outsAt0 V c n (Nat.lt_of_succ_lt hn))
      from outsAt_middle V c ⟨n + 1, hn⟩ hB0 hB1]
    rw [hstep, ih (Nat.lt_of_succ_lt hn) (by omega), Finset.sum_range_succ _ (n + 1)]

/-- After the last point: all 32 contributions that work on sentence `r`, scaled. -/
theorem full_sum (h : 31 < cfg0.N) (r : Fin 16) (f : Fin 512) :
    outsAt0 V c 31 h (ix2 r f)
      = (∑ s ∈ Finset.range 32, (if r.val = s / 2 then T s f else 0)) * Ideal.ofBits .f32 0x39800000#32 := by
  rw [show outsAt0 V c 31 h = k0_pay2 (step V c ⟨31, h⟩ (outsAt0 V c 30 (Nat.lt_of_succ_lt h)))
    from outsAt_last V c ⟨31, h⟩ (show ¬(31 : ℕ) % 32 = 0 by decide) rfl]
  rw [scale_apply, hstep, partial_sums V c T hstep 30 (Nat.lt_of_succ_lt h) (by decide), Finset.sum_range_succ _ 31]

end Sums

/-- Only points `2 r` and `2 r + 1` work on sentence `r`. -/
theorem sum_rows (r : Fin 16) (g : ℕ → EReal) :
    ∑ s ∈ Finset.range 32, (if r.val = s / 2 then g s else 0) = g (2 * r.val) + g (2 * r.val + 1) := by
  rw [← Finset.sum_filter]
  have hr := r.isLt
  have hset : (Finset.range 32).filter (fun s => r.val = s / 2) = {2 * r.val, 2 * r.val + 1} := by
    ext s
    simp only [Finset.mem_filter, Finset.mem_range, Finset.mem_insert, Finset.mem_singleton]
    omega
  rw [hset, Finset.sum_pair (by omega)]

end Cert.KernelIdeal.PairAccum

end
-- ==== Proof.PairFinal.lean ====
/-
  The pair network's call writes its output array once: the accumulator's block index never moves over the grid, so
  it is written back only after the last point, and that one block is the whole [16, 512] array read at offset zero.
  So the array ends holding what the last point leaves in the accumulator.
-/
import proofs.«107744_j16612933501585_2_alg».proof.Proof.Gen.KernelIdeal.Frame
import Idealize.ShloMosaic.Lib.Pipeline.Value

set_option maxRecDepth 16384

noncomputable section

namespace Cert.KernelIdeal.PairFinal

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b)) (c : Dev nD)

/-- The last of the 32 points. -/
def tLast : Fin cfg0.N := ⟨31, by rw [show cfg0.N = 32 from N_0]; decide⟩

/-- What the last point leaves, as contents of the output array. -/
abbrev result : Buf (Elt F) ((c : Thread nD τ).loc main_v20) := outsAt0 V c 31 tLast.isLt

/-- The one write-back, after the last point, writes it: block (0, 0) of the array read at offset zero is the array. -/
theorem flushed_eq (t : Fin cfg0.N) (hf : (cfg0.win 9).flush t = true) :
    (dat0 V c).flushed 9 t = ((cfg0.win 9).blk t).view.read (Elt F) (result V c) := by
  have hN : cfg0.N = 32 := N_0
  have h31 : t.val = 31 := by have := (flush0_9 t).mp hf; have := t.isLt; omega
  obtain rfl : t = tLast := Fin.ext h31
  show (cfg0.win 9).cut (grid0.coords tLast) ((dat0 V c).after 9 tLast) = _
  rw [after0_9]
  have hz' : (fun a => win0_9.index tLast a * main_v20.ty.shape.size a) = fun _ => 0 :=
    funext fun a => by fin_cases a <;> decide +kernel
  exact (Memref.read_access_unit_zero (Elt F) main_v20 hz' (fun a => by rw [congrFun hz' a]; simp) (result V c)).symm

/-- So the output array ends holding what the last point leaves. -/
theorem final : (dat0 V c).arrAt 9 cfg0.N = result V c :=
  (dat0 V c).arrAt_eq_of_cover 9 (result V c) (flushed_eq V c) fun i =>
    ⟨tLast, (flush0_9 tLast).mpr rfl, by
      show i ∈ ((View.whole main_v20).slice (win0_9.rect tLast)).set
      rw [View.set_slice_whole, Rect.mem_set_unit]
      intro a
      have h0 : (i 0 : Nat) < 16 := (i 0).isLt
      have h1 : (i 1 : Nat) < 512 := (i 1).isLt
      match a with
      | ⟨0, _⟩ =>
        show win0_9.index tLast 0 * win0_9.size 0 ≤ (i 0 : Nat) ∧ (i 0 : Nat) < win0_9.index tLast 0 * win0_9.size 0 + win0_9.xsize (grid0.coords tLast) 0
        rw [show win0_9.index tLast 0 * win0_9.size 0 = 0 from by decide +kernel, show win0_9.xsize (grid0.coords tLast) 0 = 16 from by decide +kernel]; omega
      | ⟨1, _⟩ =>
        show win0_9.index tLast 1 * win0_9.size 1 ≤ (i 1 : Nat) ∧ (i 1 : Nat) < win0_9.index tLast 1 * win0_9.size 1 + win0_9.xsize (grid0.coords tLast) 1
        rw [show win0_9.index tLast 1 * win0_9.size 1 = 0 from by decide +kernel, show win0_9.xsize (grid0.coords tLast) 1 = 512 from by decide +kernel]; omega⟩

end Cert.KernelIdeal.PairFinal

end
-- ==== Proof.MeanScale.lean ====
/-
  The mean over the 4096 ordered pairs of a sentence. The kernel adds the column sums of the two tiles of 2048 pairs
  into the sentence's row and multiplies the row by the word for 2⁻¹²; the reference sums over all 4096 pairs and
  divides by the word for 4096. Both words are exact binary values, 2⁻¹² · 4096 = 1, and dividing an extended real
  by a nonzero real is multiplying it by the reciprocal, so the two readings agree on every extended real; and a sum
  over 4096 indices is the sum over the first 2048 plus the sum over the last 2048.
-/
import Idealize.ShloMosaic.PureOps.Ideal

noncomputable section

namespace Cert.PairMean

open Idealize.ShloMosaic

/-- The word `0x45800000` denotes the real 4096. -/
theorem word_pairs : Ideal.ofBits .f32 0x45800000#32 = ((4096 : ℝ) : EReal) := by
  simp [Ideal.ofBits, Ideal.ieee, -EReal.coe_mul]; norm_num

/-- The word `0x39800000` denotes the real 1/4096. -/
theorem word_inv_pairs : Ideal.ofBits .f32 0x39800000#32 = ((1 / 4096 : ℝ) : EReal) := by
  simp [Ideal.ofBits, Ideal.ieee, -EReal.coe_mul]; norm_num

/-- Scaling by the word for 2⁻¹² is dividing by the word for 4096, on every extended real. -/
theorem scale_eq_div (x : EReal) :
    x * Ideal.ofBits .f32 0x39800000#32 = Ideal.div x (Ideal.ofBits .f32 0x45800000#32) := by
  rw [word_pairs, word_inv_pairs, Ideal.div_coe (by norm_num : (4096 : ℝ) ≠ 0)]

/-- The 4096 pairs are the two tiles of 2048. -/
theorem sum_tiles {M : Type*} [AddCommMonoid M] (g : Fin 4096 → M) :
    ∑ p : Fin 4096, g p
      = ∑ p : Fin 2048, g ⟨p.val, by have := p.isLt; omega⟩ + ∑ p : Fin 2048, g ⟨2048 + p.val, by have := p.isLt; omega⟩ :=
  Fin.sum_univ_add (a := 2048) (b := 2048) (g : Fin (2048 + 2048) → M)

end Cert.PairMean

end
-- ==== Proof.PairTie.lean ====
/-
  The sentence embeddings as the pair network's call leaves them.

  The call runs over 32 grid points; point t works on sentence t / 2 and on tile t mod 2 of that sentence's 4096
  ordered pairs (pairs 2048 · (t mod 2) … 2048 · (t mod 2) + 2047). Each point adds to row t / 2 of the accumulator
  the sum over its tile's pairs of the three layers' output, and the last point scales the accumulator by the word
  for 2⁻¹². Row b therefore receives the contributions of points 2 b and 2 b + 1, the two tiles of sentence b: their
  sum is the sum over all 4096 pairs, and scaling by 2⁻¹² is dividing by the word for 4096. So the array ends
  holding the mean over the pairs of the three layers' output: the specification's sentence embedding.
-/
import proofs.«107744_j16612933501585_2_alg».proof.Proof.Gen.KernelIdeal.Frame
import proofs.«107744_j16612933501585_2_alg».proof.Proof.PairBody
import proofs.«107744_j16612933501585_2_alg».proof.Proof.PairAccum
import proofs.«107744_j16612933501585_2_alg».proof.Proof.PairFinal
import proofs.«107744_j16612933501585_2_alg».proof.Proof.Spec
import proofs.«107744_j16612933501585_2_alg».proof.Proof.MeanScale

set_option maxRecDepth 16384

noncomputable section

namespace Cert.KernelIdeal.PairTie

open Cert.KernelIdeal Cert.KernelIdeal.Gen
open Idealize.ShloMosaic Idealize.ShloMosaic.TcCoe Idealize.SL.Sem Idealize.ShloMosaic.ValueIdx

/-! ## The grid: point t works on sentence t / 2 -/

/-- The first grid coordinate of point t is t / 2. -/
theorem coords_sentence : ∀ t : Fin grid0.N, (grid0.coords t 0).val = t.val / 2 := by decide +kernel

/-! ## One tile's contribution -/

section Tiles

variable (X : Cert.PairNet.T16x64x512.Idx → EReal) (W1 : Cert.PairNet.T512x1024.Idx → EReal)
  (B1 : Cert.PairNet.T512.Idx → EReal) (W2 : Cert.PairNet.T512x512.Idx → EReal) (B2 : Cert.PairNet.T512.Idx → EReal)
  (W3 : Cert.PairNet.T512x512.Idx → EReal) (B3 : Cert.PairNet.T512.Idx → EReal)

/-- Point s's contribution at feature f: the sum over the 2048 pairs of tile s mod 2 of sentence s / 2 of the three
    layers' output (0 past the grid). -/
def tileSum (s : ℕ) (f : Fin 512) : EReal :=
  if h : s < 32 then
    ∑ p : Fin 2048, Cert.PairNet.pairOut W1 B1 W2 B2 W3 B3
      (Cert.PairNet.left X ⟨s / 2, by omega⟩ ⟨(s % 2) * 2048 + p.val, by have := p.isLt; omega⟩)
      (Cert.PairNet.right X ⟨s / 2, by omega⟩ ⟨(s % 2) * 2048 + p.val, by have := p.isLt; omega⟩) f
  else 0

/-- The three layers on a pair depend on the sentence and the pair through their numbers only. -/
theorem pair_congr (b b' : Fin 16) (p p' : Fin 4096) (hb : b.val = b'.val) (hp : p.val = p'.val) (f : Fin 512) :
    Cert.PairNet.pairOut W1 B1 W2 B2 W3 B3 (Cert.PairNet.left X b p) (Cert.PairNet.right X b p) f
      = Cert.PairNet.pairOut W1 B1 W2 B2 W3 B3 (Cert.PairNet.left X b' p') (Cert.PairNet.right X b' p') f := by
  obtain rfl : b = b' := Fin.ext hb
  obtain rfl : p = p' := Fin.ext hp
  rfl

/-- Points 2 b and 2 b + 1 are the two tiles of sentence b: together, the sum over its 4096 pairs. -/
theorem tiles_sum (b : Fin 16) (f : Fin 512) :
    tileSum X W1 B1 W2 B2 W3 B3 (2 * b.val) f + tileSum X W1 B1 W2 B2 W3 B3 (2 * b.val + 1) f
      = ∑ p : Fin 4096, Cert.PairNet.hid3 X W1 B1 W2 B2 W3 B3 b p f := by
  have hb := b.isLt
  rw [Cert.PairMean.sum_tiles]
  unfold tileSum
  rw [dif_pos (by omega : 2 * b.val < 32), dif_pos (by omega : 2 * b.val + 1 < 32)]
  congr 1
  · refine Finset.sum_congr rfl fun p _ => ?_
    have hp := p.isLt
    exact pair_congr X W1 B1 W2 B2 W3 B3 _ _ _ _ (by show 2 * b.val / 2 = b.val; omega)
      (by show (2 * b.val % 2) * 2048 + p.val = p.val; omega) f
  · refine Finset.sum_congr rfl fun p _ => ?_
    have hp := p.isLt
    exact pair_congr X W1 B1 W2 B2 W3 B3 _ _ _ _ (by show (2 * b.val + 1) / 2 = b.val; omega)
      (by show ((2 * b.val + 1) % 2) * 2048 + p.val = 2048 + p.val; omega) f

end Tiles

/-! ## The accumulator after the last point -/

section Region

variable (V : (c : Dev nD) → (b : Ref sig .tc) → Buf (Elt Ideal) ((c : Thread nD τ).loc b)) (c : Dev nD)
  (X : Cert.PairNet.T16x64x512.Idx → EReal) (W1 : Cert.PairNet.T512x1024.Idx → EReal)
  (B1 : Cert.PairNet.T512.Idx → EReal) (W2 : Cert.PairNet.T512x512.Idx → EReal) (B2 : Cert.PairNet.T512.Idx → EReal)
  (W3 : Cert.PairNet.T512x512.Idx → EReal) (B3 : Cert.PairNet.T512.Idx → EReal)
  (hleft : ∀ (t : Fin cfg0.N) (p : Fin 2048) (k : Fin 512),
    (iblk0 V c 0 t : Vec Ideal S1x2048x512 .bf16) (ix3 (0 : Fin 1) p k)
      = Cert.PairNet.left X ⟨t.val / 2, by have := t.isLt; have h : cfg0.N = 32 := N_0; omega⟩
          ⟨(t.val % 2) * 2048 + p.val, by have := p.isLt; omega⟩ k)
  (hright : ∀ (t : Fin cfg0.N) (p : Fin 2048) (k : Fin 512),
    (iblk0 V c 1 t : Vec Ideal S1x2048x512 .bf16) (ix3 (0 : Fin 1) p k)
      = Cert.PairNet.right X ⟨t.val / 2, by have := t.isLt; have h : cfg0.N = 32 := N_0; omega⟩
          ⟨(t.val % 2) * 2048 + p.val, by have := p.isLt; omega⟩ k)
  (hw1a : ∀ (t : Fin cfg0.N) (k o : Fin 512),
    (iblk0 V c 2 t : Vec Ideal S512x512 .bf16) (ix2 k o) = W1 (ix2 o ⟨k.val, by have := k.isLt; omega⟩))
  (hw1b : ∀ (t : Fin cfg0.N) (k o : Fin 512),
    (iblk0 V c 3 t : Vec Ideal S512x512 .bf16) (ix2 k o) = W1 (ix2 o ⟨512 + k.val, by have := k.isLt; omega⟩))
  (hb1 : ∀ (t : Fin cfg0.N) (o : Fin 512), (iblk0 V c 4 t : Vec Ideal S1x512 .f32) (ix2 (0 : Fin 1) o) = B1 (ix1 o))
  (hw2 : ∀ (t : Fin cfg0.N) (k o : Fin 512), (iblk0 V c 5 t : Vec Ideal S512x512 .bf16) (ix2 k o) = W2 (ix2 o k))
  (hb2 : ∀ (t : Fin cfg0.N) (o : Fin 512), (iblk0 V c 6 t : Vec Ideal S1x512 .f32) (ix2 (0 : Fin 1) o) = B2 (ix1 o))
  (hw3 : ∀ (t : Fin cfg0.N) (k o : Fin 512), (iblk0 V c 7 t : Vec Ideal S512x512 .bf16) (ix2 k o) = W3 (ix2 o k))
  (hb3 : ∀ (t : Fin cfg0.N) (o : Fin 512), (iblk0 V c 8 t : Vec Ideal S1x512 .f32) (ix2 (0 : Fin 1) o) = B3 (ix1 o))

include hleft hright hw1a hw1b hb1 hw2 hb2 hw3 hb3

/-- One point's update: row t / 2 of the accumulator receives the point's tile sum, the other rows the zero. -/
theorem step_apply (t : Fin cfg0.N) (acc : Vec Ideal S16x512 .f32) (r : Fin 16) (f : Fin 512) :
    PairAccum.step V c t acc (ix2 r f)
      = acc (ix2 r f) + (if r.val = t.val / 2 then tileSum X W1 B1 W2 B2 W3 B3 t.val f else 0) := by
  have ht : t.val < 32 := lt_of_lt_of_eq t.isLt (show cfg0.N = 32 from N_0)
  unfold PairAccum.step
  refine (PairValue.accumulate_apply (BitVec.ofNat 32 (grid0.coords t 0).val) ⟨t.val / 2, by omega⟩
    (congrArg (BitVec.ofNat 32) (coords_sentence t))
    (iblk0 V c 0 t) (iblk0 V c 1 t) (iblk0 V c 2 t) (iblk0 V c 3 t) (iblk0 V c 4 t) (iblk0 V c 5 t) (iblk0 V c 6 t)
    (iblk0 V c 7 t) (iblk0 V c 8 t) acc
    (fun p k => Cert.PairNet.left X ⟨t.val / 2, by omega⟩ ⟨(t.val % 2) * 2048 + p.val, by have := p.isLt; omega⟩ k)
    (fun p k => Cert.PairNet.right X ⟨t.val / 2, by omega⟩ ⟨(t.val % 2) * 2048 + p.val, by have := p.isLt; omega⟩ k)
    W1 B1 W2 B2 W3 B3 (hleft t) (hright t) (hw1a t) (hw1b t) (hb1 t) (hw2 t) (hb2 t) (hw3 t) (hb3 t) r f).trans ?_
  congr 1
  refine if_congr Fin.ext_iff ?_ rfl
  unfold tileSum
  rw [dif_pos ht]

/-- After the last point, entry (b, f) of the accumulator is the sentence embedding. -/
theorem last_apply (h : 31 < cfg0.N) (b : Fin 16) (f : Fin 512) :
    outsAt0 V c 31 h (ix2 b f) = Cert.PairNet.sent X W1 B1 W2 B2 W3 B3 b f := by
  refine (PairAccum.full_sum V c (tileSum X W1 B1 W2 B2 W3 B3)
    (step_apply V c X W1 B1 W2 B2 W3 B3 hleft hright hw1a hw1b hb1 hw2 hb2 hw3 hb3) h b f).trans ?_
  rw [PairAccum.sum_rows b (fun s => tileSum X W1 B1 W2 B2 W3 B3 s f), Cert.PairMean.scale_eq_div,
    tiles_sum X W1 B1 W2 B2 W3 B3 b f]
  rfl

end Region

/-! ## The output array -/

section Array

variable (m : (ℓ : Loc nD τ sig) → Buf (Elt Ideal) ℓ) (ρ : Dev nD → PrngReg) (c : Dev nD)

/-- The call's output array at (b, f) is the specification's sentence embedding of the argument arrays, given what
    each input window's block holds at each point. -/
theorem sent_array
    (hleft : ∀ (t : Fin cfg0.N) (p : Fin 2048) (k : Fin 512),
      (iblk0 (V1 m ρ) c 0 t : Vec Ideal S1x2048x512 .bf16) (ix3 (0 : Fin 1) p k)
        = Cert.PairNet.left (m ((c.tc : Thread nD τ).loc main_arg0))
            ⟨t.val / 2, by have := t.isLt; have h : cfg0.N = 32 := N_0; omega⟩
            ⟨(t.val % 2) * 2048 + p.val, by have := p.isLt; omega⟩ k)
    (hright : ∀ (t : Fin cfg0.N) (p : Fin 2048) (k : Fin 512),
      (iblk0 (V1 m ρ) c 1 t : Vec Ideal S1x2048x512 .bf16) (ix3 (0 : Fin 1) p k)
        = Cert.PairNet.right (m ((c.tc : Thread nD τ).loc main_arg0))
            ⟨t.val / 2, by have := t.isLt; have h : cfg0.N = 32 := N_0; omega⟩
            ⟨(t.val % 2) * 2048 + p.val, by have := p.isLt; omega⟩ k)
    (hw1a : ∀ (t : Fin cfg0.N) (k o : Fin 512),
      (iblk0 (V1 m ρ) c 2 t : Vec Ideal S512x512 .bf16) (ix2 k o)
        = (m ((c.tc : Thread nD τ).loc main_arg2)) (ix2 o ⟨k.val, by have := k.isLt; omega⟩))
    (hw1b : ∀ (t : Fin cfg0.N) (k o : Fin 512),
      (iblk0 (V1 m ρ) c 3 t : Vec Ideal S512x512 .bf16) (ix2 k o)
        = (m ((c.tc : Thread nD τ).loc main_arg2)) (ix2 o ⟨512 + k.val, by have := k.isLt; omega⟩))
    (hb1 : ∀ (t : Fin cfg0.N) (o : Fin 512),
      (iblk0 (V1 m ρ) c 4 t : Vec Ideal S1x512 .f32) (ix2 (0 : Fin 1) o) = (m ((c.tc : Thread nD τ).loc main_arg3)) (ix1 o))
    (hw2 : ∀ (t : Fin cfg0.N) (k o : Fin 512),
      (iblk0 (V1 m ρ) c 5 t : Vec Ideal S512x512 .bf16) (ix2 k o) = (m ((c.tc : Thread nD τ).loc main_arg4)) (ix2 o k))
    (hb2 : ∀ (t : Fin cfg0.N) (o : Fin 512),
      (iblk0 (V1 m ρ) c 6 t : Vec Ideal S1x512 .f32) (ix2 (0 : Fin 1) o) = (m ((c.tc : Thread nD τ).loc main_arg5)) (ix1 o))
    (hw3 : ∀ (t : Fin cfg0.N) (k o : Fin 512),
      (iblk0 (V1 m ρ) c 7 t : Vec Ideal S512x512 .bf16) (ix2 k o) = (m ((c.tc : Thread nD τ).loc main_arg6)) (ix2 o k))
    (hb3 : ∀ (t : Fin cfg0.N) (o : Fin 512),
      (iblk0 (V1 m ρ) c 8 t : Vec Ideal S1x512 .f32) (ix2 (0 : Fin 1) o) = (m ((c.tc : Thread nD τ).loc main_arg7)) (ix1 o))
    (b : Fin 16) (f : Fin 512) :
    ((dat0 (V1 m ρ) c).arrAt 9 cfg0.N : S16x512.Idx → EReal) (ix2 b f)
      = Cert.PairNet.sent (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) b f := by
  rw [PairFinal.final (F := Ideal) (V1 m ρ) c]
  exact last_apply (V1 m ρ) c _ _ _ _ _ _ _ hleft hright hw1a hw1b hb1 hw2 hb2 hw3 hb3 _ b f

end Array

end Cert.KernelIdeal.PairTie

end
-- ==== Proof.LibConcatPair.lean ====
/-
  Two arrays laid side by side along their last axis, read at an index: a column below the first array's width is
  the first array's, any other column `k` is the second array's at `k` less that width. Stated for matrices
  ([n, a] beside [n, b]) and for stacks of matrices ([m, n, a] beside [m, n, b]).
-/
import Idealize.ShloMosaic.Lib.Pipeline.Value
import Idealize.ShloMosaic.Lib.ValueIdx

noncomputable section

namespace Cert.Lib.ConcatPair

open Idealize.ShloMosaic Idealize.ShloMosaic.ValueIdx

variable {α : Type}

/-- `[n, a]` beside `[n, b]` at `(p, k)`: the first at `(p, k)` when `k < a`, else the second at `(p, k - a)`. -/
theorem concat_last2_apply {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2)) (hc : a + b = c)
    (p : Fin n) (k : Fin c) :
    concatenate (⟨2, ![n, c]⟩ : Shape) (1 : Fin 2) [⟨⟨2, ![n, a]⟩, x₁⟩, ⟨⟨2, ![n, b]⟩, x₂⟩] h (ix2 p k)
      = if hk : k.val < a then x₁ (ix2 p ⟨k.val, hk⟩)
        else x₂ (ix2 p ⟨k.val - a, by have := k.isLt; omega⟩) := by
  by_cases hk : k.val < a
  · rw [dif_pos hk]
    exact concatenate_pair_apply_left (1 : Fin 2) x₁ x₂ h (ix2 p k) rfl (ix2 p ⟨k.val, hk⟩)
      (fun d => by match d with | ⟨0, _⟩ => rfl | ⟨1, _⟩ => rfl)
  · rw [dif_neg hk]
    exact concatenate_pair_apply_right (1 : Fin 2) x₁ x₂ h (ix2 p k) rfl rfl
      (ix2 p ⟨k.val - a, by have := k.isLt; omega⟩)
      (fun d hd => by match d with | ⟨0, _⟩ => rfl | ⟨1, _⟩ => exact absurd rfl hd)
      (by show (k.val - a) + a = k.val; omega)

/-- `[m, n, a]` beside `[m, n, b]` at `(q, p, k)`: the first at `(q, p, k)` when `k < a`, else the second at `(q, p, k - a)`. -/
theorem concat_last3_apply {m n a b c : ℕ} (x₁ : (⟨3, ![m, n, a]⟩ : Shape).Idx → α) (x₂ : (⟨3, ![m, n, b]⟩ : Shape).Idx → α)
    (h : Shape.Concatenates [(⟨3, ![m, n, a]⟩ : Shape), ⟨3, ![m, n, b]⟩] ⟨3, ![m, n, c]⟩ (2 : Fin 3)) (hc : a + b = c)
    (q : Fin m) (p : Fin n) (k : Fin c) :
    concatenate (⟨3, ![m, n, c]⟩ : Shape) (2 : Fin 3) [⟨⟨3, ![m, n, a]⟩, x₁⟩, ⟨⟨3, ![m, n, b]⟩, x₂⟩] h (ix3 q p k)
      = if hk : k.val < a then x₁ (ix3 q p ⟨k.val, hk⟩)
        else x₂ (ix3 q p ⟨k.val - a, by have := k.isLt; omega⟩) := by
  by_cases hk : k.val < a
  · rw [dif_pos hk]
    exact concatenate_pair_apply_left (2 : Fin 3) x₁ x₂ h (ix3 q p k) rfl (ix3 q p ⟨k.val, hk⟩)
      (fun d => by match d with | ⟨0, _⟩ => rfl | ⟨1, _⟩ => rfl | ⟨2, _⟩ => rfl)
  · rw [dif_neg hk]
    exact concatenate_pair_apply_right (2 : Fin 3) x₁ x₂ h (ix3 q p k) rfl rfl
      (ix3 q p ⟨k.val - a, by have := k.isLt; omega⟩)
      (fun d hd => by match d with | ⟨0, _⟩ => rfl | ⟨1, _⟩ => rfl | ⟨2, _⟩ => exact absurd rfl hd)
      (by show (k.val - a) + a = k.val; omega)

end Cert.Lib.ConcatPair

end
-- ==== Proof.HeadBody.lean ====
/-
  The head call's result as a value. The call is handed the image features [16, 2048], the image layer's weights
  (transposed, [2048, 512]) and bias row, the scale and shift rows of the normalisation, the sentence embedding
  [16, 512], and the two head layers' weights (transposed) and bias rows. It computes, in this order: the image layer
  (a product into zeros plus the bias row repeated over the 16 rows); the mean over the 16 rows (a sum along axis 0
  divided by the word for 16), the deviation from it, the mean of the squared deviation; scale · deviation ·
  (variance + ε)^(-1/2) + shift with the products taken left to right, clipped at zero; the sentence and image
  embeddings side by side [16, 1024]; the first head layer (a product into zeros, the bias row, the clip at zero) and
  the second (a product into zeros and the bias row). A change of float format is the identity on extended reals, a
  cast of a shape to itself is the identity, and the one store covers the whole [16, 2] block.

  Each stage is named as a function of the arrays before it and read at an index written by its coordinates; the
  stages compose to the network's `head2` on the handed-in sentence embedding and the image embedding `img`.
-/
import proofs.«107744_j16612933501585_2_alg».proof.Proof.Gen.KernelIdeal.Frame
import proofs.«107744_j16612933501585_2_alg».proof.Proof.Spec
import proofs.«107744_j16612933501585_2_alg».proof.Proof.LibMatmulPlain
import proofs.«107744_j16612933501585_2_alg».proof.Proof.LibConcatPair
import Idealize.ShloMosaic.Lib.ValueLayout

noncomputable section

namespace Cert.KernelIdeal.HeadValue

open Cert.KernelIdeal Cert.KernelIdeal.Gen Idealize.ShloMosaic Idealize.ShloMosaic.ValueIdx

/-- The linear layer of the image branch: the product into zeros plus the bias row repeated over the 16 rows. -/
def kLin (x0 : FVec Ideal S16x2048 .bf16) (x1 : FVec Ideal S2048x512 .bf16) (x2 : FVec Ideal S1x512 .f32) : FVec Ideal S16x512 .f32 :=
  addf (matmul dot_S16x2048_S2048x512_S16x512_1_0_0_1_n_n none (shapeCast S16x2048 x0 Facts₀.shapeCasts_S16x2048_S16x2048)
      (shapeCast S2048x512 x1 Facts₀.shapeCasts_S2048x512_S2048x512) (constant (F := Ideal) S16x512 .f32 0x00000000#32))
    (broadcastTo S16x512 (shapeCast S1x512 x2 Facts₀.shapeCasts_S1x512_S1x512) Facts₀.broadcasts_S1x512_S16x512)

/-- The mean over the 16 rows, kept as a [1, 512] row: the lane sum over axis 0 divided by the word for 16. -/
def kMean (v : FVec Ideal S16x512 .f32) : FVec Ideal S1x512 .f32 :=
  divf (shapeCast S1x512 (multiReduction (F := Ideal) .add [0] S512 v 0x00000000#32 Facts₀.reduces_S16x512_S512 (.inl rfl) rfl) Facts₀.shapeCasts_S512_S1x512)
    (broadcast S1x512 (Scalar.ofBits (F := Ideal) .f32 0x41800000#32))

/-- The deviation from the mean row. -/
def kDev (v : FVec Ideal S16x512 .f32) : FVec Ideal S16x512 .f32 :=
  subf v (broadcastTo S16x512 (kMean v) Facts₀.broadcasts_S1x512_S16x512)

/-- The scaled, shifted and clipped normalisation. -/
def kImg (v : FVec Ideal S16x512 .f32) (x3 x4 : FVec Ideal S1x512 .f32) : FVec Ideal S16x512 .f32 :=
  maximumf
    (addf
      (mulf (mulf (broadcastTo S16x512 (shapeCast S1x512 x3 Facts₀.shapeCasts_S1x512_S1x512) Facts₀.broadcasts_S1x512_S16x512) (kDev v))
        (broadcastTo S16x512
          (rsqrt (addf (kMean (mulf (kDev v) (kDev v))) (broadcast S1x512 (Scalar.ofBits (F := Ideal) .f32 0x3727C5AC#32))))
          Facts₀.broadcasts_S1x512_S16x512))
      (broadcastTo S16x512 (shapeCast S1x512 x4 Facts₀.shapeCasts_S1x512_S1x512) Facts₀.broadcasts_S1x512_S16x512))
    (broadcast S16x512 (Scalar.ofBits (F := Ideal) .f32 0x00000000#32))

/-- The two embeddings side by side, in the narrower format. -/
def kSide (x5 : FVec Ideal S16x512 .f32) (I : FVec Ideal S16x512 .f32) : FVec Ideal S16x1024 .bf16 :=
  truncf .bf16 (concatenate S16x1024 1 [⟨S16x512, shapeCast S16x512 x5 Facts₀.shapeCasts_S16x512_S16x512⟩, ⟨S16x512, I⟩]
    Facts₀.concatenates_S16x512_S16x512_S16x1024_d1) Facts₀.bitsLt_bf16_f32

/-- What the call computes first — the sixteen side-by-side rows — is these stages in this order. -/
theorem pay2_eq (x0 : Vec Ideal S16x2048 .bf16) (x1 : Vec Ideal S2048x512 .bf16) (x2 x3 x4 : Vec Ideal S1x512 .f32)
    (x5 : Vec Ideal S16x512 .f32) :
    k1_pay2 (F := Ideal) x0 x1 x2 x3 x4 x5 = kSide x5 (kImg (kLin x0 x1 x2) x3 x4) := rfl

/-- The first head layer: the product into zeros, the bias row, the clip at zero. -/
def kHead1 (w : FVec Ideal S16x1024 .bf16) (x6 : FVec Ideal S1024x512 .bf16) (x7 : FVec Ideal S1x512 .f32) : FVec Ideal S16x512 .f32 :=
  maximumf
    (addf (matmul dot_S16x1024_S1024x512_S16x512_1_0_0_1_n_n none w (shapeCast S1024x512 x6 Facts₀.shapeCasts_S1024x512_S1024x512)
        (constant (F := Ideal) S16x512 .f32 0x00000000#32))
      (broadcastTo S16x512 (shapeCast S1x512 x7 Facts₀.shapeCasts_S1x512_S1x512) Facts₀.broadcasts_S1x512_S16x512))
    (broadcast S16x512 (Scalar.ofBits (F := Ideal) .f32 0x00000000#32))

/-- The second head layer on the first's result. -/
def kHead2 (h : FVec Ideal S16x512 .f32) (x8 : FVec Ideal S512x2 .bf16) (x9 : FVec Ideal S1x2 .f32) : FVec Ideal S16x2 .f32 :=
  addf (matmul dot_S16x512_S512x2_S16x2_1_0_0_1_n_n none (truncf .bf16 h Facts₀.bitsLt_bf16_f32) (shapeCast S512x2 x8 Facts₀.shapeCasts_S512x2_S512x2)
      (constant (F := Ideal) S16x2 .f32 0x00000000#32))
    (broadcastTo S16x2 (shapeCast S1x2 x9 Facts₀.shapeCasts_S1x2_S1x2) Facts₀.broadcasts_S1x2_S16x2)

/-- What the call stores is the two head layers on those rows. -/
theorem pay1_eq (w : FVec Ideal S16x1024 .bf16) (x6 : Vec Ideal S1024x512 .bf16) (x7 : Vec Ideal S1x512 .f32)
    (x8 : Vec Ideal S512x2 .bf16) (x9 : Vec Ideal S1x2 .f32) :
    k1_pay1 (F := Ideal) w x6 x7 x8 x9 = kHead2 (kHead1 w x6 x7) x8 x9 := rfl

open Cert.PairNet in
/-- The linear layer at (b, f): one sum over the 2048 input features plus the bias. -/
theorem kLin_apply (x0 : FVec Ideal S16x2048 .bf16) (x1 : FVec Ideal S2048x512 .bf16) (x2 : FVec Ideal S1x512 .f32)
    (IM : T16x2048.Idx → EReal) (IMW : T512x2048.Idx → EReal) (IMB : T512.Idx → EReal)
    (h0 : ∀ (b : Fin 16) (k : Fin 2048), x0 (ix2 b k) = IM (ix2 b k))
    (h1 : ∀ (k : Fin 2048) (f : Fin 512), x1 (ix2 k f) = IMW (ix2 f k))
    (h2 : ∀ f : Fin 512, x2 (ix2 (0 : Fin 1) f) = IMB (ix1 f)) (b : Fin 16) (f : Fin 512) :
    kLin x0 x1 x2 (ix2 b f) = lin IM IMW IMB b f := by
  unfold kLin lin
  rw [addf_apply, shapeCast_self, shapeCast_self, shapeCast_self, broadcastTo_1b_ab_apply, h2]
  refine congrArg (· + IMB (ix1 f)) ?_
  refine (Cert.Lib.MatmulPlain.matmul_zero_apply Facts₀.dot_S16x2048_S2048x512_S16x512_1_0_0_1_n_n_wf none x0 x1 b f).trans ?_
  exact Finset.sum_congr rfl fun k _ => by rw [h0, h1]

/-- The mean row at f: the sum over the 16 rows divided by the word for 16. -/
theorem kMean_apply (v : FVec Ideal S16x512 .f32) (f : Fin 512) :
    kMean v (ix2 (0 : Fin 1) f) = Ideal.div (∑ b : Fin 16, v (ix2 b f)) Cert.PairNet.wordBatch := by
  unfold kMean
  rw [divf_apply, broadcast_apply, shapeCast_a_1a_apply]
  refine congrArg (fun s => Ideal.div s Cert.PairNet.wordBatch) ?_
  refine (Ideal.multiReduction_add_single v 0x00000000#32 Facts₀.reduces_S16x512_S512 (.inl rfl) rfl (ix1 f)).trans ?_
  show (∑ k : Fin 16, v (Facts₀.reduces_S16x512_S512.lift (ix1 f) k)) = ∑ b : Fin 16, v (ix2 b f)
  exact Finset.sum_congr rfl fun k _ => congrArg v
    (funext fun a => Fin.ext (by match a with | ⟨0, _⟩ => rfl | ⟨1, _⟩ => rfl))

/-- The deviation at (b, f). -/
theorem kDev_apply (v : FVec Ideal S16x512 .f32) (b : Fin 16) (f : Fin 512) :
    kDev v (ix2 b f) = v (ix2 b f) - Ideal.div (∑ b' : Fin 16, v (ix2 b' f)) Cert.PairNet.wordBatch := by
  unfold kDev
  rw [subf_apply, broadcastTo_1b_ab_apply, kMean_apply]

/-- A reciprocal square root is taken entry by entry. -/
theorem rsqrt_apply {s : Shape} {φ : FTy} (a : FVec Ideal s φ) (i : s.Idx) : rsqrt a i = Ideal.rsqrt (a i) := rfl

section Image

open Cert.PairNet

variable (v : FVec Ideal S16x512 .f32) (IM : T16x2048.Idx → EReal) (IMW : T512x2048.Idx → EReal) (IMB : T512.Idx → EReal)
  (hv : ∀ (b : Fin 16) (f : Fin 512), v (ix2 b f) = lin IM IMW IMB b f)
include hv

/-- The mean row of the linear layer is the batch mean. -/
theorem kMean_lin (f : Fin 512) : kMean v (ix2 (0 : Fin 1) f) = mu IM IMW IMB f := by
  rw [kMean_apply]; unfold mu; simp only [hv]

/-- The deviation of the linear layer from its batch mean. -/
theorem kDev_lin (b : Fin 16) (f : Fin 512) : kDev v (ix2 b f) = dev IM IMW IMB b f := by
  rw [kDev_apply]; unfold dev mu; simp only [hv]

/-- The mean of the squared deviation is the biased variance. -/
theorem kVar_lin (f : Fin 512) : kMean (mulf (kDev v) (kDev v)) (ix2 (0 : Fin 1) f) = var IM IMW IMB f := by
  rw [kMean_apply]; unfold var; simp only [mulf_apply, kDev_lin v IM IMW IMB hv]

/-- The image embedding at (b, f): scale · deviation · (variance + ε)^(-1/2) + shift, clipped at zero. -/
theorem kImg_apply (x3 x4 : FVec Ideal S1x512 .f32) (Gm Bt : T512.Idx → EReal)
    (h3 : ∀ f : Fin 512, x3 (ix2 (0 : Fin 1) f) = Gm (ix1 f)) (h4 : ∀ f : Fin 512, x4 (ix2 (0 : Fin 1) f) = Bt (ix1 f))
    (b : Fin 16) (f : Fin 512) : kImg v x3 x4 (ix2 b f) = img IM IMW IMB Gm Bt b f := by
  unfold kImg img
  rw [maximumf_apply, broadcast_apply, addf_apply, mulf_apply, mulf_apply,
    broadcastTo_1b_ab_apply, broadcastTo_1b_ab_apply, broadcastTo_1b_ab_apply, shapeCast_self, shapeCast_self, h3, h4,
    kDev_lin v IM IMW IMB hv, rsqrt_apply, addf_apply, kVar_lin v IM IMW IMB hv, broadcast_apply]
  exact congrArg (max _) Ideal.ofBits_zero_f32

end Image

section Head

open Cert.PairNet

/-- The side-by-side row at (b, k): the sentence embedding below column 512, the image embedding from there on. -/
theorem kSide_apply (x5 I : FVec Ideal S16x512 .f32) (S Im : Fin 16 → Fin 512 → EReal)
    (h5 : ∀ (b : Fin 16) (f : Fin 512), x5 (ix2 b f) = S b f) (hI : ∀ (b : Fin 16) (f : Fin 512), I (ix2 b f) = Im b f)
    (b : Fin 16) (k : Fin 1024) : kSide x5 I (ix2 b k) = side S Im b k := by
  unfold kSide side
  rw [truncf_apply, shapeCast_self]
  refine (Cert.Lib.ConcatPair.concat_last2_apply x5 I Facts₀.concatenates_S16x512_S16x512_S16x1024_d1 rfl b k).trans ?_
  by_cases hk : k.val < 512
  · rw [dif_pos hk, dif_pos hk, h5]
  · rw [dif_neg hk, dif_neg hk, hI]

/-- The first head layer at (b, o): one sum over the 1024 side-by-side columns, the bias, the clip. -/
theorem kHead1_apply (w : FVec Ideal S16x1024 .bf16) (x6 : FVec Ideal S1024x512 .bf16) (x7 : FVec Ideal S1x512 .f32)
    (S Im : Fin 16 → Fin 512 → EReal) (D1W : T512x1024.Idx → EReal) (D1B : T512.Idx → EReal)
    (hw : ∀ (b : Fin 16) (k : Fin 1024), w (ix2 b k) = side S Im b k)
    (h6 : ∀ (k : Fin 1024) (o : Fin 512), x6 (ix2 k o) = D1W (ix2 o k)) (h7 : ∀ o : Fin 512, x7 (ix2 (0 : Fin 1) o) = D1B (ix1 o))
    (b : Fin 16) (o : Fin 512) : kHead1 w x6 x7 (ix2 b o) = head1 S Im D1W D1B b o := by
  unfold kHead1 head1
  rw [maximumf_apply, broadcast_apply, addf_apply, broadcastTo_1b_ab_apply, shapeCast_self, shapeCast_self, h7]
  refine congrArg₂ max (congrArg (· + D1B (ix1 o)) ?_) Ideal.ofBits_zero_f32
  refine (Cert.Lib.MatmulPlain.matmul_zero_apply Facts₀.dot_S16x1024_S1024x512_S16x512_1_0_0_1_n_n_wf none w x6 b o).trans ?_
  exact Finset.sum_congr rfl fun k _ => by rw [hw, h6]

/-- The second head layer at (b, j): one sum over the 512 hidden features plus the bias. -/
theorem kHead2_apply (h : FVec Ideal S16x512 .f32) (x8 : FVec Ideal S512x2 .bf16) (x9 : FVec Ideal S1x2 .f32)
    (H : Fin 16 → Fin 512 → EReal) (D2W : T2x512.Idx → EReal) (D2B : T2.Idx → EReal)
    (hh : ∀ (b : Fin 16) (k : Fin 512), h (ix2 b k) = H b k)
    (h8 : ∀ (k : Fin 512) (j : Fin 2), x8 (ix2 k j) = D2W (ix2 j k)) (h9 : ∀ j : Fin 2, x9 (ix2 (0 : Fin 1) j) = D2B (ix1 j))
    (b : Fin 16) (j : Fin 2) : kHead2 h x8 x9 (ix2 b j) = ∑ k : Fin 512, H b k * D2W (ix2 j k) + D2B (ix1 j) := by
  unfold kHead2
  rw [addf_apply, broadcastTo_1b_ab_apply, shapeCast_self, shapeCast_self, h9]
  refine congrArg (· + D2B (ix1 j)) ?_
  refine (Cert.Lib.MatmulPlain.matmul_zero_apply Facts₀.dot_S16x512_S512x2_S16x2_1_0_0_1_n_n_wf none
    (truncf .bf16 h Facts₀.bitsLt_bf16_f32) x8 b j).trans ?_
  exact Finset.sum_congr rfl fun k _ => by rw [truncf_apply, hh, h8]

end Head

/-- The two axis offsets of a whole rectangle are both zero. -/
theorem offsets_zero : (![0, 0] : Fin 2 → Nat) = fun _ => 0 :=
  funext fun a => by match a with | ⟨0, _⟩ => rfl | ⟨1, _⟩ => rfl

open Cert.PairNet in
/-- THE HEAD CALL'S RESULT at (b, j): the second head layer of the network on the sentence embedding it is handed
    and the image embedding it computes. -/
theorem out_apply (x0 : Vec Ideal S16x2048 .bf16) (x1 : Vec Ideal S2048x512 .bf16) (x2 x3 x4 : Vec Ideal S1x512 .f32) (x5 : Vec Ideal S16x512 .f32) (x6 : Vec Ideal S1024x512 .bf16) (x7 : Vec Ideal S1x512 .f32) (x8 : Vec Ideal S512x2 .bf16) (x9 : Vec Ideal S1x2 .f32)
      (IM : Cert.PairNet.T16x2048.Idx → EReal) (IMW : Cert.PairNet.T512x2048.Idx → EReal) (IMB Gm Bt : Cert.PairNet.T512.Idx → EReal) (S : Fin 16 → Fin 512 → EReal) (D1W : Cert.PairNet.T512x1024.Idx → EReal) (D1B : Cert.PairNet.T512.Idx → EReal) (D2W : Cert.PairNet.T2x512.Idx → EReal) (D2B : Cert.PairNet.T2.Idx → EReal)
      (h0 : ∀ (b : Fin 16) (k : Fin 2048), x0 (ix2 b k) = IM (ix2 b k)) (h1 : ∀ (k : Fin 2048) (f : Fin 512), x1 (ix2 k f) = IMW (ix2 f k))
      (h2 : ∀ f : Fin 512, x2 (ix2 (0 : Fin 1) f) = IMB (ix1 f)) (h3 : ∀ f : Fin 512, x3 (ix2 (0 : Fin 1) f) = Gm (ix1 f)) (h4 : ∀ f : Fin 512, x4 (ix2 (0 : Fin 1) f) = Bt (ix1 f))
      (h5 : ∀ (b : Fin 16) (f : Fin 512), x5 (ix2 b f) = S b f) (h6 : ∀ (k : Fin 1024) (o : Fin 512), x6 (ix2 k o) = D1W (ix2 o k)) (h7 : ∀ o : Fin 512, x7 (ix2 (0 : Fin 1) o) = D1B (ix1 o))
      (h8 : ∀ (k : Fin 512) (j : Fin 2), x8 (ix2 k j) = D2W (ix2 j k)) (h9 : ∀ j : Fin 2, x9 (ix2 (0 : Fin 1) j) = D2B (ix1 j)) (b : Fin 16) (j : Fin 2) :
      out1_10 (F := Ideal) x0 x1 x2 x3 x4 x5 x6 x7 x8 x9 (ix2 b j) = Cert.PairNet.head2 S (Cert.PairNet.img IM IMW IMB Gm Bt) D1W D1B D2W D2B b j := by
  unfold out1_10
  rw [View.canon_unit_zero offsets_zero]
  simp only [View.ld_unit_zero (S := S16x2048) offsets_zero, View.ld_unit_zero (S := S2048x512) offsets_zero,
    View.ld_unit_zero (S := S1x512) offsets_zero, View.ld_unit_zero (S := S16x512) offsets_zero,
    View.ld_unit_zero (S := S1024x512) offsets_zero, View.ld_unit_zero (S := S512x2) offsets_zero,
    View.ld_unit_zero (S := S1x2) offsets_zero]
  rw [pay1_eq, pay2_eq]
  unfold head2
  exact kHead2_apply _ x8 x9 (head1 S (img IM IMW IMB Gm Bt) D1W D1B) D2W D2B
    (fun b o => kHead1_apply _ x6 x7 S (img IM IMW IMB Gm Bt) D1W D1B
      (fun b k => kSide_apply x5 _ S (img IM IMW IMB Gm Bt) h5
        (fun b f => kImg_apply (kLin x0 x1 x2) IM IMW IMB
          (fun b f => kLin_apply x0 x1 x2 IM IMW IMB h0 h1 h2 b f) x3 x4 Gm Bt h3 h4 b f) b k)
      h6 h7 b o)
    h8 h9 b j

end Cert.KernelIdeal.HeadValue

end
-- ==== Proof.HeadArrays.lean ====
/-
  What the head's call reads. The head is the second of the program's two calls; its grid has one point, and each of
  its ten input windows takes its whole array as one block. Between the two calls the host converts the image input
  and the three transposed weight matrices to the narrower float format (the identity on extended reals), transposes
  the weights, and lays the five bias, scale and shift vectors as rows; it does not touch the sentence embedding,
  which is the array the first call left. So, entry by entry:
    the image block is the image input;
    a weight block at (k, f) is the weight argument at (f, k);
    a row block at (0, f) is the vector argument at f;
    the sentence block is what the first call's pipeline leaves.
  No host operation writes an argument and no window of the first call is an argument, so every argument is read at
  its launch contents.
-/
import proofs.«107744_j16612933501585_2_alg».proof.Proof.Gen.KernelIdeal.Frame
import proofs.«107744_j16612933501585_2_alg».proof.Proof.Spec
import Idealize.ShloMosaic.Lib.Pipeline.Value
import Idealize.ShloMosaic.Lib.ValueIdx

set_option maxRecDepth 16384

noncomputable section

namespace Cert.KernelIdeal.HeadArrays

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD) (t : Fin cfg1.N)

/-! ## Reading a vector laid as a row -/

/-- A `[b]` vector cast to a `[1, b]` row reads, at `(u, i)`, the vector at `i`: both sit at row-major position `i`. -/
theorem shapeCast_b_1b_apply {α : Type} {b : ℕ} (x : (⟨1, ![b]⟩ : Shape).Idx → α)
    (h : (⟨1, ![b]⟩ : Shape).ShapeCasts ⟨2, ![1, b]⟩) (u : Fin 1) (i : Fin b) :
    shapeCast ⟨2, ![1, b]⟩ x h (ix2 u i) = x (ix1 i) :=
  shapeCast_apply x h _ _ (by
    have hu : u.val = 0 := by omega
    rw [Shape.rowMajor_val_two, Shape.rowMajor_val_one]
    show i.val = u.val * b + i.val
    rw [hu, Nat.zero_mul, Nat.zero_add])

/-- A transposed `[q, p]` matrix reads, at `(i, j)`, the matrix at `(j, i)`. -/
theorem transpose_swap_apply {α : Type} {p q : ℕ} (x : (⟨2, ![q, p]⟩ : Shape).Idx → α)
    (h : (⟨2, ![q, p]⟩ : Shape).Transposes [1, 0] ⟨2, ![p, q]⟩) (i : Fin p) (j : Fin q) :
    transpose ⟨2, ![p, q]⟩ [1, 0] x h (ix2 i j) = x (ix2 j i) :=
  transpose_apply [1, 0] x h (ix2 i j) (ix2 j i) fun b => by
    match b with
    | ⟨0, _⟩ => rfl
    | ⟨1, _⟩ => rfl

/-! ## The arguments when the head's call is entered

No host operation writes an argument and no window of the pair network's call is one, so at the second call's entry
each argument still holds its launch contents. -/

/-- Closes "no operation of the first stretch writes this argument". -/
local macro "arg_unwritten0" : tactic =>
  `(tactic| (refine List.forall_iff_forall_mem.mp ?_
             simp only [hostOps0, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem W2_arg1 : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) :=
        StableHlo.after_of_forall_not_mem (b := Proc.devRef .tc main_arg1) _ _ (by arg_unwritten0)
    _ = m ((c.tc : Thread nD τ).loc main_arg1) := rfl

theorem W2_arg8 : W2 m ρ c (Proc.devRef .tc main_arg8) = m ((c.tc : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) :=
        StableHlo.after_of_forall_not_mem (b := Proc.devRef .tc main_arg8) _ _ (by arg_unwritten0)
    _ = m ((c.tc : Thread nD τ).loc main_arg8) := rfl

theorem W2_arg9 : W2 m ρ c (Proc.devRef .tc main_arg9) = m ((c.tc : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) :=
        StableHlo.after_of_forall_not_mem (b := Proc.devRef .tc main_arg9) _ _ (by arg_unwritten0)
    _ = m ((c.tc : Thread nD τ).loc main_arg9) := rfl

theorem W2_arg10 : W2 m ρ c (Proc.devRef .tc main_arg10) = m ((c.tc : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) :=
        StableHlo.after_of_forall_not_mem (b := Proc.devRef .tc main_arg10) _ _ (by arg_unwritten0)
    _ = m ((c.tc : Thread nD τ).loc main_arg10) := rfl

theorem W2_arg11 : W2 m ρ c (Proc.devRef .tc main_arg11) = m ((c.tc : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) :=
        StableHlo.after_of_forall_not_mem (b := Proc.devRef .tc main_arg11) _ _ (by arg_unwritten0)
    _ = m ((c.tc : Thread nD τ).loc main_arg11) := rfl

theorem W2_arg12 : W2 m ρ c (Proc.devRef .tc main_arg12) = m ((c.tc : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) :=
        StableHlo.after_of_forall_not_mem (b := Proc.devRef .tc main_arg12) _ _ (by arg_unwritten0)
    _ = m ((c.tc : Thread nD τ).loc main_arg12) := rfl

theorem W2_arg13 : W2 m ρ c (Proc.devRef .tc main_arg13) = m ((c.tc : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) :=
        StableHlo.after_of_forall_not_mem (b := Proc.devRef .tc main_arg13) _ _ (by arg_unwritten0)
    _ = m ((c.tc : Thread nD τ).loc main_arg13) := rfl

theorem W2_arg14 : W2 m ρ c (Proc.devRef .tc main_arg14) = m ((c.tc : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) :=
        StableHlo.after_of_forall_not_mem (b := Proc.devRef .tc main_arg14) _ _ (by arg_unwritten0)
    _ = m ((c.tc : Thread nD τ).loc main_arg14) := rfl

theorem W2_arg15 : W2 m ρ c (Proc.devRef .tc main_arg15) = m ((c.tc : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) :=
        StableHlo.after_of_forall_not_mem (b := Proc.devRef .tc main_arg15) _ _ (by arg_unwritten0)
    _ = m ((c.tc : Thread nD τ).loc main_arg15) := rfl

/-! ## The arrays the head's call finds

Between the two calls the host converts the image input and the transposed weights to the narrower format (the
identity on extended reals), transposes the three weight matrices, and lays the five bias and scale vectors as rows.
The sentence embedding is not touched: it is the array the first call left. -/

theorem im_arr : (V3 m ρ c main_v21 : S16x2048.Idx → EReal) = m ((c.tc : Thread nD τ).loc main_arg1) := by
  dsimp only [V3, W3, hostOps1]; after_results
  rw [W2_arg1]
  rfl

/-- The transposed image weight at `(k, f)` is the weight at `(f, k)`. -/
theorem imw_arr_apply (k : Fin 2048) (f : Fin 512) :
    (V3 m ρ c main_v23 : S2048x512.Idx → EReal) (ix2 k f) = m ((c.tc : Thread nD τ).loc main_arg8) (ix2 f k) := by
  dsimp only [V3, W3, hostOps1]; after_results
  rw [W2_arg8]
  exact transpose_swap_apply (p := 2048) (q := 512) _ _ k f

/-- The transposed first head weight at `(k, o)` is the weight at `(o, k)`. -/
theorem d1w_arr_apply (k : Fin 1024) (o : Fin 512) :
    (V3 m ρ c main_v25 : S1024x512.Idx → EReal) (ix2 k o) = m ((c.tc : Thread nD τ).loc main_arg12) (ix2 o k) := by
  dsimp only [V3, W3, hostOps1]; after_results
  rw [W2_arg12]
  exact transpose_swap_apply (p := 1024) (q := 512) _ _ k o

/-- The transposed second head weight at `(k, j)` is the weight at `(j, k)`. -/
theorem d2w_arr_apply (k : Fin 512) (j : Fin 2) :
    (V3 m ρ c main_v27 : S512x2.Idx → EReal) (ix2 k j) = m ((c.tc : Thread nD τ).loc main_arg14) (ix2 j k) := by
  dsimp only [V3, W3, hostOps1]; after_results
  rw [W2_arg14]
  exact transpose_swap_apply (p := 512) (q := 2) _ _ k j

/-- The image bias laid as a row. -/
theorem imb_arr_apply (f : Fin 512) :
    (V3 m ρ c main_v28 : S1x512.Idx → EReal) (ix2 (0 : Fin 1) f) = m ((c.tc : Thread nD τ).loc main_arg9) (ix1 f) := by
  dsimp only [V3, W3, hostOps1]; after_results
  rw [W2_arg9]
  exact shapeCast_b_1b_apply (b := 512) _ _ 0 f

/-- The scale vector γ laid as a row. -/
theorem gamma_arr_apply (f : Fin 512) :
    (V3 m ρ c main_v29 : S1x512.Idx → EReal) (ix2 (0 : Fin 1) f) = m ((c.tc : Thread nD τ).loc main_arg10) (ix1 f) := by
  dsimp only [V3, W3, hostOps1]; after_results
  rw [W2_arg10]
  exact shapeCast_b_1b_apply (b := 512) _ _ 0 f

/-- The shift vector β laid as a row. -/
theorem beta_arr_apply (f : Fin 512) :
    (V3 m ρ c main_v30 : S1x512.Idx → EReal) (ix2 (0 : Fin 1) f) = m ((c.tc : Thread nD τ).loc main_arg11) (ix1 f) := by
  dsimp only [V3, W3, hostOps1]; after_results
  rw [W2_arg11]
  exact shapeCast_b_1b_apply (b := 512) _ _ 0 f

/-- The first head bias laid as a row. -/
theorem d1b_arr_apply (o : Fin 512) :
    (V3 m ρ c main_v31 : S1x512.Idx → EReal) (ix2 (0 : Fin 1) o) = m ((c.tc : Thread nD τ).loc main_arg13) (ix1 o) := by
  dsimp only [V3, W3, hostOps1]; after_results
  rw [W2_arg13]
  exact shapeCast_b_1b_apply (b := 512) _ _ 0 o

/-- The second head bias laid as a row. -/
theorem d2b_arr_apply (j : Fin 2) :
    (V3 m ρ c main_v32 : S1x2.Idx → EReal) (ix2 (0 : Fin 1) j) = m ((c.tc : Thread nD τ).loc main_arg15) (ix1 j) := by
  dsimp only [V3, W3, hostOps1]; after_results
  rw [W2_arg15]
  exact shapeCast_b_1b_apply (b := 2) _ _ 0 j

/-- The sentence embedding is the array the first call's pipeline leaves: no host operation in between writes it. -/
theorem sent_arr : (V3 m ρ c main_v20 : S16x512.Idx → EReal) = ((dat0 (V1 m ρ) c).arrAt 9 cfg0.N : S16x512.Idx → EReal) := by
  dsimp only [V3, W3, hostOps1]; after_results
  exact W2_arr m ρ c 9

/-! ## Each window's block is its whole array

The call's grid has one point and every window's block index is (0, 0) with the block as large as the array, so the
element `(p, q)` of a block sits at `0 · size + 1 · p`, `0 · size + 1 · q` of the array: the same place. -/

theorem emb1_0 (p : Fin 16) (q : Fin 2048) : (((cfg1.win 0).blk t).view.emb (ix2 p q) : S16x2048.Idx) = ix2 p q := by
  funext a
  apply Fin.ext
  match a with
  | ⟨0, _⟩ =>
    show win1_0.index t 0 * 16 + 1 * p.val = p.val
    rw [show win1_0.index t 0 = 0 from rfl]; omega
  | ⟨1, _⟩ =>
    show win1_0.index t 1 * 2048 + 1 * q.val = q.val
    rw [show win1_0.index t 1 = 0 from rfl]; omega

theorem emb1_1 (p : Fin 2048) (q : Fin 512) : (((cfg1.win 1).blk t).view.emb (ix2 p q) : S2048x512.Idx) = ix2 p q := by
  funext a
  apply Fin.ext
  match a with
  | ⟨0, _⟩ =>
    show win1_1.index t 0 * 2048 + 1 * p.val = p.val
    rw [show win1_1.index t 0 = 0 from rfl]; omega
  | ⟨1, _⟩ =>
    show win1_1.index t 1 * 512 + 1 * q.val = q.val
    rw [show win1_1.index t 1 = 0 from rfl]; omega

theorem emb1_2 (p : Fin 1) (q : Fin 512) : (((cfg1.win 2).blk t).view.emb (ix2 p q) : S1x512.Idx) = ix2 p q := by
  funext a
  apply Fin.ext
  match a with
  | ⟨0, _⟩ =>
    show win1_2.index t 0 * 1 + 1 * p.val = p.val
    rw [show win1_2.index t 0 = 0 from rfl]; omega
  | ⟨1, _⟩ =>
    show win1_2.index t 1 * 512 + 1 * q.val = q.val
    rw [show win1_2.index t 1 = 0 from rfl]; omega

theorem emb1_3 (p : Fin 1) (q : Fin 512) : (((cfg1.win 3).blk t).view.emb (ix2 p q) : S1x512.Idx) = ix2 p q := by
  funext a
  apply Fin.ext
  match a with
  | ⟨0, _⟩ =>
    show win1_3.index t 0 * 1 + 1 * p.val = p.val
    rw [show win1_3.index t 0 = 0 from rfl]; omega
  | ⟨1, _⟩ =>
    show win1_3.index t 1 * 512 + 1 * q.val = q.val
    rw [show win1_3.index t 1 = 0 from rfl]; omega

theorem emb1_4 (p : Fin 1) (q : Fin 512) : (((cfg1.win 4).blk t).view.emb (ix2 p q) : S1x512.Idx) = ix2 p q := by
  funext a
  apply Fin.ext
  match a with
  | ⟨0, _⟩ =>
    show win1_4.index t 0 * 1 + 1 * p.val = p.val
    rw [show win1_4.index t 0 = 0 from rfl]; omega
  | ⟨1, _⟩ =>
    show win1_4.index t 1 * 512 + 1 * q.val = q.val
    rw [show win1_4.index t 1 = 0 from rfl]; omega

theorem emb1_5 (p : Fin 16) (q : Fin 512) : (((cfg1.win 5).blk t).view.emb (ix2 p q) : S16x512.Idx) = ix2 p q := by
  funext a
  apply Fin.ext
  match a with
  | ⟨0, _⟩ =>
    show win1_5.index t 0 * 16 + 1 * p.val = p.val
    rw [show win1_5.index t 0 = 0 from rfl]; omega
  | ⟨1, _⟩ =>
    show win1_5.index t 1 * 512 + 1 * q.val = q.val
    rw [show win1_5.index t 1 = 0 from rfl]; omega

theorem emb1_6 (p : Fin 1024) (q : Fin 512) : (((cfg1.win 6).blk t).view.emb (ix2 p q) : S1024x512.Idx) = ix2 p q := by
  funext a
  apply Fin.ext
  match a with
  | ⟨0, _⟩ =>
    show win1_6.index t 0 * 1024 + 1 * p.val = p.val
    rw [show win1_6.index t 0 = 0 from rfl]; omega
  | ⟨1, _⟩ =>
    show win1_6.index t 1 * 512 + 1 * q.val = q.val
    rw [show win1_6.index t 1 = 0 from rfl]; omega

theorem emb1_7 (p : Fin 1) (q : Fin 512) : (((cfg1.win 7).blk t).view.emb (ix2 p q) : S1x512.Idx) = ix2 p q := by
  funext a
  apply Fin.ext
  match a with
  | ⟨0, _⟩ =>
    show win1_7.index t 0 * 1 + 1 * p.val = p.val
    rw [show win1_7.index t 0 = 0 from rfl]; omega
  | ⟨1, _⟩ =>
    show win1_7.index t 1 * 512 + 1 * q.val = q.val
    rw [show win1_7.index t 1 = 0 from rfl]; omega

theorem emb1_8 (p : Fin 512) (q : Fin 2) : (((cfg1.win 8).blk t).view.emb (ix2 p q) : S512x2.Idx) = ix2 p q := by
  funext a
  apply Fin.ext
  match a with
  | ⟨0, _⟩ =>
    show win1_8.index t 0 * 512 + 1 * p.val = p.val
    rw [show win1_8.index t 0 = 0 from rfl]; omega
  | ⟨1, _⟩ =>
    show win1_8.index t 1 * 2 + 1 * q.val = q.val
    rw [show win1_8.index t 1 = 0 from rfl]; omega

theorem emb1_9 (p : Fin 1) (q : Fin 2) : (((cfg1.win 9).blk t).view.emb (ix2 p q) : S1x2.Idx) = ix2 p q := by
  funext a
  apply Fin.ext
  match a with
  | ⟨0, _⟩ =>
    show win1_9.index t 0 * 1 + 1 * p.val = p.val
    rw [show win1_9.index t 0 = 0 from rfl]; omega
  | ⟨1, _⟩ =>
    show win1_9.index t 1 * 2 + 1 * q.val = q.val
    rw [show win1_9.index t 1 = 0 from rfl]; omega

/-! ## What each input window's block holds -/

/-- The image block at `(b, k)` is the image input there. -/
theorem im_block (b : Fin 16) (k : Fin 2048) :
    (iblk1 (V3 m ρ) c 0 t : Vec Ideal S16x2048 .bf16) (ix2 b k) = m ((c.tc : Thread nD τ).loc main_arg1) (ix2 b k) := by
  unfold iblk1
  rw [View.read_apply]
  show (V3 m ρ c main_v21 : S16x2048.Idx → EReal) _ = _
  refine (congrArg (V3 m ρ c main_v21 : S16x2048.Idx → EReal) (emb1_0 t b k)).trans ?_
  exact congrFun (im_arr m ρ c) (ix2 b k)

/-- The image weight block at `(k, f)` is the weight at `(f, k)`. -/
theorem imw_block (k : Fin 2048) (f : Fin 512) :
    (iblk1 (V3 m ρ) c 1 t : Vec Ideal S2048x512 .bf16) (ix2 k f) = m ((c.tc : Thread nD τ).loc main_arg8) (ix2 f k) := by
  unfold iblk1
  rw [View.read_apply]
  show (V3 m ρ c main_v23 : S2048x512.Idx → EReal) _ = _
  refine (congrArg (V3 m ρ c main_v23 : S2048x512.Idx → EReal) (emb1_1 t k f)).trans ?_
  exact imw_arr_apply m ρ c k f

/-- The image bias block, a row, at column `f` is the bias at `f`. -/
theorem imb_block (f : Fin 512) :
    (iblk1 (V3 m ρ) c 2 t : Vec Ideal S1x512 .f32) (ix2 (0 : Fin 1) f) = m ((c.tc : Thread nD τ).loc main_arg9) (ix1 f) := by
  unfold iblk1
  rw [View.read_apply]
  show (V3 m ρ c main_v28 : S1x512.Idx → EReal) _ = _
  refine (congrArg (V3 m ρ c main_v28 : S1x512.Idx → EReal) (emb1_2 t 0 f)).trans ?_
  exact imb_arr_apply m ρ c f

/-- The scale block, a row, at column `f` is γ at `f`. -/
theorem gamma_block (f : Fin 512) :
    (iblk1 (V3 m ρ) c 3 t : Vec Ideal S1x512 .f32) (ix2 (0 : Fin 1) f) = m ((c.tc : Thread nD τ).loc main_arg10) (ix1 f) := by
  unfold iblk1
  rw [View.read_apply]
  show (V3 m ρ c main_v29 : S1x512.Idx → EReal) _ = _
  refine (congrArg (V3 m ρ c main_v29 : S1x512.Idx → EReal) (emb1_3 t 0 f)).trans ?_
  exact gamma_arr_apply m ρ c f

/-- The shift block, a row, at column `f` is β at `f`. -/
theorem beta_block (f : Fin 512) :
    (iblk1 (V3 m ρ) c 4 t : Vec Ideal S1x512 .f32) (ix2 (0 : Fin 1) f) = m ((c.tc : Thread nD τ).loc main_arg11) (ix1 f) := by
  unfold iblk1
  rw [View.read_apply]
  show (V3 m ρ c main_v30 : S1x512.Idx → EReal) _ = _
  refine (congrArg (V3 m ρ c main_v30 : S1x512.Idx → EReal) (emb1_4 t 0 f)).trans ?_
  exact beta_arr_apply m ρ c f

/-- The sentence block at `(b, f)` is what the first call's pipeline leaves there. -/
theorem sent_block (b : Fin 16) (f : Fin 512) :
    (iblk1 (V3 m ρ) c 5 t : Vec Ideal S16x512 .f32) (ix2 b f) = ((dat0 (V1 m ρ) c).arrAt 9 cfg0.N : S16x512.Idx → EReal) (ix2 b f) := by
  unfold iblk1
  rw [View.read_apply]
  show (V3 m ρ c main_v20 : S16x512.Idx → EReal) _ = _
  refine (congrArg (V3 m ρ c main_v20 : S16x512.Idx → EReal) (emb1_5 t b f)).trans ?_
  exact congrFun (sent_arr m ρ c) (ix2 b f)

/-- The first head weight block at `(k, o)` is the weight at `(o, k)`. -/
theorem d1w_block (k : Fin 1024) (o : Fin 512) :
    (iblk1 (V3 m ρ) c 6 t : Vec Ideal S1024x512 .bf16) (ix2 k o) = m ((c.tc : Thread nD τ).loc main_arg12) (ix2 o k) := by
  unfold iblk1
  rw [View.read_apply]
  show (V3 m ρ c main_v25 : S1024x512.Idx → EReal) _ = _
  refine (congrArg (V3 m ρ c main_v25 : S1024x512.Idx → EReal) (emb1_6 t k o)).trans ?_
  exact d1w_arr_apply m ρ c k o

/-- The first head bias block, a row, at column `o` is the bias at `o`. -/
theorem d1b_block (o : Fin 512) :
    (iblk1 (V3 m ρ) c 7 t : Vec Ideal S1x512 .f32) (ix2 (0 : Fin 1) o) = m ((c.tc : Thread nD τ).loc main_arg13) (ix1 o) := by
  unfold iblk1
  rw [View.read_apply]
  show (V3 m ρ c main_v31 : S1x512.Idx → EReal) _ = _
  refine (congrArg (V3 m ρ c main_v31 : S1x512.Idx → EReal) (emb1_7 t 0 o)).trans ?_
  exact d1b_arr_apply m ρ c o

/-- The second head weight block at `(k, j)` is the weight at `(j, k)`. -/
theorem d2w_block (k : Fin 512) (j : Fin 2) :
    (iblk1 (V3 m ρ) c 8 t : Vec Ideal S512x2 .bf16) (ix2 k j) = m ((c.tc : Thread nD τ).loc main_arg14) (ix2 j k) := by
  unfold iblk1
  rw [View.read_apply]
  show (V3 m ρ c main_v27 : S512x2.Idx → EReal) _ = _
  refine (congrArg (V3 m ρ c main_v27 : S512x2.Idx → EReal) (emb1_8 t k j)).trans ?_
  exact d2w_arr_apply m ρ c k j

/-- The second head bias block, a row, at column `j` is the bias at `j`. -/
theorem d2b_block (j : Fin 2) :
    (iblk1 (V3 m ρ) c 9 t : Vec Ideal S1x2 .f32) (ix2 (0 : Fin 1) j) = m ((c.tc : Thread nD τ).loc main_arg15) (ix1 j) := by
  unfold iblk1
  rw [View.read_apply]
  show (V3 m ρ c main_v32 : S1x2.Idx → EReal) _ = _
  refine (congrArg (V3 m ρ c main_v32 : S1x2.Idx → EReal) (emb1_9 t 0 j)).trans ?_
  exact d2b_arr_apply m ρ c j

end Cert.KernelIdeal.HeadArrays

end
-- ==== Proof.HeadResult.lean ====
/-
  The head call of the idealized kernel has a grid of one point. Its output window's block at that point is the whole
  [16, 2] result array read at offset zero, and it is written back after the point: so the result array ends holding
  what the body leaves in the output's buffer, a function of the ten input blocks at the point.

  The sixth input window is the sentence embedding, the first call's output array. Its block at the one point is the
  whole [16, 512] array, and no host operation between the two calls writes that array: so the block is, entry by
  entry, what the first call's write-backs left.
-/
import proofs.«107744_j16612933501585_2_alg».proof.Proof.Gen.KernelIdeal.Frame
import Idealize.ShloMosaic.Lib.Pipeline.Value
import Idealize.ShloMosaic.Lib.ValueIdx

set_option maxRecDepth 16384

noncomputable section

namespace Cert.KernelIdeal.HeadResult

open Cert.KernelIdeal Cert.KernelIdeal.Gen
open Idealize.ShloMosaic Idealize.ShloMosaic.TcCoe Idealize.SL.Sem Idealize.ShloMosaic.ValueIdx
open Idealize.ShloMosaic.Pipeline (Dat)

section AnyEntry

variable {F : FTy → Type} [FloatOps F]
variable (V : (c : Dev nD) → (b : Ref sig .tc) → Buf (Elt F) ((c : Thread nD τ).loc b)) (c : Dev nD)

/-- What the body leaves in the output's buffer at the one point, as contents of the result array. -/
abbrev result : Buf (Elt F) ((c : Thread nD τ).loc main_v33) :=
  out1_10 (iblk1 V c 0 t1_0) (iblk1 V c 1 t1_0) (iblk1 V c 2 t1_0) (iblk1 V c 3 t1_0) (iblk1 V c 4 t1_0)
    (iblk1 V c 5 t1_0) (iblk1 V c 6 t1_0) (iblk1 V c 7 t1_0) (iblk1 V c 8 t1_0) (iblk1 V c 9 t1_0)

/-- The one write-back writes it: block (0, 0) of the [16, 2] array read at offset zero is the array. -/
theorem flushed_eq (t : Fin cfg1.N) (hf : (cfg1.win 10).flush t = true) :
    (dat1 V c).flushed 10 t = ((cfg1.win 10).blk t).view.read (Elt F) (result V c) := by
  obtain rfl : t = t1_0 := fin_N1 t
  show (cfg1.win 10).cut (grid1.coords t1_0) ((dat1 V c).after 10 t1_0) = _
  rw [after1_10]
  have hz' : (fun a => win1_10.index t1_0 a * main_v33.ty.shape.size a) = fun _ => 0 :=
    funext fun a => by fin_cases a <;> decide +kernel
  exact (Memref.read_access_unit_zero (Elt F) main_v33 hz' (fun a => by rw [congrFun hz' a]; simp) (result V c)).symm

/-- So the result array ends holding what the body leaves at the one point. -/
theorem final : (dat1 V c).arrAt 10 cfg1.N = result V c :=
  (dat1 V c).arrAt_eq_of_cover 10 (result V c) (flushed_eq V c) fun i =>
    ⟨t1_0, flush1_10 t1_0, by
      show i ∈ ((View.whole main_v33).slice (win1_10.rect t1_0)).set
      rw [View.set_slice_whole, Rect.mem_set_unit]
      intro a
      have h0 : (i 0 : Nat) < 16 := (i 0).isLt
      have h1 : (i 1 : Nat) < 2 := (i 1).isLt
      match a with
      | ⟨0, _⟩ =>
        show win1_10.index t1_0 0 * win1_10.size 0 ≤ (i 0 : Nat) ∧ (i 0 : Nat) < win1_10.index t1_0 0 * win1_10.size 0 + win1_10.xsize (grid1.coords t1_0) 0
        rw [show win1_10.index t1_0 0 * win1_10.size 0 = 0 from by decide +kernel, show win1_10.xsize (grid1.coords t1_0) 0 = 16 from by decide +kernel]; omega
      | ⟨1, _⟩ =>
        show win1_10.index t1_0 1 * win1_10.size 1 ≤ (i 1 : Nat) ∧ (i 1 : Nat) < win1_10.index t1_0 1 * win1_10.size 1 + win1_10.xsize (grid1.coords t1_0) 1
        rw [show win1_10.index t1_0 1 * win1_10.size 1 = 0 from by decide +kernel, show win1_10.xsize (grid1.coords t1_0) 1 = 2 from by decide +kernel]; omega⟩

/-- The sixth input window's block at any point, entry (b, f), is the array's entry (b, f): the block index is 0 on
    both axes, so the embedded coordinate is 0 · size + 1 · coordinate. -/
theorem block5_apply (t : Fin cfg1.N) (b : Fin 16) (f : Fin 512) :
    (iblk1 V c 5 t : Vec F S16x512 .f32) (ix2 b f) = (V c main_v20 : S16x512.Idx → Elt F .f32) (ix2 b f) := by
  obtain rfl : t = t1_0 := fin_N1 t
  unfold iblk1
  rw [View.read_apply]
  show V c main_v20 _ = V c main_v20 _
  congr 1
  funext a
  apply Fin.ext
  match a with
  | ⟨0, _⟩ =>
    show win1_5.index t1_0 0 * 16 + 1 * b.val = b.val
    rw [show win1_5.index t1_0 0 = 0 from by decide +kernel]; omega
  | ⟨1, _⟩ =>
    show win1_5.index t1_0 1 * 512 + 1 * f.val = f.val
    rw [show win1_5.index t1_0 1 = 0 from by decide +kernel]; omega

end AnyEntry

section Run

variable (m : (ℓ : Loc nD τ sig) → Buf (Elt Ideal) ℓ) (ρ : Dev nD → PrngReg) (c : Dev nD)

/-- The result array after the head call is the body's output at the one point, from the ten input blocks. -/
theorem result_array :
    ((dat1 (V3 m ρ) c).arrAt 10 cfg1.N : S16x2.Idx → EReal)
      = out1_10 (F := Ideal) (iblk1 (V3 m ρ) c 0 t1_0) (iblk1 (V3 m ρ) c 1 t1_0) (iblk1 (V3 m ρ) c 2 t1_0)
          (iblk1 (V3 m ρ) c 3 t1_0) (iblk1 (V3 m ρ) c 4 t1_0) (iblk1 (V3 m ρ) c 5 t1_0) (iblk1 (V3 m ρ) c 6 t1_0)
          (iblk1 (V3 m ρ) c 7 t1_0) (iblk1 (V3 m ρ) c 8 t1_0) (iblk1 (V3 m ρ) c 9 t1_0) :=
  final (V3 m ρ) c

/-- No host operation between the two calls writes the first call's output array. -/
theorem entry_v20 : W3 m ρ c (Proc.devRef .tc main_v20) = W2 m ρ c (Proc.devRef .tc main_v20) :=
  StableHlo.after_of_forall_not_mem (b := Proc.devRef .tc main_v20) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The sentence block the head call reads is, entry by entry, the array the first call's write-backs left. -/
theorem sent_block (t : Fin cfg1.N) (b : Fin 16) (f : Fin 512) :
    (iblk1 (V3 m ρ) c 5 t : Vec Ideal S16x512 .f32) (ix2 b f)
      = ((dat0 (V1 m ρ) c).arrAt 9 cfg0.N : S16x512.Idx → EReal) (ix2 b f) := by
  rw [block5_apply]
  show W3 m ρ c (Proc.devRef .tc main_v20) (ix2 b f) = _
  rw [entry_v20]
  exact congrFun (W2_arr m ρ c 9) (ix2 b f)

end Run

end Cert.KernelIdeal.HeadResult

end
-- ==== Proof.HeadTie.lean ====
/-
  The idealized kernel's result array is the network of the specification. The head's call has one grid point, whose
  one store is the whole [16, 2] result array; its input blocks are the whole arrays the host operations prepared —
  the image input, the transposed weights, the biases as rows — and, as its sixth operand, the array the pair
  network's call left, which holds the sentence embeddings.
-/
import proofs.«107744_j16612933501585_2_alg».proof.Proof.Gen.KernelIdeal.Frame
import proofs.«107744_j16612933501585_2_alg».proof.Proof.Spec
import proofs.«107744_j16612933501585_2_alg».proof.Proof.HeadBody
import proofs.«107744_j16612933501585_2_alg».proof.Proof.HeadArrays
import proofs.«107744_j16612933501585_2_alg».proof.Proof.HeadResult

set_option maxRecDepth 16384

noncomputable section

namespace Cert.KernelIdeal.HeadTie

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The last stretch's contents at the result array, given that the pair network's call leaves the sentence embeddings. -/
theorem result_eq
    (hsent : ∀ (b : Fin 16) (f : Fin 512), ((dat0 (V1 m ρ) c).arrAt 9 cfg0.N : S16x512.Idx → EReal) (ix2 b f)
      = Cert.PairNet.sent (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b f) :
    (W4 m ρ c (Proc.devRef .tc main_v33) : S16x2.Idx → EReal)
      = Cert.PairNet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  funext i
  obtain ⟨b, j, rfl⟩ : ∃ (b : Fin 16) (j : Fin 2), i = ix2 b j := ⟨i 0, i 1, eq_ix2 i⟩
  have hW : (W4 m ρ c (Proc.devRef .tc main_v33) : S16x2.Idx → EReal) = ((dat1 (V3 m ρ) c).arrAt 10 cfg1.N : S16x2.Idx → EReal) :=
    W4_arr m ρ c 10
  rw [hW, Cert.KernelIdeal.HeadResult.result_array m ρ c]
  exact Cert.KernelIdeal.HeadValue.out_apply (iblk1 (V3 m ρ) c 0 t1_0) (iblk1 (V3 m ρ) c 1 t1_0) (iblk1 (V3 m ρ) c 2 t1_0) (iblk1 (V3 m ρ) c 3 t1_0) (iblk1 (V3 m ρ) c 4 t1_0) (iblk1 (V3 m ρ) c 5 t1_0) (iblk1 (V3 m ρ) c 6 t1_0) (iblk1 (V3 m ρ) c 7 t1_0) (iblk1 (V3 m ρ) c 8 t1_0) (iblk1 (V3 m ρ) c 9 t1_0)
    (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11))
    (Cert.PairNet.sent (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (m ((c.tc : Thread nD τ).loc main_arg12)) (m ((c.tc : Thread nD τ).loc main_arg13)) (m ((c.tc : Thread nD τ).loc main_arg14)) (m ((c.tc : Thread nD τ).loc main_arg15))
    (fun b k => Cert.KernelIdeal.HeadArrays.im_block m ρ c t1_0 b k)
    (fun k f => Cert.KernelIdeal.HeadArrays.imw_block m ρ c t1_0 k f)
    (fun f => Cert.KernelIdeal.HeadArrays.imb_block m ρ c t1_0 f)
    (fun f => Cert.KernelIdeal.HeadArrays.gamma_block m ρ c t1_0 f)
    (fun f => Cert.KernelIdeal.HeadArrays.beta_block m ρ c t1_0 f)
    (fun b f => (Cert.KernelIdeal.HeadArrays.sent_block m ρ c t1_0 b f).trans (hsent b f))
    (fun k o => Cert.KernelIdeal.HeadArrays.d1w_block m ρ c t1_0 k o)
    (fun o => Cert.KernelIdeal.HeadArrays.d1b_block m ρ c t1_0 o)
    (fun k j => Cert.KernelIdeal.HeadArrays.d2w_block m ρ c t1_0 k j)
    (fun j => Cert.KernelIdeal.HeadArrays.d2b_block m ρ c t1_0 j) b j

end Cert.KernelIdeal.HeadTie

end
-- ==== Proof.RefSentence.lean ====
/-
  The reference's sentence embedding, read at an index.

  The reference lays the 4096 ordered pairs of a sentence out as two [4096, 512] tables (the left one repeats the
  sentence's rows, the right one is a regrouping of the block with its last axis constant), sets them side by side as
  one [65536, 1024] matrix of pair rows (row 4096 b + p is pair p of sentence b), applies three layers
  max (x · Wᵀ + bias) 0 to every row, regroups the rows by sentence, sums over the 4096 pairs and divides by the
  word for 4096. Each step is read at an index given by coordinates and identified with the matching function of the
  specification.
-/
import proofs.«107744_j16612933501585_2_alg».proof.Proof.Gen.ReferenceIdeal.Read
import proofs.«107744_j16612933501585_2_alg».proof.Proof.Spec
import proofs.«107744_j16612933501585_2_alg».proof.Proof.LibConcatPair

noncomputable section

namespace Cert.ReferenceIdeal.RefValue

open Cert.ReferenceIdeal Cert.ReferenceIdeal.Gen Cert.ReferenceIdeal.Read Idealize.ShloMosaic Idealize.ShloMosaic.ValueIdx

/-! ## The two tables -/

/-- Row `p` of the left table of sentence `b` is token `p mod 64`: the flat position `(4096 b + p) 512 + k` of the
    [16, 64, 64, 512] array of repeated blocks has third coordinate `p mod 64` and last coordinate `k`. -/
theorem left_eq (x0 : (⟨S16x64x512, .f32⟩ : BufTy).Contents (Elt Ideal)) (b : Fin 16) (p : Fin 4096) (k : Fin 512) :
    val_main_v2 (F := Ideal) x0 (ix3 b p k) = Cert.PairNet.left x0 b p k := by
  rw [val_main_v2_apply, val_main_v1_apply, val_main_v0_apply]
  unfold Cert.PairNet.left
  refine congrArg x0 (funext fun a => Fin.ext ?_)
  have hb := b.isLt; have hp := p.isLt; have hk := k.isLt
  match a with
  | ⟨0, _⟩ => show ((b.val * 4096 + p.val) * 512 + k.val) / 2097152 = b.val; omega
  | ⟨1, _⟩ => show ((b.val * 4096 + p.val) * 512 + k.val) / 512 % 64 = p.val % 64; omega
  | ⟨2, _⟩ => show ((b.val * 4096 + p.val) * 512 + k.val) % 512 = k.val; omega

/-- Entry `(p, k)` of the right table of sentence `b`: the flat position `(4096 b + p) 512 + k` of the
    [16, 64, 512, 64] array (last axis constant) has token coordinate `(512 p + k) / 32768` and feature coordinate
    `(512 p + k) / 64 mod 512`. -/
theorem right_eq (x0 : (⟨S16x64x512, .f32⟩ : BufTy).Contents (Elt Ideal)) (b : Fin 16) (p : Fin 4096) (k : Fin 512) :
    val_main_v5 (F := Ideal) x0 (ix3 b p k) = Cert.PairNet.right x0 b p k := by
  rw [val_main_v5_apply, val_main_v4_apply, val_main_v3_apply]
  unfold Cert.PairNet.right
  refine congrArg x0 (funext fun a => Fin.ext ?_)
  have hb := b.isLt; have hp := p.isLt; have hk := k.isLt
  match a with
  | ⟨0, _⟩ => show ((b.val * 4096 + p.val) * 512 + k.val) / 2097152 = b.val; omega
  | ⟨1, _⟩ => show ((b.val * 4096 + p.val) * 512 + k.val) / 32768 % 64 = (p.val * 512 + k.val) / 32768; omega
  | ⟨2, _⟩ => show ((b.val * 4096 + p.val) * 512 + k.val) / 64 % 512 = (p.val * 512 + k.val) / 64 % 512; omega

/-! ## A pair row of the [65536, 1024] matrix -/

/-- Row `4096 b + p` of the matrix of pair rows is the left row of pair `p` of sentence `b` on columns 0 … 511
    beside its right row on columns 512 … 1023: flat position `1024 n + k` of the [16, 4096, 1024] array is `(b, p, k)`. -/
theorem row_eq (x0 : (⟨S16x64x512, .f32⟩ : BufTy).Contents (Elt Ideal)) (b : Fin 16) (p : Fin 4096) (n : Fin 65536)
    (hn : n.val = 4096 * b.val + p.val) (k : Fin 1024) :
    val_main_v7 (F := Ideal) x0 (ix2 n k)
      = if hk : k.val < 512 then Cert.PairNet.left x0 b p ⟨k.val, hk⟩
        else Cert.PairNet.right x0 b p ⟨k.val - 512, by have := k.isLt; omega⟩ := by
  have hi : idx_main_v7 (ix2 n k) = ix3 b p k := funext fun a => Fin.ext (by
    have hb := b.isLt; have hp := p.isLt; have hk := k.isLt
    match a with
    | ⟨0, _⟩ => show (n.val * 1024 + k.val) / 4194304 = b.val; omega
    | ⟨1, _⟩ => show (n.val * 1024 + k.val) / 1024 % 4096 = p.val; omega
    | ⟨2, _⟩ => show (n.val * 1024 + k.val) % 1024 = k.val; omega)
  rw [val_main_v7_apply, hi]
  unfold val_main_v6
  refine (Cert.Lib.ConcatPair.concat_last3_apply (val_main_v2 (F := Ideal) x0) (val_main_v5 (F := Ideal) x0)
    concatenates_S16x4096x512_S16x4096x512_S16x4096x1024_d2 rfl b p k).trans ?_
  by_cases hk : k.val < 512
  · rw [dif_pos hk, dif_pos hk, left_eq]
  · rw [dif_neg hk, dif_neg hk, right_eq]

/-! ## The first layer -/

/-- The product of pair row `4096 b + p` with row `o` of `W1`: the sum over the 1024 columns splits into the left
    row against columns 0 … 511 and the right row against columns 512 … 1023. -/
theorem dot1_eq (x0 : (⟨S16x64x512, .f32⟩ : BufTy).Contents (Elt Ideal)) (x2 : (⟨S512x1024, .f32⟩ : BufTy).Contents (Elt Ideal))
    (b : Fin 16) (p : Fin 4096) (n : Fin 65536) (hn : n.val = 4096 * b.val + p.val) (o : Fin 512) :
    val_main_v9 (F := Ideal) x0 x2 (ix2 n o)
      = ∑ k : Fin 512, Cert.PairNet.left x0 b p k * x2 (ix2 o ⟨k.val, by have := k.isLt; omega⟩)
        + ∑ k : Fin 512, Cert.PairNet.right x0 b p k * x2 (ix2 o ⟨512 + k.val, by have := k.isLt; omega⟩) := by
  have hl : ∀ k : Fin 1024, lidx_main_v9 (ix2 n o) k = ix2 n k := fun k => funext fun a => Fin.ext (by
    match a with | ⟨0, _⟩ => rfl | ⟨1, _⟩ => rfl)
  have hr : ∀ k : Fin 1024, idx_main_v8 (ridx_main_v9 (ix2 n o) k) = ix2 o k := fun k => funext fun a => Fin.ext (by
    match a with | ⟨0, _⟩ => rfl | ⟨1, _⟩ => rfl)
  have hterm : ∀ k : Fin 1024,
      val_main_v7 (F := Ideal) x0 (lidx_main_v9 (ix2 n o) k) * val_main_v8 (F := Ideal) x2 (ridx_main_v9 (ix2 n o) k)
        = (if hk : k.val < 512 then Cert.PairNet.left x0 b p ⟨k.val, hk⟩
            else Cert.PairNet.right x0 b p ⟨k.val - 512, by have := k.isLt; omega⟩) * x2 (ix2 o k) := fun k => by
    rw [hl k, row_eq x0 b p n hn k, val_main_v8_apply, hr k]
  rw [val_main_v9_apply]
  refine (Finset.sum_congr rfl fun k _ => hterm k).trans ?_
  refine (Cert.PairNet.sum_halves _).trans ?_
  refine congrArg₂ (· + ·) (Finset.sum_congr rfl fun k _ => ?_) (Finset.sum_congr rfl fun k _ => ?_)
  · dsimp only
    rw [dif_pos k.isLt]
  · dsimp only
    rw [dif_neg (by omega : ¬ 512 + k.val < 512)]
    simp only [Nat.add_sub_cancel_left, Fin.eta]

/-- The first layer on pair row `4096 b + p`: the product, the bias of column `o`, and the clip at the zero word. -/
theorem layer1_eq (x0 : (⟨S16x64x512, .f32⟩ : BufTy).Contents (Elt Ideal)) (x2 : (⟨S512x1024, .f32⟩ : BufTy).Contents (Elt Ideal))
    (x3 : (⟨S512, .f32⟩ : BufTy).Contents (Elt Ideal))
    (b : Fin 16) (p : Fin 4096) (n : Fin 65536) (hn : n.val = 4096 * b.val + p.val) (o : Fin 512) :
    val_main_v13 (F := Ideal) x0 x2 x3 (ix2 n o)
      = Cert.PairNet.layer1 x2 x3 (Cert.PairNet.left x0 b p) (Cert.PairNet.right x0 b p) o := by
  have hbias : idx_main_v10 (idx_main_v11 (ix2 n o)) = ix1 o := funext fun a => Fin.ext (by
    match a with | ⟨0, _⟩ => rfl)
  rw [val_main_v13_apply, val_main_v12_apply, val_main_call0_v0_apply, val_main_call0_cst_apply,
    val_main_v11_apply, val_main_v10_apply, hbias, dot1_eq x0 x2 b p n hn o]
  simp only [Ideal.maximumf_def, Ideal.addf_def, Ideal.ofBits_def, Ideal.ofBits_zero_f32]
  rfl

/-! ## The two later layers -/

/-- The second layer on pair row `4096 b + p`: the first layer's row against row `o` of `W2`, the bias, the clip. -/
theorem layer2_eq (x0 : (⟨S16x64x512, .f32⟩ : BufTy).Contents (Elt Ideal)) (x2 : (⟨S512x1024, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal))
    (b : Fin 16) (p : Fin 4096) (n : Fin 65536) (hn : n.val = 4096 * b.val + p.val) (o : Fin 512) :
    val_main_v19 (F := Ideal) x0 x2 x3 x4 x5 (ix2 n o)
      = Cert.PairNet.layer x4 x5 (Cert.PairNet.layer1 x2 x3 (Cert.PairNet.left x0 b p) (Cert.PairNet.right x0 b p)) o := by
  have hl : ∀ k : Fin 512, lidx_main_v15 (ix2 n o) k = ix2 n k := fun k => funext fun a => Fin.ext (by
    match a with | ⟨0, _⟩ => rfl | ⟨1, _⟩ => rfl)
  have hr : ∀ k : Fin 512, idx_main_v14 (ridx_main_v15 (ix2 n o) k) = ix2 o k := fun k => funext fun a => Fin.ext (by
    match a with | ⟨0, _⟩ => rfl | ⟨1, _⟩ => rfl)
  have hbias : idx_main_v16 (idx_main_v17 (ix2 n o)) = ix1 o := funext fun a => Fin.ext (by
    match a with | ⟨0, _⟩ => rfl)
  have hterm : ∀ k : Fin 512,
      val_main_v13 (F := Ideal) x0 x2 x3 (lidx_main_v15 (ix2 n o) k) * val_main_v14 (F := Ideal) x4 (ridx_main_v15 (ix2 n o) k)
        = Cert.PairNet.layer1 x2 x3 (Cert.PairNet.left x0 b p) (Cert.PairNet.right x0 b p) k * x4 (ix2 o k) := fun k => by
    rw [hl k, layer1_eq x0 x2 x3 b p n hn k, val_main_v14_apply, hr k]
  rw [val_main_v19_apply, val_main_v18_apply, val_main_call1_v0_apply, val_main_call1_cst_apply,
    val_main_v17_apply, val_main_v16_apply, hbias, val_main_v15_apply, Finset.sum_congr rfl fun k _ => hterm k]
  simp only [Ideal.maximumf_def, Ideal.addf_def, Ideal.ofBits_def, Ideal.ofBits_zero_f32]
  rfl

/-- The third layer on pair row `4096 b + p`: the second layer's row against row `o` of `W3`, the bias, the clip. -/
theorem layer3_eq (x0 : (⟨S16x64x512, .f32⟩ : BufTy).Contents (Elt Ideal)) (x2 : (⟨S512x1024, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal))
    (x7 : (⟨S512, .f32⟩ : BufTy).Contents (Elt Ideal))
    (b : Fin 16) (p : Fin 4096) (n : Fin 65536) (hn : n.val = 4096 * b.val + p.val) (o : Fin 512) :
    val_main_v25 (F := Ideal) x0 x2 x3 x4 x5 x6 x7 (ix2 n o) = Cert.PairNet.hid3 x0 x2 x3 x4 x5 x6 x7 b p o := by
  have hl : ∀ k : Fin 512, lidx_main_v21 (ix2 n o) k = ix2 n k := fun k => funext fun a => Fin.ext (by
    match a with | ⟨0, _⟩ => rfl | ⟨1, _⟩ => rfl)
  have hr : ∀ k : Fin 512, idx_main_v20 (ridx_main_v21 (ix2 n o) k) = ix2 o k := fun k => funext fun a => Fin.ext (by
    match a with | ⟨0, _⟩ => rfl | ⟨1, _⟩ => rfl)
  have hbias : idx_main_v22 (idx_main_v23 (ix2 n o)) = ix1 o := funext fun a => Fin.ext (by
    match a with | ⟨0, _⟩ => rfl)
  have hterm : ∀ k : Fin 512,
      val_main_v19 (F := Ideal) x0 x2 x3 x4 x5 (lidx_main_v21 (ix2 n o) k) * val_main_v20 (F := Ideal) x6 (ridx_main_v21 (ix2 n o) k)
        = Cert.PairNet.layer x4 x5 (Cert.PairNet.layer1 x2 x3 (Cert.PairNet.left x0 b p) (Cert.PairNet.right x0 b p)) k
            * x6 (ix2 o k) := fun k => by
    rw [hl k, layer2_eq x0 x2 x3 x4 x5 b p n hn k, val_main_v20_apply, hr k]
  rw [val_main_v25_apply, val_main_v24_apply, val_main_call2_v0_apply, val_main_call2_cst_apply,
    val_main_v23_apply, val_main_v22_apply, hbias, val_main_v21_apply, Finset.sum_congr rfl fun k _ => hterm k]
  simp only [Ideal.maximumf_def, Ideal.addf_def, Ideal.ofBits_def, Ideal.ofBits_zero_f32]
  rfl

/-! ## The mean over the pairs -/

/-- The sentence embedding: entry `(b, p, f)` of the regrouped rows is row `4096 b + p` at column `f`; the sum over
    the 4096 pairs starts from the zero word, and the quotient is by the word for 4096. -/
theorem sent_eq (x0 : (⟨S16x64x512, .f32⟩ : BufTy).Contents (Elt Ideal)) (x2 : (⟨S512x1024, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal))
    (x7 : (⟨S512, .f32⟩ : BufTy).Contents (Elt Ideal)) (b : Fin 16) (f : Fin 512) :
    Cert.ReferenceIdeal.Read.val_main_v29 (F := Ideal) x0 x2 x3 x4 x5 x6 x7 (ValueIdx.ix2 b f)
      = Cert.PairNet.sent x0 x2 x3 x4 x5 x6 x7 b f := by
  have hrow : ∀ p : Fin 4096,
      val_main_v26 (F := Ideal) x0 x2 x3 x4 x5 x6 x7 (idx_main_v27 (ix2 b f) p)
        = Cert.PairNet.hid3 x0 x2 x3 x4 x5 x6 x7 b p f := fun p => by
    have hb := b.isLt; have hp := p.isLt; have hf := f.isLt
    have hi : idx_main_v26 (idx_main_v27 (ix2 b f) p)
        = ix2 (⟨4096 * b.val + p.val, by omega⟩ : Fin 65536) f := funext fun a => Fin.ext (by
      match a with
      | ⟨0, _⟩ => show ((b.val * 4096 + p.val) * 512 + f.val) / 512 = 4096 * b.val + p.val; omega
      | ⟨1, _⟩ => show ((b.val * 4096 + p.val) * 512 + f.val) % 512 = f.val; omega)
    rw [val_main_v26_apply, hi]
    exact layer3_eq x0 x2 x3 x4 x5 x6 x7 b p _ rfl f
  rw [val_main_v29_apply, val_main_v28_apply, val_main_cst_0_apply, val_main_v27_apply, val_main_cst_apply,
    Finset.sum_congr rfl fun p _ => hrow p]
  simp only [Ideal.hostDivf_def, Ideal.ofBits_def, Ideal.ofBits_zero_f32, zero_add]
  rfl

end Cert.ReferenceIdeal.RefValue

end
-- ==== Proof.RefImageHead.lean ====
/-
  The reference program's image branch and head, read entry by entry.

  The image branch is a linear layer: entry (b, f) is the sum over the 2048 input columns k of x1 (b, k) · x8 (f, k)
  (the weight is used transposed) plus the bias x9 f. Column f is then normalised over the 16 rows: its mean is the sum
  of the column over b divided by the word for 16; the deviation is the entry less that mean; the variance is the sum
  over b of the squared deviations divided by the same word. The branch's result at (b, f) is
  x10 f · deviation · rsqrt (variance + ε word) + x11 f, the two products taken left to right, clipped below at 0.

  The head lays the sentence embedding and the image embedding side by side (1024 columns), multiplies by x12
  transposed, adds the bias x13, clips at 0, multiplies by x14 transposed and adds the bias x15.
-/
import proofs.«107744_j16612933501585_2_alg».proof.Proof.Gen.ReferenceIdeal.Read
import proofs.«107744_j16612933501585_2_alg».proof.Proof.Spec
import proofs.«107744_j16612933501585_2_alg».proof.Proof.LibConcatPair

noncomputable section

namespace Cert.ReferenceIdeal.RefValue2

open Cert.ReferenceIdeal Cert.ReferenceIdeal.Gen Cert.ReferenceIdeal.Read Idealize.ShloMosaic Idealize.ShloMosaic.ValueIdx

section Image

variable (x1 : (⟨S16x2048, .f32⟩ : BufTy).Contents (Elt Ideal)) (x8 : (⟨S512x2048, .f32⟩ : BufTy).Contents (Elt Ideal))
  (x9 x10 x11 : (⟨S512, .f32⟩ : BufTy).Contents (Elt Ideal))

/-! ### Where each operand is read -/

/-- The product's left operand at output (b, f), contraction coordinate k: row b, column k. -/
theorem lidx31_eq (b : Fin 16) (f : Fin 512) (k : Fin 2048) : lidx_main_v31 (ix2 b f) k = ix2 b k :=
  funext fun a => Fin.ext (by match a with | ⟨0, _⟩ => rfl | ⟨1, _⟩ => rfl)

/-- The transposed weight at (k, f) is the weight at (f, k). -/
theorem ridx31_eq (b : Fin 16) (f : Fin 512) (k : Fin 2048) :
    idx_main_v30 (ridx_main_v31 (ix2 b f) k) = ix2 f k :=
  funext fun a => Fin.ext (by match a with | ⟨0, _⟩ => rfl | ⟨1, _⟩ => rfl)

/-- A vector laid as a row and repeated over the rows is read, at (b, f), at f. -/
theorem row33_eq (b : Fin 16) (f : Fin 512) : idx_main_v32 (idx_main_v33 (ix2 b f)) = ix1 f :=
  funext fun a => Fin.ext (by match a with | ⟨0, _⟩ => rfl)

/-- The linear layer at (b, f). -/
theorem lin_eq (b : Fin 16) (f : Fin 512) :
    val_main_v34 (F := Ideal) x1 x8 x9 (ix2 b f) = PairNet.lin x1 x8 x9 b f := by
  rw [val_main_v34_apply, val_main_v31_apply, val_main_v33_apply, val_main_v32_apply, row33_eq]
  simp only [val_main_v30_apply, lidx31_eq, ridx31_eq, Ideal.addf_def]
  rfl

/-- Row k of column f, as the column sum reads it. -/
theorem col35_eq (f : Fin 512) (k : Fin 16) : idx_main_v35 (ix1 f) k = ix2 k f :=
  funext fun a => Fin.ext (by match a with | ⟨0, _⟩ => rfl | ⟨1, _⟩ => rfl)

/-- The mean of column f: the column's sum (started from the zero word, which is 0) over the word for 16. -/
theorem mu_eq (f : Fin 512) :
    val_main_v37 (F := Ideal) x1 x8 x9 (ix1 f) = PairNet.mu x1 x8 x9 f := by
  rw [val_main_v37_apply, val_main_v35_apply, val_main_v36_apply, val_main_cst_1_apply, val_main_cst_2_apply]
  simp only [col35_eq, lin_eq, Ideal.ofBits_def, Ideal.ofBits_zero_f32, zero_add, Ideal.hostDivf_def]
  rfl

/-- The mean laid as a row and repeated over the rows is read, at (b, f), at f (first use). -/
theorem row39_eq (b : Fin 16) (f : Fin 512) : idx_main_v38 (idx_main_v39 (ix2 b f)) = ix1 f :=
  funext fun a => Fin.ext (by match a with | ⟨0, _⟩ => rfl)

/-- The same reading for the second copy of the repeated mean. -/
theorem row46_eq (b : Fin 16) (f : Fin 512) : idx_main_v45 (idx_main_v46 (ix2 b f)) = ix1 f :=
  funext fun a => Fin.ext (by match a with | ⟨0, _⟩ => rfl)

/-- The deviation at (b, f), as the variance uses it. -/
theorem dev40_eq (b : Fin 16) (f : Fin 512) :
    val_main_v40 (F := Ideal) x1 x8 x9 (ix2 b f) = PairNet.dev x1 x8 x9 b f := by
  rw [val_main_v40_apply, val_main_v39_apply, val_main_v38_apply, row39_eq, lin_eq, mu_eq]
  rfl

/-- The deviation at (b, f), as the scaled output uses it. -/
theorem dev47_eq (b : Fin 16) (f : Fin 512) :
    val_main_v47 (F := Ideal) x1 x8 x9 (ix2 b f) = PairNet.dev x1 x8 x9 b f := by
  rw [val_main_v47_apply, val_main_v46_apply, val_main_v45_apply, row46_eq, lin_eq, mu_eq]
  rfl

/-- Row k of column f, as the sum of squares reads it. -/
theorem col42_eq (f : Fin 512) (k : Fin 16) : idx_main_v42 (ix1 f) k = ix2 k f :=
  funext fun a => Fin.ext (by match a with | ⟨0, _⟩ => rfl | ⟨1, _⟩ => rfl)

/-- The variance of column f: the sum over the rows of the squared deviations over the word for 16. -/
theorem var_eq (f : Fin 512) :
    val_main_v44 (F := Ideal) x1 x8 x9 (ix1 f) = PairNet.var x1 x8 x9 f := by
  rw [val_main_v44_apply, val_main_v42_apply, val_main_v43_apply, val_main_cst_3_apply, val_main_cst_4_apply]
  simp only [col42_eq, val_main_v41_apply, dev40_eq, Ideal.mulf_def, Ideal.ofBits_def, Ideal.ofBits_zero_f32, zero_add,
    Ideal.hostDivf_def]
  rfl

/-- A vector laid as a row and repeated over the rows is read, at (b, f), at f (the scale). -/
theorem row49_eq (b : Fin 16) (f : Fin 512) : idx_main_v48 (idx_main_v49 (ix2 b f)) = ix1 f :=
  funext fun a => Fin.ext (by match a with | ⟨0, _⟩ => rfl)

/-- The same reading for the inverse root. -/
theorem row55_eq (b : Fin 16) (f : Fin 512) : idx_main_v54 (idx_main_v55 (ix2 b f)) = ix1 f :=
  funext fun a => Fin.ext (by match a with | ⟨0, _⟩ => rfl)

/-- The same reading for the shift. -/
theorem row58_eq (b : Fin 16) (f : Fin 512) : idx_main_v57 (idx_main_v58 (ix2 b f)) = ix1 f :=
  funext fun a => Fin.ext (by match a with | ⟨0, _⟩ => rfl)

/-- The inverse root of the variance plus the ε word, at f. -/
theorem rsqrt_eq (f : Fin 512) :
    val_main_v53 (F := Ideal) x1 x8 x9 (ix1 f) = Ideal.rsqrt (PairNet.var x1 x8 x9 f + PairNet.wordEps) := by
  rw [val_main_v53_apply, val_main_v52_apply, val_main_v51_apply, val_main_cst_5_apply, var_eq]
  rfl

/-- The image branch at (b, f): scale · deviation · inverse root + shift, clipped at 0. -/
theorem img_eq (x1 : (⟨S16x2048, .f32⟩ : BufTy).Contents (Elt Ideal)) (x8 : (⟨S512x2048, .f32⟩ : BufTy).Contents (Elt Ideal))
    (x9 x10 x11 : (⟨S512, .f32⟩ : BufTy).Contents (Elt Ideal)) (b : Fin 16) (f : Fin 512) :
    Cert.ReferenceIdeal.Read.val_main_v60 (F := Ideal) x1 x8 x9 x10 x11 (ValueIdx.ix2 b f)
      = Cert.PairNet.img x1 x8 x9 x10 x11 b f := by
  rw [val_main_v60_apply, val_main_v59_apply, val_main_v56_apply, val_main_v50_apply,
    val_main_v49_apply, val_main_v48_apply, row49_eq,
    val_main_v55_apply, val_main_v54_apply, row55_eq, rsqrt_eq,
    val_main_v58_apply, val_main_v57_apply, row58_eq, dev47_eq,
    val_main_call3_v0_apply, val_main_call3_cst_apply]
  simp only [Ideal.ofBits_def, Ideal.ofBits_zero_f32, Ideal.addf_def, Ideal.mulf_def, Ideal.maximumf_def]
  rfl

end Image

section Head

variable (x0 : (⟨S16x64x512, .f32⟩ : BufTy).Contents (Elt Ideal)) (x1 : (⟨S16x2048, .f32⟩ : BufTy).Contents (Elt Ideal))
  (x2 : (⟨S512x1024, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x2048, .f32⟩ : BufTy).Contents (Elt Ideal)) (x9 x10 x11 : (⟨S512, .f32⟩ : BufTy).Contents (Elt Ideal))
  (x12 : (⟨S512x1024, .f32⟩ : BufTy).Contents (Elt Ideal)) (x13 : (⟨S512, .f32⟩ : BufTy).Contents (Elt Ideal))
  (x14 : (⟨S2x512, .f32⟩ : BufTy).Contents (Elt Ideal)) (x15 : (⟨S2, .f32⟩ : BufTy).Contents (Elt Ideal))
  (S I : Fin 16 → Fin 512 → EReal)

/-- The two embeddings side by side at (b, k): the sentence's below column 512, the image's from there on. -/
theorem side_eq
    (hS : ∀ b f, val_main_v29 (F := Ideal) x0 x2 x3 x4 x5 x6 x7 (ix2 b f) = S b f)
    (hI : ∀ b f, val_main_v60 (F := Ideal) x1 x8 x9 x10 x11 (ix2 b f) = I b f) (b : Fin 16) (k : Fin 1024) :
    val_main_v61 (F := Ideal) x0 x1 x2 x3 x4 x5 x6 x7 x8 x9 x10 x11 (ix2 b k) = PairNet.side S I b k := by
  unfold val_main_v61
  refine (Cert.Lib.ConcatPair.concat_last2_apply _ _ concatenates_S16x512_S16x512_S16x1024_d1 rfl b k).trans ?_
  unfold PairNet.side
  by_cases hk : k.val < 512
  · rw [dif_pos hk, dif_pos hk]; exact hS _ _
  · rw [dif_neg hk, dif_neg hk]; exact hI _ _

/-- The first head product's left operand at output (b, o), contraction coordinate k: row b, column k. -/
theorem lidx63_eq (b : Fin 16) (o : Fin 512) (k : Fin 1024) : lidx_main_v63 (ix2 b o) k = ix2 b k :=
  funext fun a => Fin.ext (by match a with | ⟨0, _⟩ => rfl | ⟨1, _⟩ => rfl)

/-- The transposed first head weight at (k, o) is the weight at (o, k). -/
theorem ridx63_eq (b : Fin 16) (o : Fin 512) (k : Fin 1024) :
    idx_main_v62 (ridx_main_v63 (ix2 b o) k) = ix2 o k :=
  funext fun a => Fin.ext (by match a with | ⟨0, _⟩ => rfl | ⟨1, _⟩ => rfl)

/-- The first head bias laid as a row and repeated over the rows is read, at (b, o), at o. -/
theorem row65_eq (b : Fin 16) (o : Fin 512) : idx_main_v64 (idx_main_v65 (ix2 b o)) = ix1 o :=
  funext fun a => Fin.ext (by match a with | ⟨0, _⟩ => rfl)

/-- The first head layer at (b, o): the side-by-side row against row o of x12, plus the bias, clipped at 0. -/
theorem head1_eq
    (hS : ∀ b f, val_main_v29 (F := Ideal) x0 x2 x3 x4 x5 x6 x7 (ix2 b f) = S b f)
    (hI : ∀ b f, val_main_v60 (F := Ideal) x1 x8 x9 x10 x11 (ix2 b f) = I b f) (b : Fin 16) (o : Fin 512) :
    val_main_v67 (F := Ideal) x0 x1 x2 x3 x4 x5 x6 x7 x8 x9 x10 x11 x12 x13 (ix2 b o)
      = PairNet.head1 S I x12 x13 b o := by
  rw [val_main_v67_apply, val_main_v66_apply, val_main_v63_apply, val_main_v65_apply, val_main_v64_apply, row65_eq,
    val_main_call4_v0_apply, val_main_call4_cst_apply]
  simp only [lidx63_eq, side_eq x0 x1 x2 x3 x4 x5 x6 x7 x8 x9 x10 x11 S I hS hI, val_main_v62_apply, ridx63_eq,
    Ideal.ofBits_def, Ideal.ofBits_zero_f32, Ideal.addf_def, Ideal.maximumf_def]
  rfl

/-- The second head product's left operand at output (b, j), contraction coordinate k: row b, column k. -/
theorem lidx69_eq (b : Fin 16) (j : Fin 2) (k : Fin 512) : lidx_main_v69 (ix2 b j) k = ix2 b k :=
  funext fun a => Fin.ext (by match a with | ⟨0, _⟩ => rfl | ⟨1, _⟩ => rfl)

/-- The transposed second head weight at (k, j) is the weight at (j, k). -/
theorem ridx69_eq (b : Fin 16) (j : Fin 2) (k : Fin 512) :
    idx_main_v68 (ridx_main_v69 (ix2 b j) k) = ix2 j k :=
  funext fun a => Fin.ext (by match a with | ⟨0, _⟩ => rfl | ⟨1, _⟩ => rfl)

/-- The second head bias laid as a row and repeated over the rows is read, at (b, j), at j. -/
theorem row71_eq (b : Fin 16) (j : Fin 2) : idx_main_v70 (idx_main_v71 (ix2 b j)) = ix1 j :=
  funext fun a => Fin.ext (by match a with | ⟨0, _⟩ => rfl)

end Head

/-- The head at (b, j): the first head layer's row b against row j of x14, plus the bias x15. -/
theorem head_eq (x0 : (⟨S16x64x512, .f32⟩ : BufTy).Contents (Elt Ideal)) (x1 : (⟨S16x2048, .f32⟩ : BufTy).Contents (Elt Ideal))
    (x2 : (⟨S512x1024, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x2048, .f32⟩ : BufTy).Contents (Elt Ideal)) (x9 x10 x11 : (⟨S512, .f32⟩ : BufTy).Contents (Elt Ideal))
    (x12 : (⟨S512x1024, .f32⟩ : BufTy).Contents (Elt Ideal)) (x13 : (⟨S512, .f32⟩ : BufTy).Contents (Elt Ideal))
    (x14 : (⟨S2x512, .f32⟩ : BufTy).Contents (Elt Ideal)) (x15 : (⟨S2, .f32⟩ : BufTy).Contents (Elt Ideal))
    (S I : Fin 16 → Fin 512 → EReal)
    (hS : ∀ b f, Cert.ReferenceIdeal.Read.val_main_v29 (F := Ideal) x0 x2 x3 x4 x5 x6 x7 (ValueIdx.ix2 b f) = S b f)
    (hI : ∀ b f, Cert.ReferenceIdeal.Read.val_main_v60 (F := Ideal) x1 x8 x9 x10 x11 (ValueIdx.ix2 b f) = I b f)
    (b : Fin 16) (j : Fin 2) :
    Cert.ReferenceIdeal.Read.val_main_v72 (F := Ideal) x0 x1 x2 x3 x4 x5 x6 x7 x8 x9 x10 x11 x12 x13 x14 x15 (ValueIdx.ix2 b j)
      = Cert.PairNet.head2 S I x12 x13 x14 x15 b j := by
  rw [val_main_v72_apply, val_main_v69_apply, val_main_v71_apply, val_main_v70_apply, row71_eq]
  simp only [lidx69_eq, head1_eq x0 x1 x2 x3 x4 x5 x6 x7 x8 x9 x10 x11 x12 x13 S I hS hI, val_main_v68_apply, ridx69_eq,
    Ideal.addf_def]
  rfl

end Cert.ReferenceIdeal.RefValue2

end
-- ==== Proof.RefNet.lean ====
/-
  The reference's result is the network of the specification, entry by entry: its sentence embedding and its image
  embedding are the specification's, and its head reads them side by side.
-/
import proofs.«107744_j16612933501585_2_alg».proof.Proof.RefSentence
import proofs.«107744_j16612933501585_2_alg».proof.Proof.RefImageHead

noncomputable section

namespace Cert.ReferenceIdeal.RefNet

open Cert.ReferenceIdeal Idealize.ShloMosaic Idealize.ShloMosaic.ValueIdx

theorem net_eq (x0 : (⟨S16x64x512, .f32⟩ : BufTy).Contents (Elt Ideal)) (x1 : (⟨S16x2048, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x2048, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512x1024, .f32⟩ : BufTy).Contents (Elt Ideal)) (x13 : (⟨S512, .f32⟩ : BufTy).Contents (Elt Ideal)) (x14 : (⟨S2x512, .f32⟩ : BufTy).Contents (Elt Ideal)) (x15 : (⟨S2, .f32⟩ : BufTy).Contents (Elt Ideal)) :
    Cert.ReferenceIdeal.Read.val_main_v72 (F := Ideal) x0 x1 x2 x3 x4 x5 x6 x7 x8 x9 x10 x11 x12 x13 x14 x15 = Cert.PairNet.net x0 x1 x2 x3 x4 x5 x6 x7 x8 x9 x10 x11 x12 x13 x14 x15 := by
  funext i
  obtain ⟨b, j, rfl⟩ : ∃ (b : Fin 16) (j : Fin 2), i = ix2 b j := ⟨i 0, i 1, eq_ix2 i⟩
  exact Cert.ReferenceIdeal.RefValue2.head_eq x0 x1 x2 x3 x4 x5 x6 x7 x8 x9 x10 x11 x12 x13 x14 x15
    (Cert.PairNet.sent x0 x2 x3 x4 x5 x6 x7) (Cert.PairNet.img x1 x8 x9 x10 x11)
    (fun b f => Cert.ReferenceIdeal.RefValue.sent_eq x0 x2 x3 x4 x5 x6 x7 b f)
    (fun b f => Cert.ReferenceIdeal.RefValue2.img_eq x1 x8 x9 x10 x11 b f) b j

end Cert.ReferenceIdeal.RefNet

end
-- ==== Proof.lean ====
/-
  The certificate of the pair network against its jnp reference, over the extended reals.

  Both programs compute one function of the sixteen argument arrays (Proof/Spec.lean, `Cert.PairNet.net`): every
  ordered pair of a sentence's 64 tokens goes through three layers `max (x · Wᵀ + bias) 0`, the sentence embedding is
  the mean over the 4096 pairs, the image branch is a linear layer normalised over the batch, and a two-layer head
  reads the two embeddings side by side.

  The kernel is two calls among host operations. The first call walks 32 grid points (sentence `t / 2`, tile
  `t mod 2` of 2048 pairs), adds each tile's column sums into the sentence's row of a [16, 512] accumulator that is
  written back once, after the last point, scaled by the word for 2⁻¹² (Proof/PairCases, PairBody, PairArrays,
  PairAccum, PairFinal, PairTie). The second call has one point and computes the image branch and the head
  (Proof/HeadBody, HeadArrays, HeadResult, HeadTie). The reference is one straight line of host operations
  (Proof/RefSentence, RefImageHead, RefNet).

  The laws that join the two sides hold on every extended real: a sum over 1024 columns is the sum over its two
  halves, a sum over 4096 pairs is the sum over its two tiles, adding the zero word changes nothing, and multiplying
  by 2⁻¹² is dividing by 4096 (both words are exact). So the precondition is never opened. The idealization rewrote
  no operation, so that conjunct is `True`.
-/
import proofs.«107744_j16612933501585_2_alg».proof.Defs
import proofs.«107744_j16612933501585_2_alg».proof.Proof.Gen.Kernel
import proofs.«107744_j16612933501585_2_alg».proof.Proof.Gen.Kernel.Frame
import proofs.«107744_j16612933501585_2_alg».proof.Proof.Gen.KernelIdeal
import proofs.«107744_j16612933501585_2_alg».proof.Proof.Gen.KernelIdeal.Frame
import proofs.«107744_j16612933501585_2_alg».proof.Proof.Gen.ReferenceIdeal
import proofs.«107744_j16612933501585_2_alg».proof.Proof.Gen.ReferenceIdeal.Run
import proofs.«107744_j16612933501585_2_alg».proof.Proof.Gen.ReferenceIdeal.Read
import proofs.«107744_j16612933501585_2_alg».proof.Proof.Gen.Pre_finite_inputs
import proofs.«107744_j16612933501585_2_alg».proof.Proof.KernelRun
import proofs.«107744_j16612933501585_2_alg».proof.Proof.PairArrays
import proofs.«107744_j16612933501585_2_alg».proof.Proof.PairTie
import proofs.«107744_j16612933501585_2_alg».proof.Proof.HeadTie
import proofs.«107744_j16612933501585_2_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's result array ends at the network of its arguments: the head's call reads the sentence
    embeddings the pair network's call left. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W4 m ρ c (Proc.devRef .tc Cert.KernelIdeal.main_v33) : Cert.KernelIdeal.S16x2.Idx → EReal)
      = Cert.PairNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) :=
  Cert.KernelIdeal.HeadTie.result_eq m ρ c fun b f =>
    Cert.KernelIdeal.PairTie.sent_array m ρ c
      (fun t p k => Cert.KernelIdeal.PairArrays.left_block m ρ c t p k)
      (fun t p k => Cert.KernelIdeal.PairArrays.right_block m ρ c t p k)
      (fun t k o => Cert.KernelIdeal.PairArrays.w1a_block m ρ c t k o)
      (fun t k o => Cert.KernelIdeal.PairArrays.w1b_block m ρ c t k o)
      (fun t o => Cert.KernelIdeal.PairArrays.b1_block m ρ c t o)
      (fun t k o => Cert.KernelIdeal.PairArrays.w2_block m ρ c t k o)
      (fun t o => Cert.KernelIdeal.PairArrays.b2_block m ρ c t o)
      (fun t k o => Cert.KernelIdeal.PairArrays.w3_block m ρ c t k o)
      (fun t o => Cert.KernelIdeal.PairArrays.b3_block m ρ c t o) b f

/-- From memories that agree on the arguments both programs end with the network of those arguments as result. -/
theorem algebraic : Cert.algebraic_KernelIdeal_ReferenceIdeal := by
  intro m ρ m' ρ' _ hagree
  refine ⟨fun c => Cert.PairNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (kernel_value m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v72_eq, Cert.ReferenceIdeal.RefNet.net_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
